-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096x4096 32) (main_arg2 : IVec S4096x4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S128x1024 : Shape := ⟨2, ![128, 1024]⟩
abbrev S128x4096 : Shape := ⟨2, ![128, 4096]⟩
abbrev S128x1 : Shape := ⟨2, ![128, 1]⟩
abbrev S128 : Shape := ⟨1, ![128]⟩

abbrev nBuf : Space → Nat
  | .hbm => 36
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x4096, .i32⟩
  | .hbm, ⟨2, _⟩ => ⟨S4096x4096, .i32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .i1⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S4096x1024, .f32⟩
  | .local _ .vmem, ⟨3, _⟩ => ⟨S128x4096, .i32⟩
  | .local _ .vmem, ⟨4, _⟩ => ⟨S128x4096, .i32⟩
  | .local _ .vmem, ⟨5, _⟩ => ⟨S128x4096, .i32⟩
  | .local _ .vmem, ⟨6, _⟩ => ⟨S128x4096, .i32⟩
  | .local _ .vmem, ⟨7, _⟩ => ⟨S128x1, .f32⟩
  | .local _ .vmem, ⟨8, _⟩ => ⟨S128x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_cst_6 : Ref sig .tc := ⟨.hbm, 33, rfl⟩
abbrev main_call1_v0 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  natLt_1_32 : 1 < 32
  inb_S128x1_S128x1_0_0 : ∀ a, (![0, 0] : Fin 2 → Nat) a + S128x1.size a ≤ S128x1.size a
  h_S128x1 : 0 < S128x1.numel
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .i32 = 32 ∨ (Rect.block (s := S4096x4096) S128x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .i32 = 32 ∨ (Rect.block (s := S4096x4096) S128x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v7) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 172
  | .vmem => 0
  | .smem => 0
  | _ => 0

abbrev hbmTy0_0 (i : Nat) : BufTy := match i % 128 with
  | 0 => ⟨S4096x1024, .f32⟩
  | 1 => ⟨S4096x4096, .i32⟩
  | 2 => ⟨S4096x4096, .i32⟩
  | 3 => ⟨S_, .i32⟩
  | 4 => ⟨S4096x4096, .i32⟩
  | 5 => ⟨S4096x4096, .i1⟩
  | 6 => ⟨S4096x4096, .i1⟩
  | 7 => ⟨S_, .i32⟩
  | 8 => ⟨S4096x4096, .i32⟩
  | 9 => ⟨S4096x4096, .i1⟩
  | 10 => ⟨S4096x4096, .i1⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1024x4096, .f32⟩
  | 22 => ⟨S4096x4096, .f32⟩
  | 23 => ⟨S_, .f32⟩
  | 24 => ⟨S4096x4096, .f32⟩
  | 25 => ⟨S4096x4096, .f32⟩
  | 26 => ⟨S_, .f32⟩
  | 27 => ⟨S4096x4096, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S_, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S_, .f32⟩
  | 51 => ⟨S4096x4096, .f32⟩
  | 52 => ⟨S4096x4096, .f32⟩
  | 53 => ⟨S4096x4096, .f32⟩
  | 54 => ⟨S_, .f32⟩
  | 55 => ⟨S4096x4096, .f32⟩
  | 56 => ⟨S4096x4096, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .i1⟩
  | 63 => ⟨S_, .f32⟩
  | 64 => ⟨S_, .f32⟩
  | 65 => ⟨S4096x1, .f32⟩
  | 66 => ⟨S4096x1, .f32⟩
  | 67 => ⟨S4096x4096, .f32⟩
  | 68 => ⟨S4096x4096, .f32⟩
  | 69 => ⟨S_, .f32⟩
  | 70 => ⟨S_, .f32⟩
  | 71 => ⟨S4096x4096, .f32⟩
  | 72 => ⟨S4096x4096, .f32⟩
  | 73 => ⟨S4096x4096, .f32⟩
  | 74 => ⟨S4096x4096, .f32⟩
  | 75 => ⟨S4096x4096, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .i1⟩
  | 82 => ⟨S4096x1, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x4096, .f32⟩
  | 89 => ⟨S4096x4096, .f32⟩
  | 90 => ⟨S_, .f32⟩
  | 91 => ⟨S4096, .f32⟩
  | 92 => ⟨S4096x1, .f32⟩
  | 93 => ⟨S_, .f32⟩
  | 94 => ⟨S4096x1, .f32⟩
  | 95 => ⟨S4096x1, .i1⟩
  | 96 => ⟨S_, .f32⟩
  | 97 => ⟨S_, .f32⟩
  | 98 => ⟨S4096x1, .f32⟩
  | 99 => ⟨S4096x1, .f32⟩
  | 100 => ⟨S4096x4096, .f32⟩
  | 101 => ⟨S4096x4096, .f32⟩
  | 102 => ⟨S_, .f32⟩
  | 103 => ⟨S_, .f32⟩
  | 104 => ⟨S4096x4096, .f32⟩
  | 105 => ⟨S4096x4096, .f32⟩
  | 106 => ⟨S4096x4096, .f32⟩
  | 107 => ⟨S4096x4096, .f32⟩
  | 108 => ⟨S4096x4096, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .i1⟩
  | 115 => ⟨S4096x1, .f32⟩
  | 116 => ⟨S4096x1, .f32⟩
  | 117 => ⟨S4096x1, .f32⟩
  | 118 => ⟨S4096x1, .f32⟩
  | 119 => ⟨S4096x1, .f32⟩
  | 120 => ⟨S4096x1, .f32⟩
  | 121 => ⟨S_, .f32⟩
  | 122 => ⟨S4096x1, .f32⟩
  | 123 => ⟨S4096x1, .f32⟩
  | 124 => ⟨S4096x1, .f32⟩
  | 125 => ⟨S4096x1, .f32⟩
  | 126 => ⟨S4096x1, .i1⟩
  | 127 => ⟨S4096x1, .f32⟩
  | _ => ⟨S4096x1024, .f32⟩

abbrev hbmTy0_1 (i : Nat) : BufTy := match i % 128 with
  | 0 => ⟨S4096x1, .f32⟩
  | 1 => ⟨S4096x1, .f32⟩
  | 2 => ⟨S4096x1, .f32⟩
  | 3 => ⟨S4096x1, .f32⟩
  | 4 => ⟨S4096x1, .f32⟩
  | 5 => ⟨S4096x1, .f32⟩
  | 6 => ⟨S4096x1, .f32⟩
  | 7 => ⟨S4096, .f32⟩
  | 8 => ⟨S4096x4096, .i32⟩
  | 9 => ⟨S_, .i32⟩
  | 10 => ⟨S4096, .i32⟩
  | 11 => ⟨S_, .i32⟩
  | 12 => ⟨S4096, .i32⟩
  | 13 => ⟨S4096, .i1⟩
  | 14 => ⟨S4096x4096, .i32⟩
  | 15 => ⟨S_, .i32⟩
  | 16 => ⟨S4096, .i32⟩
  | 17 => ⟨S_, .i32⟩
  | 18 => ⟨S4096, .i32⟩
  | 19 => ⟨S4096, .i1⟩
  | 20 => ⟨S4096, .i1⟩
  | 21 => ⟨S4096, .f32⟩
  | 22 => ⟨S4096, .f32⟩
  | 23 => ⟨S_, .f32⟩
  | 24 => ⟨S4096, .f32⟩
  | 25 => ⟨S4096, .i1⟩
  | 26 => ⟨S4096, .i32⟩
  | 27 => ⟨S_, .i32⟩
  | 28 => ⟨S_, .i32⟩
  | 29 => ⟨S_, .f32⟩
  | 30 => ⟨S_, .f32⟩
  | 31 => ⟨S4096, .f32⟩
  | 32 => ⟨S4096, .f32⟩
  | 33 => ⟨S_, .f32⟩
  | 34 => ⟨S_, .f32⟩
  | 35 => ⟨S_, .i32⟩
  | 36 => ⟨S_, .i32⟩
  | 37 => ⟨S_, .f32⟩
  | 38 => ⟨S_, .f32⟩
  | 39 => ⟨S_, .i32⟩
  | 40 => ⟨S_, .i1⟩
  | 41 => ⟨S_, .f32⟩
  | 42 => ⟨S_, .f32⟩
  | 43 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_call1_cst : Ref sig .tc := ⟨.hbm, 39, rfl⟩
abbrev main_call1_v0 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_call4_v0 : Ref sig .tc := ⟨.hbm, 55, rfl⟩
abbrev main_v34 : Ref sig .tc := ⟨.hbm, 56, rfl⟩
abbrev main_cst_10 : Ref sig .tc := ⟨.hbm, 57, rfl⟩
abbrev main_v35 : Ref sig .tc := ⟨.hbm, 58, rfl⟩
abbrev main_v36 : Ref sig .tc := ⟨.hbm, 59, rfl⟩
abbrev main_cst_11 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_call5_v0 : Ref sig .tc := ⟨.hbm, 64, rfl⟩
abbrev main_call5_v1 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_13 : Ref sig .tc := ⟨.hbm, 69, rfl⟩
abbrev main_call6_v0 : Ref sig .tc := ⟨.hbm, 70, rfl⟩
abbrev main_call6_v1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_16 : Ref sig .tc := ⟨.hbm, 87, rfl⟩
abbrev main_call8_v0 : Ref sig .tc := ⟨.hbm, 88, rfl⟩
abbrev main_v55 : Ref sig .tc := ⟨.hbm, 89, rfl⟩
abbrev main_cst_17 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_v58 : Ref sig .tc := ⟨.hbm, 94, rfl⟩
abbrev main_v59 : Ref sig .tc := ⟨.hbm, 95, rfl⟩
abbrev main_cst_19 : Ref sig .tc := ⟨.hbm, 96, rfl⟩
abbrev main_call9_v0 : Ref sig .tc := ⟨.hbm, 97, rfl⟩
abbrev main_call9_v1 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_20 : Ref sig .tc := ⟨.hbm, 102, rfl⟩
abbrev main_call10_v0 : Ref sig .tc := ⟨.hbm, 103, rfl⟩
abbrev main_call10_v1 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_21 : Ref sig .tc := ⟨.hbm, 109, rfl⟩
abbrev main_v67 : Ref sig .tc := ⟨.hbm, 110, rfl⟩
abbrev main_v68 : Ref sig .tc := ⟨.hbm, 111, rfl⟩
abbrev main_cst_22 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call12_cst : Ref sig .tc := ⟨.hbm, 121, rfl⟩
abbrev main_call12_v0 : Ref sig .tc := ⟨.hbm, 122, rfl⟩
abbrev main_call12_v1 : Ref sig .tc := ⟨.hbm, 123, rfl⟩
abbrev main_call12_v2 : Ref sig .tc := ⟨.hbm, 124, rfl⟩
abbrev main_call12_v3 : Ref sig .tc := ⟨.hbm, 125, rfl⟩
abbrev main_call12_v4 : Ref sig .tc := ⟨.hbm, 126, rfl⟩
abbrev main_call12_v5 : Ref sig .tc := ⟨.hbm, 127, rfl⟩
abbrev main_call12_v6 : Ref sig .tc := ⟨.hbm, 128, rfl⟩
abbrev main_call12_v7 : Ref sig .tc := ⟨.hbm, 129, rfl⟩
abbrev main_call12_v8 : Ref sig .tc := ⟨.hbm, 130, rfl⟩
abbrev main_call12_v9 : Ref sig .tc := ⟨.hbm, 131, rfl⟩
abbrev main_call12_v10 : Ref sig .tc := ⟨.hbm, 132, rfl⟩
abbrev main_call12_v11 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_c_23 : Ref sig .tc := ⟨.hbm, 137, rfl⟩
abbrev main_v80 : Ref sig .tc := ⟨.hbm, 138, rfl⟩
abbrev main_c_24 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_c_25 : Ref sig .tc := ⟨.hbm, 143, rfl⟩
abbrev main_v84 : Ref sig .tc := ⟨.hbm, 144, rfl⟩
abbrev main_c_26 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_27 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_c_28 : Ref sig .tc := ⟨.hbm, 155, rfl⟩
abbrev main_v93 : Ref sig .tc := ⟨.hbm, 156, rfl⟩
abbrev main_cst_29 : Ref sig .tc := ⟨.hbm, 157, rfl⟩
abbrev main_call13_v0 : Ref sig .tc := ⟨.hbm, 158, rfl⟩
abbrev main_call13_v1 : Ref sig .tc := ⟨.hbm, 159, rfl⟩
abbrev main_v94 : Ref sig .tc := ⟨.hbm, 160, rfl⟩
abbrev main_cst_30 : Ref sig .tc := ⟨.hbm, 161, rfl⟩
abbrev main_v95 : Ref sig .tc := ⟨.hbm, 162, rfl⟩
abbrev main_c_31 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_c_32 : Ref sig .tc := ⟨.hbm, 167, rfl⟩
abbrev main_v99 : Ref sig .tc := ⟨.hbm, 168, rfl⟩
abbrev main_cst_33 : Ref sig .tc := ⟨.hbm, 169, rfl⟩
abbrev main_call14_v0 : Ref sig .tc := ⟨.hbm, 170, rfl⟩
abbrev main_v100 : Ref sig .tc := ⟨.hbm, 171, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  reducesTo_S4096x4096_S4096_d1 : S4096x4096.ReducesTo [1] S4096
  bcast_S4096x1_S4096x4096_0_1 : S4096x1.BroadcastsInDim S4096x4096 (![0, 1] : Fin 2 → Fin S4096x4096.rank)
  shapeCasts_S4096x1_S4096 : S4096x1.ShapeCasts S4096
  natLt_1_32 : 1 < 32
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KBlockBits.lean ====
/-
  What one grid point of the kernel stores: the 128 row losses of its block, as ONE pure function of
  the four blocks it loads (its 128 rows of the normalised embeddings, all 4096 rows of them, and its
  128 rows of the two masks) — the body's arithmetic with the loads substituted, nothing else.
-/
import proofs.«146731_j26792005992922_2_alg».proof.Proof.Gen.Kernel.Skeleton

noncomputable section

namespace Cert.Kernel.KV

open Idealize.ShloMosaic Idealize.SL.Sem Cert.Kernel Cert.Kernel.Gen

variable {F : FTy → Type} [FloatOps F]

/-- The value the body stores into its output block, from its four loads. -/
def blockOut (v0 : Vec F S128x1024 .f32) (v2 : Vec F S4096x1024 .f32) (v5 v8 : Vec F S128x4096 .i32) : FVec F S128x1 .f32 :=
  k0_pay1 (k0_pay2 v5) (k0_pay3 v8)
    (k0_pay6 (k0_pay2 v5) (k0_pay3 v8) (k0_pay4 v0 v2 v5 v8) (k0_pay5 v0 v2 v5 v8) (Scalar.ofBits .f32 0xFF7FFFFF#32))
    (Scalar.ofBits .f32 0x00000000#32)
    (k0_pay7 (k0_pay2 v5) (k0_pay3 v8) (k0_pay4 v0 v2 v5 v8) (k0_pay5 v0 v2 v5 v8) (Scalar.ofBits .f32 0xFF7FFFFF#32))
    (k0_pay8 (F := F))

end Cert.Kernel.KV

end
-- ==== Proof.KernelBody.lean ====
/-
  One grid point of the kernel as a Hoare triple: run on whole staging buffers holding the point's four
  input blocks, the body loads them, computes, and leaves in its output buffer the 128 row losses of the
  block (`KV.blockOut` of the four loads), every input buffer as it found it.
-/
import proofs.«146731_j26792005992922_2_alg».proof.Proof.Gen.Kernel.Launch
import proofs.«146731_j26792005992922_2_alg».proof.Proof.Gen.Kernel.Skeleton
import proofs.«146731_j26792005992922_2_alg».proof.Proof.Gen.Kernel.Points
import proofs.«146731_j26792005992922_2_alg».proof.Proof.KBlockBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: each buffer whole -/

abbrev rIn0 : Rect S128x1024 := Rect.unit (s := S128x1024) ![0, 0] S128x1024.size inb_S128x1024_S128x1024_0_0
abbrev rIn1 : Rect S4096x1024 := Rect.unit (s := S4096x1024) ![0, 0] S4096x1024.size inb_S4096x1024_S4096x1024_0_0
abbrev rIn2 : Rect S128x4096 := Rect.unit (s := S128x4096) ![0, 0] S128x4096.size inb_S128x4096_S128x4096_0_0
abbrev rOut : Rect S128x1 := Rect.unit (s := S128x1) ![0, 0] S128x1.size inb_S128x1_S128x1_0_0

/-- The output buffer after the body, from the contents of the four input buffers: its one store, of the
    block's row losses. -/
def out0_4 (x0 : Vec F S128x1024 .f32) (x1 : Vec F S4096x1024 .f32) (x2 x3 : Vec F S128x4096 .i32) : Vec F S128x1 .f32 :=
  View.canon [⟨rOut, KV.blockOut (View.ld x0 rIn0) (View.ld x1 rIn1) (View.ld x2 rIn2) (View.ld x3 rIn2)⟩]

/-- The one store covers the buffer. -/
theorem cover0_4 (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

set_option maxHeartbeats 4000000 in
/-- The body's triple. -/
theorem sound_kernel0 (c : Dev nD) (E : Set ℕ) (i : grid0.Coords)
    (arg1 : Memref sig .tc .vmem S128x1024 .f32) (harg1 : arg1.IsWhole) (arg2 : Memref sig .tc .vmem S4096x1024 .f32) (harg2 : arg2.IsWhole)
    (arg3 : Memref sig .tc .vmem S128x4096 .i32) (harg3 : arg3.IsWhole) (arg4 : Memref sig .tc .vmem S128x4096 .i32) (harg4 : arg4.IsWhole)
    (arg5 : Memref sig .tc .vmem S128x1 .f32) (harg5 : arg5.IsWhole)
    (x0 : Vec F S128x1024 .f32) (x1 : Vec F S4096x1024 .f32) (x2 x3 : Vec F S128x4096 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__circle_loss_kernel i arg1 harg1 arg2 harg2 arg3 harg3 arg4 harg4 arg5 harg5) K := by
  simp only [cc0__circle_loss_kernel_eq_skeleton]; unfold cc0__circle_loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

end Cert.Kernel.Fr

end
-- ==== Proof.KernelRegion.lean ====
/-
  The pipeline's proof data for the one kernel region, at the buffer contents `V` the region is entered
  with: every input window's staging buffer holds its block of the array at every grid point, the output
  window's buffer holds the row losses of the block; the two windows that read the SAME array (the point's
  128 rows of the normalised embeddings, and all of it) hold it at the two halves of the full share.
-/
import proofs.«146731_j26792005992922_2_alg».proof.Proof.KernelBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body each input buffer at its block and the
    output buffer at the block's row losses; the scoped rest and the generator register untouched; nothing owed;
    the shared array's two readers at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KernelRun.lean ====
/-
  The whole program as a run: ten host operations compute the normalised embeddings, the kernel region
  turns them and the two masks into the 4096 row losses, and four more stretches of host operations reduce
  those to the mean of the positive ones.  The buffer contents at each boundary are a fold from the launch
  memory; the region takes the unscoped buffers apart into its windows' arrays (the array two windows read
  split into the two halves of its share, and joined again at the exit) and puts them back with the output
  array at what the write-backs leave.  Every weakly fair execution terminates, the argument arrays end as
  launched, and the result buffer ends at the fold's value.
-/
import proofs.«146731_j26792005992922_2_alg».proof.Proof.KernelRegion

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v8) ((dat0 (V1 m ρ) c).arrAt 4 cfg0.N)
theorem W2_out (c : Dev nD) : W2 m ρ c (Proc.devRef .tc main_v8) = (dat0 (V1 m ρ) c).arrAt 4 cfg0.N := by
  unfold W2; exact Function.update_self ..
theorem W2_of_ne (c : Dev nD) (b : Ref sig .tc) (hb : b ≠ main_v8) :
    W2 m ρ c (Proc.devRef .tc b) = W1 m ρ c (Proc.devRef .tc b) := by
  unfold W2; exact Function.update_of_ne (fun e => hb (Proc.devRef_injective _ e)) _ _
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg2) := rfl

/-! ## The array two windows read: its share dealt between them and joined again -/

/-- The four distinct buffers behind the five windows' arrays, each whole at the full share, ARE the windows' arrays
    at the same contents: the shared one at the two halves of its share, which compose to the whole. -/
theorem arrays_iff (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (Pipeline.arrBufs (Ix := Unit) (Name := ℕ) (U := UR sig nD τ) (Lvl := ℕ) spec0 c Vc : sProp 𝕄) ⊣⊢ dat.arrays G := by
  have himg : Finset.univ.image (Pipeline.arrRef spec0) = {main_v7, main_arg1, main_arg2, main_v8} := by decide
  have hs0 : dat.share 0 = fullShare.left := by unfold Dat.share; rw [hq0]; rfl
  have hs1 : dat.share 1 = fullShare.right := by unfold Dat.share; rw [hq1]; rfl
  have hs2 : dat.share 2 = fullShare := by unfold Dat.share; rw [hq2]; rfl
  have hs3 : dat.share 3 = fullShare := by unfold Dat.share; rw [hq3]; rfl
  have hs4 : dat.share 4 = fullShare := rfl
  unfold Pipeline.arrBufs Dat.arrays
  rw [himg, bigSep_W0, bigSep_insert (by decide), bigSep_insert (by decide), bigSep_insert (by decide), bigSep_singleton,
    hG 0, hG 1, hG 2, hG 3, hG 4, hs0, hs1, hs2, hs3, hs4]
  rw [(arr_whole0 0).set_eq_univ]
  try rw [(arr_whole0 1).set_eq_univ]
  rw [(arr_whole0 2).set_eq_univ]
  try rw [(arr_whole0 3).set_eq_univ]
  rw [(arr_whole0 4).set_eq_univ]
  show iprop((((c : Thread nD τ).loc main_v7) ↦{fullShare} Vc main_v7) ∗ (((c : Thread nD τ).loc main_arg1) ↦{fullShare} Vc main_arg1)
        ∗ (((c : Thread nD τ).loc main_arg2) ↦{fullShare} Vc main_arg2) ∗ (((c : Thread nD τ).loc main_v8) ↦{fullShare} Vc main_v8))
      ⊣⊢ (iprop((((c : Thread nD τ).loc main_v7) ↦{fullShare.left} Vc main_v7) ∗ (((c : Thread nD τ).loc main_v7) ↦{fullShare.right} Vc main_v7)
        ∗ (((c : Thread nD τ).loc main_arg1) ↦{fullShare} Vc main_arg1)
        ∗ (((c : Thread nD τ).loc main_arg2) ↦{fullShare} Vc main_arg2) ∗ (((c : Thread nD τ).loc main_v8) ↦{fullShare} Vc main_v8)) : sProp 𝕄)
  have hsh : (((c : Thread nD τ).loc main_v7) ↦{fullShare} Vc main_v7 : sProp 𝕄)
      ⊣⊢ iprop((((c : Thread nD τ).loc main_v7) ↦{fullShare.left} Vc main_v7) ∗ (((c : Thread nD τ).loc main_v7) ↦{fullShare.right} Vc main_v7)) :=
    pointsTo_share (PosShare.mem_left_op_right fullShare)
  constructor
  · iintro ⟨H7, H1, H2, H8⟩
    ihave H := hsh.1 $$ H7
    icases H with ⟨Hl, Hr⟩
    isplitl [Hl]; · iexact Hl
    isplitl [Hr]; · iexact Hr
    isplitl [H1]; · iexact H1
    isplitl [H2]; · iexact H2
    iexact H8
  · iintro ⟨Hl, Hr, H1, H2, H8⟩
    isplitl [Hl Hr]
    · iapply hsh.2; isplitl [Hl] <;> iassumption
    isplitl [H1]; · iexact H1
    isplitl [H2]; · iexact H2
    iexact H8

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-- The windows' arrays at the region's exit are the exit contents at their buffers. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c main_v7 (by decide)).symm
  | ⟨1, _⟩ => exact (((dat0 (V1 m ρ) c).arrAt_in 1 rfl _).trans (A_eq0 (V1 m ρ) c 1)).trans (W2_of_ne m ρ c main_v7 (by decide)).symm
  | ⟨2, _⟩ => exact (((dat0 (V1 m ρ) c).arrAt_in 2 rfl _).trans (A_eq0 (V1 m ρ) c 2)).trans (W2_of_ne m ρ c main_arg1 (by decide)).symm
  | ⟨3, _⟩ => exact (((dat0 (V1 m ρ) c).arrAt_in 3 rfl _).trans (A_eq0 (V1 m ρ) c 3)).trans (W2_of_ne m ρ c main_arg2 (by decide)).symm
  | ⟨4, _⟩ => exact (W2_out m ρ c).symm

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄) ⊢ iprop((pdats m ρ 0 c).arrays ((pdats m ρ 0 c).arrAt · 0)
        ∗ Pipeline.unscopedRest spec0 c (V1 m ρ c)) := by
      rw [Pipeline.unscopedBufs_split₀ (Pipeline.pin (pcfgs (F := F)) adm) 0 winFacts₀0.arr_unscoped c (V1 m ρ c)]
      exact sep_mono (arrays_iff c (pdats m ρ 0 c) rfl rfl rfl rfl (V1 m ρ c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ (Pipeline.pin (pcfgs (F := F)) adm) 0 winFacts₀0.arr_unscoped c (V2 m ρ c)]
      refine sep_mono (arrays_iff c (pdats m ρ 0 c) rfl rfl rfl rfl (V2 m ρ c) _ (hF0 m ρ c)).2 (Entails.of_eq ?_)
      unfold Pipeline.unscopedRest
      exact bigSep_congr fun b hb => by
        rw [show V2 m ρ c b = V1 m ρ c b from W2_of_ne m ρ c b fun e => (Finset.mem_sdiff.mp hb).2
          (Finset.mem_image.mpr ⟨4, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)) ]
theorem main_run (c : Dev nD) : main (F := F) c = Pipeline.Seg.run (segs m ρ) := (main_chain c).trans (by chain_rfl)

set_option backward.isDefEq.respectTransparency.types false in
/-- The run: every weakly fair execution terminates, nothing faulting, and in every final state every unscoped
    buffer holds the last boundary's contents. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The frame: the run's final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩

end Cert.Kernel.Fr

end
-- ==== Proof.KBlock.lean ====
/-
  What one grid point of the kernel stores: the 128 row losses of its block, as ONE pure function of
  the four blocks it loads (its 128 rows of the normalised embeddings, all 4096 rows of them, and its
  128 rows of the two masks) — the body's arithmetic with the loads substituted, nothing else.
-/
import proofs.«146731_j26792005992922_2_alg».proof.Proof.Gen.KernelIdeal.Skeleton

noncomputable section

namespace Cert.KernelIdeal.KV

open Idealize.ShloMosaic Idealize.SL.Sem Cert.KernelIdeal Cert.KernelIdeal.Gen

variable {F : FTy → Type} [FloatOps F]

/-- The value the body stores into its output block, from its four loads. -/
def blockOut (v0 : Vec F S128x1024 .f32) (v2 : Vec F S4096x1024 .f32) (v5 v8 : Vec F S128x4096 .i32) : FVec F S128x1 .f32 :=
  k0_pay1 (k0_pay2 v5) (k0_pay3 v8)
    (k0_pay6 (k0_pay2 v5) (k0_pay3 v8) (k0_pay4 v0 v2 v5 v8) (k0_pay5 v0 v2 v5 v8) (Scalar.ofBits .f32 0xFF7FFFFF#32))
    (Scalar.ofBits .f32 0x00000000#32)
    (k0_pay7 (k0_pay2 v5) (k0_pay3 v8) (k0_pay4 v0 v2 v5 v8) (k0_pay5 v0 v2 v5 v8) (Scalar.ofBits .f32 0xFF7FFFFF#32))
    (k0_pay8 (F := F))

end Cert.KernelIdeal.KV

end
-- ==== Proof.KernelIdealBody.lean ====
/-
  One grid point of the kernel as a Hoare triple: run on whole staging buffers holding the point's four
  input blocks, the body loads them, computes, and leaves in its output buffer the 128 row losses of the
  block (`KV.blockOut` of the four loads), every input buffer as it found it.
-/
import proofs.«146731_j26792005992922_2_alg».proof.Proof.Gen.KernelIdeal.Launch
import proofs.«146731_j26792005992922_2_alg».proof.Proof.Gen.KernelIdeal.Skeleton
import proofs.«146731_j26792005992922_2_alg».proof.Proof.Gen.KernelIdeal.Points
import proofs.«146731_j26792005992922_2_alg».proof.Proof.KBlock
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: each buffer whole -/

abbrev rIn0 : Rect S128x1024 := Rect.unit (s := S128x1024) ![0, 0] S128x1024.size inb_S128x1024_S128x1024_0_0
abbrev rIn1 : Rect S4096x1024 := Rect.unit (s := S4096x1024) ![0, 0] S4096x1024.size inb_S4096x1024_S4096x1024_0_0
abbrev rIn2 : Rect S128x4096 := Rect.unit (s := S128x4096) ![0, 0] S128x4096.size inb_S128x4096_S128x4096_0_0
abbrev rOut : Rect S128x1 := Rect.unit (s := S128x1) ![0, 0] S128x1.size inb_S128x1_S128x1_0_0

/-- The output buffer after the body, from the contents of the four input buffers: its one store, of the
    block's row losses. -/
def out0_4 (x0 : Vec F S128x1024 .f32) (x1 : Vec F S4096x1024 .f32) (x2 x3 : Vec F S128x4096 .i32) : Vec F S128x1 .f32 :=
  View.canon [⟨rOut, KV.blockOut (View.ld x0 rIn0) (View.ld x1 rIn1) (View.ld x2 rIn2) (View.ld x3 rIn2)⟩]

/-- The one store covers the buffer. -/
theorem cover0_4 (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

set_option maxHeartbeats 4000000 in
/-- The body's triple. -/
theorem sound_kernel0 (c : Dev nD) (E : Set ℕ) (i : grid0.Coords)
    (arg1 : Memref sig .tc .vmem S128x1024 .f32) (harg1 : arg1.IsWhole) (arg2 : Memref sig .tc .vmem S4096x1024 .f32) (harg2 : arg2.IsWhole)
    (arg3 : Memref sig .tc .vmem S128x4096 .i32) (harg3 : arg3.IsWhole) (arg4 : Memref sig .tc .vmem S128x4096 .i32) (harg4 : arg4.IsWhole)
    (arg5 : Memref sig .tc .vmem S128x1 .f32) (harg5 : arg5.IsWhole)
    (x0 : Vec F S128x1024 .f32) (x1 : Vec F S4096x1024 .f32) (x2 x3 : Vec F S128x4096 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__circle_loss_kernel i arg1 harg1 arg2 harg2 arg3 harg3 arg4 harg4 arg5 harg5) K := by
  simp only [cc0__circle_loss_kernel_eq_skeleton]; unfold cc0__circle_loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

end Cert.KernelIdeal.Fr

end
-- ==== Proof.KernelIdealRegion.lean ====
/-
  The pipeline's proof data for the one kernel region, at the buffer contents `V` the region is entered
  with: every input window's staging buffer holds its block of the array at every grid point, the output
  window's buffer holds the row losses of the block; the two windows that read the SAME array (the point's
  128 rows of the normalised embeddings, and all of it) hold it at the two halves of the full share.
-/
import proofs.«146731_j26792005992922_2_alg».proof.Proof.KernelIdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data: the arrays as the region finds them; after the body each input buffer at its block and the
    output buffer at the block's row losses; the scoped rest and the generator register untouched; nothing owed;
    the shared array's two readers at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdealRun.lean ====
/-
  The whole program as a run: ten host operations compute the normalised embeddings, the kernel region
  turns them and the two masks into the 4096 row losses, and four more stretches of host operations reduce
  those to the mean of the positive ones.  The buffer contents at each boundary are a fold from the launch
  memory; the region takes the unscoped buffers apart into its windows' arrays (the array two windows read
  split into the two halves of its share, and joined again at the exit) and puts them back with the output
  array at what the write-backs leave.  Every weakly fair execution terminates, the argument arrays end as
  launched, and the result buffer ends at the fold's value.
-/
import proofs.«146731_j26792005992922_2_alg».proof.Proof.KernelIdealRegion

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v8) ((dat0 (V1 m ρ) c).arrAt 4 cfg0.N)
theorem W2_out (c : Dev nD) : W2 m ρ c (Proc.devRef .tc main_v8) = (dat0 (V1 m ρ) c).arrAt 4 cfg0.N := by
  unfold W2; exact Function.update_self ..
theorem W2_of_ne (c : Dev nD) (b : Ref sig .tc) (hb : b ≠ main_v8) :
    W2 m ρ c (Proc.devRef .tc b) = W1 m ρ c (Proc.devRef .tc b) := by
  unfold W2; exact Function.update_of_ne (fun e => hb (Proc.devRef_injective _ e)) _ _
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps1_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg2) := rfl

/-! ## The array two windows read: its share dealt between them and joined again -/

/-- The four distinct buffers behind the five windows' arrays, each whole at the full share, ARE the windows' arrays
    at the same contents: the shared one at the two halves of its share, which compose to the whole. -/
theorem arrays_iff (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Vc : (b : Ref sig .tc) → Buf (Elt F) ((c : Thread nD τ).loc b))
    (G : (w : Fin cfg0.W) → Buf (Elt F) ((cfg0.win w).arr.view.loc (c : Thread nD τ)))
    (hG : ∀ w, G w = Vc (Pipeline.arrRef spec0 w)) :
    (Pipeline.arrBufs (Ix := Unit) (Name := ℕ) (U := UR sig nD τ) (Lvl := ℕ) spec0 c Vc : sProp 𝕄) ⊣⊢ dat.arrays G := by
  have himg : Finset.univ.image (Pipeline.arrRef spec0) = {main_v7, main_arg1, main_arg2, main_v8} := by decide
  have hs0 : dat.share 0 = fullShare.left := by unfold Dat.share; rw [hq0]; rfl
  have hs1 : dat.share 1 = fullShare.right := by unfold Dat.share; rw [hq1]; rfl
  have hs2 : dat.share 2 = fullShare := by unfold Dat.share; rw [hq2]; rfl
  have hs3 : dat.share 3 = fullShare := by unfold Dat.share; rw [hq3]; rfl
  have hs4 : dat.share 4 = fullShare := rfl
  unfold Pipeline.arrBufs Dat.arrays
  rw [himg, bigSep_W0, bigSep_insert (by decide), bigSep_insert (by decide), bigSep_insert (by decide), bigSep_singleton,
    hG 0, hG 1, hG 2, hG 3, hG 4, hs0, hs1, hs2, hs3, hs4]
  rw [(arr_whole0 0).set_eq_univ]
  try rw [(arr_whole0 1).set_eq_univ]
  rw [(arr_whole0 2).set_eq_univ]
  try rw [(arr_whole0 3).set_eq_univ]
  rw [(arr_whole0 4).set_eq_univ]
  show iprop((((c : Thread nD τ).loc main_v7) ↦{fullShare} Vc main_v7) ∗ (((c : Thread nD τ).loc main_arg1) ↦{fullShare} Vc main_arg1)
        ∗ (((c : Thread nD τ).loc main_arg2) ↦{fullShare} Vc main_arg2) ∗ (((c : Thread nD τ).loc main_v8) ↦{fullShare} Vc main_v8))
      ⊣⊢ (iprop((((c : Thread nD τ).loc main_v7) ↦{fullShare.left} Vc main_v7) ∗ (((c : Thread nD τ).loc main_v7) ↦{fullShare.right} Vc main_v7)
        ∗ (((c : Thread nD τ).loc main_arg1) ↦{fullShare} Vc main_arg1)
        ∗ (((c : Thread nD τ).loc main_arg2) ↦{fullShare} Vc main_arg2) ∗ (((c : Thread nD τ).loc main_v8) ↦{fullShare} Vc main_v8)) : sProp 𝕄)
  have hsh : (((c : Thread nD τ).loc main_v7) ↦{fullShare} Vc main_v7 : sProp 𝕄)
      ⊣⊢ iprop((((c : Thread nD τ).loc main_v7) ↦{fullShare.left} Vc main_v7) ∗ (((c : Thread nD τ).loc main_v7) ↦{fullShare.right} Vc main_v7)) :=
    pointsTo_share (PosShare.mem_left_op_right fullShare)
  constructor
  · iintro ⟨H7, H1, H2, H8⟩
    ihave H := hsh.1 $$ H7
    icases H with ⟨Hl, Hr⟩
    isplitl [Hl]; · iexact Hl
    isplitl [Hr]; · iexact Hr
    isplitl [H1]; · iexact H1
    isplitl [H2]; · iexact H2
    iexact H8
  · iintro ⟨Hl, Hr, H1, H2, H8⟩
    isplitl [Hl Hr]
    · iapply hsh.2; isplitl [Hl] <;> iassumption
    isplitl [H1]; · iexact H1
    isplitl [H2]; · iexact H2
    iexact H8

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-- The windows' arrays at the region's exit are the exit contents at their buffers. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c main_v7 (by decide)).symm
  | ⟨1, _⟩ => exact (((dat0 (V1 m ρ) c).arrAt_in 1 rfl _).trans (A_eq0 (V1 m ρ) c 1)).trans (W2_of_ne m ρ c main_v7 (by decide)).symm
  | ⟨2, _⟩ => exact (((dat0 (V1 m ρ) c).arrAt_in 2 rfl _).trans (A_eq0 (V1 m ρ) c 2)).trans (W2_of_ne m ρ c main_arg1 (by decide)).symm
  | ⟨3, _⟩ => exact (((dat0 (V1 m ρ) c).arrAt_in 3 rfl _).trans (A_eq0 (V1 m ρ) c 3)).trans (W2_of_ne m ρ c main_arg2 (by decide)).symm
  | ⟨4, _⟩ => exact (W2_out m ρ c).symm

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄) ⊢ iprop((pdats m ρ 0 c).arrays ((pdats m ρ 0 c).arrAt · 0)
        ∗ Pipeline.unscopedRest spec0 c (V1 m ρ c)) := by
      rw [Pipeline.unscopedBufs_split₀ (Pipeline.pin (pcfgs (F := F)) adm) 0 winFacts₀0.arr_unscoped c (V1 m ρ c)]
      exact sep_mono (arrays_iff c (pdats m ρ 0 c) rfl rfl rfl rfl (V1 m ρ c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ (Pipeline.pin (pcfgs (F := F)) adm) 0 winFacts₀0.arr_unscoped c (V2 m ρ c)]
      refine sep_mono (arrays_iff c (pdats m ρ 0 c) rfl rfl rfl rfl (V2 m ρ c) _ (hF0 m ρ c)).2 (Entails.of_eq ?_)
      unfold Pipeline.unscopedRest
      exact bigSep_congr fun b hb => by
        rw [show V2 m ρ c b = V1 m ρ c b from W2_of_ne m ρ c b fun e => (Finset.mem_sdiff.mp hb).2
          (Finset.mem_image.mpr ⟨4, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)) ]
theorem main_run (c : Dev nD) : main (F := F) c = Pipeline.Seg.run (segs m ρ) := (main_chain c).trans (by chain_rfl)

set_option backward.isDefEq.respectTransparency.types false in
/-- The run: every weakly fair execution terminates, nothing faulting, and in every final state every unscoped
    buffer holds the last boundary's contents. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c =>
      (show iprop(StableHlo.held (c : Thread nD τ) (Pipeline.ucRefs τ sig) (W6 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The frame: the run's final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ fun s h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩

end Cert.KernelIdeal.Fr

end
-- ==== Proof.Spec.lean ====
/-
  The circle loss of one row, written twice — as the fused kernel computes it and as the plain jnp
  program computes it — over the extended reals, with no program in sight.

  A row of the normalised similarity matrix `s : Fin 4096 → EReal` and two mask rows `p n` (one bit
  per column) give the transformed logits `newMat (s j) (p j) (n j)`, the two masked log-sum-exps
  (shifted by the masked row maximum, which is replaced by 0 when no column is kept), their sum put
  through softplus, and the result kept only when both masks keep a column.  The two programs spell
  three steps differently: the masked exponential (a select outside the exponential against a select
  inside it followed by a product with the mask as a number), the negated shift (`0 - m` against
  `-m`), and the test "the mask keeps a column" (a float sum of the bits against an integer sum).
-/
import Mathlib
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literal words both programs use, read as extended reals. -/
abbrev Z : EReal := Ideal.ofBits .f32 0x00000000#32
abbrev NEG : EReal := Ideal.ofBits .f32 0xFF7FFFFF#32
abbrev NINF : EReal := Ideal.ofBits .f32 0xFF800000#32

/-- One transformed logit: the negative-pair branch wins where both masks are set. -/
def newMat (s : EReal) (p n : BitVec 1) : EReal :=
  Scalar.select n
    ((Ideal.ofBits .f32 0x43800000#32 * max (s - Ideal.ofBits .f32 0xBE800000#32) Z) * (s - Ideal.ofBits .f32 0x3E800000#32))
    (Scalar.select p
      ((Ideal.ofBits .f32 0xC3800000#32 * max (Ideal.ofBits .f32 0x3FA00000#32 - s) Z) * (s - Ideal.ofBits .f32 0x3F400000#32))
      Z)

/-- The maximum of a row, from `-∞`. -/
def rowMax (x : Fin 4096 → EReal) : EReal := (Finset.univ : Finset (Fin 4096)).fold max NINF x

/-- The shift of a masked log-sum-exp: the maximum over the kept columns (the others stand at the
    most negative finite float), or 0 when that maximum is the stand-in itself. -/
def shift (x : Fin 4096 → EReal) (mk : Fin 4096 → BitVec 1) : EReal :=
  Scalar.select (Ideal.cmp .oeq (rowMax fun j => Scalar.select (mk j) (x j) NEG) NEG) Z
    (rowMax fun j => Scalar.select (mk j) (x j) NEG)

/-- The masked log-sum-exp as the kernel spells it. -/
def lseK (x : Fin 4096 → EReal) (mk : Fin 4096 → BitVec 1) : EReal :=
  Ideal.log (Scalar.select (Ideal.cmp .oeq (∑ j, Scalar.select (mk j) (Ideal.exp (x j - shift x mk)) Z) Z)
      (Ideal.exp (Z - shift x mk))
      (∑ j, Scalar.select (mk j) (Ideal.exp (x j - shift x mk)) Z))
    + shift x mk

/-- The masked log-sum-exp as the jnp program spells it. -/
def lseR (x : Fin 4096 → EReal) (mk : Fin 4096 → BitVec 1) : EReal :=
  Ideal.log (Scalar.select
      (Ideal.cmp .oeq (Z + ∑ j, Ideal.exp (Scalar.select (mk j) (x j - shift x mk) Z) * (((mk j).toNat : ℝ) : EReal)) Z)
      (Ideal.exp (-(shift x mk)))
      (Z + ∑ j, Ideal.exp (Scalar.select (mk j) (x j - shift x mk) Z) * (((mk j).toNat : ℝ) : EReal)))
    + shift x mk

/-- softplus as `logaddexp x 0`, the kernel's spelling … -/
def softplusK (x : EReal) : EReal :=
  Scalar.select (Ideal.cmp .one (x - Z) (x - Z)) (x + Z)
    (max x Z + Ideal.log1p (Ideal.exp (Z - max (x - Z) (-(x - Z)))))

/-- … and the jnp program's. -/
def softplusR (x : EReal) : EReal :=
  Scalar.select (Ideal.cmp .une (x - Z) (x - Z)) (x + Z)
    (max x Z + Ideal.log1p (Ideal.exp (-(max (x - Z) (-(x - Z))))))

/-- "The mask keeps a column", by a float sum of the bits … -/
def anyK (mk : Fin 4096 → BitVec 1) : BitVec 1 :=
  Ideal.cmp .ogt (∑ j, ((((mk j).setWidth 32).toInt : ℝ) : EReal)) Z

/-- … and by a 32-bit integer sum of them. -/
def anyR (mk : Fin 4096 → BitVec 1) : BitVec 1 :=
  IntOp.cmpi .sgt ((Finset.univ : Finset (Fin 4096)).fold IntOp.addi 0#32 fun j => (mk j).setWidth 32) 0#32

/-- The loss of one row, the kernel's way. -/
def rowK (s : Fin 4096 → EReal) (p n : Fin 4096 → BitVec 1) : EReal :=
  Scalar.select (IntOp.andi (anyK p) (anyK n))
    (softplusK (lseK (fun j => newMat (s j) (p j) (n j)) p + lseK (fun j => newMat (s j) (p j) (n j)) n)) Z

/-- The loss of one row, the jnp program's way. -/
def rowR (s : Fin 4096 → EReal) (p n : Fin 4096 → BitVec 1) : EReal :=
  softplusR (lseR (fun j => newMat (s j) (p j) (n j)) p + lseR (fun j => newMat (s j) (p j) (n j)) n)
    * (((IntOp.andi (anyR p) (anyR n)).toNat : ℝ) : EReal)

/-- Entry (i, j) of the similarity matrix of the rows of `e`. -/
def sim (e : (⟨2, ![4096, 1024]⟩ : Shape).Idx → EReal) (i j : Fin 4096) : EReal :=
  ∑ k : Fin 1024, e (ix2 i k) * e (ix2 j k)

/-- Row `i` of a mask array as bits: "the word is not zero". -/
def msk (a : (⟨2, ![4096, 4096]⟩ : Shape).Idx → BitVec 32) (i j : Fin 4096) : BitVec 1 :=
  IntOp.cmpi .ne (a (ix2 i j)) 0#32

/-- The per-row losses of the whole problem, the kernel's way and the jnp program's way. -/
def lossK (e : (⟨2, ![4096, 1024]⟩ : Shape).Idx → EReal) (a1 a2 : (⟨2, ![4096, 4096]⟩ : Shape).Idx → BitVec 32)
    (i : Fin 4096) : EReal := rowK (sim e i) (msk a1 i) (msk a2 i)

def lossR (e : (⟨2, ![4096, 1024]⟩ : Shape).Idx → EReal) (a1 a2 : (⟨2, ![4096, 4096]⟩ : Shape).Idx → BitVec 32)
    (i : Fin 4096) : EReal := rowR (sim e i) (msk a1 i) (msk a2 i)

end Cert.Spec

end
-- ==== Proof.LibKeepdims.lean ====
/-
  KEEPDIMS COLUMN FORMS READ AT AN INDEX GIVEN BY COORDINATES. A row reduction with `keepdims=True` leaves its
  result as a column: the reduced vector `[a]` is cast to `[a, 1]` (`vector.shape_cast`), and where the column is
  used against the full rows it is broadcast to `[a, b]` (`vector.broadcast`). Both are read here at an index
  written `ix2 …`, in the style of the library's leading-unit-axis casts and row broadcast: the cast reads the
  vector at the row, whatever the unit coordinate, and the broadcast reads the column's one entry of that row.
-/
import Idealize.ShloMosaic.Lib.ValueLayout

namespace Idealize.ShloMosaic.ValueIdx

open Idealize.ShloMosaic

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KValue.lean ====
/-
  THE KERNEL BODY'S ARITHMETIC READ AT A ROW, over the extended reals. One grid point stores, at row `r` of its
  block, a value that depends on row `r` of the block's embeddings, on every row of the embedding array, and on
  row `r` of the two mask blocks. Reading the body's vector operations at that row: the product contracts the last axes,
  so entry `(r, j)` of the similarity block is the inner product of row `r` with row `j`; every other operation is
  pointwise except the row reductions (a maximum from `-∞`, a sum), each kept as a column `[128, 1]` and, for the
  shift, broadcast back over the row. Put together, the stored value is the row's loss as the specification's fused
  spelling writes it: the transformed logits, the two masked log-sum-exps shifted by their masked row maxima, softplus of
  their sum, kept where both masks keep a column.
-/
import proofs.«146731_j26792005992922_2_alg».proof.Proof.KBlock
import proofs.«146731_j26792005992922_2_alg».proof.Proof.Spec
import proofs.«146731_j26792005992922_2_alg».proof.Proof.LibKeepdims
import Idealize.ShloMosaic.PureOps.Ideal.Laws

noncomputable section

namespace Cert.KernelIdeal.KV

open Idealize.ShloMosaic Idealize.ShloMosaic.ValueIdx Cert.KernelIdeal Cert.KernelIdeal.Gen

/-! ## The three non-pointwise operations of the body, read at a row -/

/-- The index a row reduction inserts column `k` at, over row `r`, is `(r, k)`. -/
theorem lift_row (r : Fin 128) (k : Fin 4096) :
    reduces_S128x4096_S128.lift (ix1 r) k = ix2 r k := by
  funext a
  match a with
  | ⟨0, _⟩ => rfl
  | ⟨1, _⟩ => rfl

/-- A row maximum from `-∞`, kept as a column, read at row `r`: the maximum of the row. -/
theorem rowMaxCol_apply (src : FVec Ideal S128x4096 .f32) (r : Fin 128) (u : Fin 1) :
    shapeCast S128x1 (multiReduction .maximumf [1] S128 src 0xFF800000#32 reduces_S128x4096_S128 (.inl rfl) rfl)
        shapeCasts_S128_S128x1 (ix2 r u)
      = Cert.Spec.rowMax fun j => src (ix2 r j) := by
  refine (shapeCast_a_a1_apply _ _ r u).trans ?_
  refine (Ideal.multiReduction_maximumf_single src _ _ _ _ (ix1 r)).trans ?_
  exact congrArg (fun f => (Finset.univ : Finset (Fin 4096)).fold max Cert.Spec.NINF f)
    (funext fun k => congrArg src (lift_row r k))

/-- A row sum, kept as a column, read at row `r`: the sum of the row. -/
theorem rowSumCol_apply (src : FVec Ideal S128x4096 .f32) (r : Fin 128) (u : Fin 1) :
    shapeCast S128x1 (multiReduction .add [1] S128 src 0x00000000#32 reduces_S128x4096_S128 (.inl rfl) rfl)
        shapeCasts_S128_S128x1 (ix2 r u)
      = ∑ j : Fin 4096, src (ix2 r j) := by
  refine (shapeCast_a_a1_apply _ _ r u).trans ?_
  refine (Ideal.multiReduction_add_single src _ _ _ _ (ix1 r)).trans ?_
  exact Finset.sum_congr rfl fun k _ => congrArg src (lift_row r k)

/-- The dimension numbers of the body's product: both operands contract their last axis. -/
abbrev DD : DotDims S128x1024 S4096x1024 S128x4096 := dot_S128x1024_S4096x1024_S128x4096_1_1_0_0_n_n

theorem lhs_row (i : S128x4096.Idx) (q : DD.contr.Idx) : (DD.lhsIdx i q 0).val = (i 0).val := by
  unfold DotDims.lhsIdx
  rw [dif_neg (show ¬(0 : Fin S128x1024.rank) ∈ DD.lhsBatch by decide),
    dif_pos (show (0 : Fin S128x1024.rank) ∈ DD.lhsNonContracting by decide)]
  rfl

theorem rhs_row (i : S128x4096.Idx) (q : DD.contr.Idx) : (DD.rhsIdx i q 0).val = (i 1).val := by
  unfold DotDims.rhsIdx
  rw [dif_neg (show ¬(0 : Fin S4096x1024.rank) ∈ DD.rhsBatch by decide),
    dif_pos (show (0 : Fin S4096x1024.rank) ∈ DD.rhsNonContracting by decide)]
  rfl

/-- The product of the row block with all the rows, into a zero accumulator, read at `(r, j)`: the inner product of
    row `r` of the block with row `j` of the array. -/
theorem matmul_at (v0 : FVec Ideal S128x1024 .f32) (v2 : FVec Ideal S4096x1024 .f32) (r : Fin 128) (j : Fin 4096) :
    matmul DD (some .fp32) (shapeCast S128x1024 v0 shapeCasts_S128x1024_S128x1024)
        (shapeCast S4096x1024 v2 shapeCasts_S4096x1024_S4096x1024) (constant (F := Ideal) S128x4096 .f32 0x00000000#32) (ix2 r j)
      = ∑ k : Fin 1024, v0 (ix2 r k) * v2 (ix2 j k) := by
  rw [shapeCast_self, shapeCast_self]
  simp only [matmul]
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 r j) ((contrEquiv1 DD 1024 rfl rfl).symm k) = ix2 r k := funext fun a => Fin.ext (by
    match a with
    | ⟨0, _⟩ => exact lhs_row _ _
    | ⟨1, _⟩ => exact (DD.lhsIdx_val_of_single rfl _ _).trans hk)
  have er : DD.rhsIdx (ix2 r j) ((contrEquiv1 DD 1024 rfl rfl).symm k) = ix2 j k := funext fun a => Fin.ext (by
    match a with
    | ⟨0, _⟩ => exact rhs_row _ _
    | ⟨1, _⟩ => exact (DD.rhsIdx_val_of_single rfl _ _).trans hk)
  rw [el, er]

/-! ## The payloads at a row -/

/-- The transformed logits at `(r, j)`. -/
theorem pay4_apply (v0 : FVec Ideal S128x1024 .f32) (v2 : FVec Ideal S4096x1024 .f32) (v5 v8 : IVec S128x4096 32)
    (r : Fin 128) (j : Fin 4096) :
    k0_pay4 (F := Ideal) v0 v2 v5 v8 (ix2 r j)
      = Cert.Spec.newMat (∑ k : Fin 1024, v0 (ix2 r k) * v2 (ix2 j k))
          (IntOp.cmpi .ne (v5 (ix2 r j)) 0#32) (IntOp.cmpi .ne (v8 (ix2 r j)) 0#32) :=
  congrArg (fun s => Cert.Spec.newMat s (IntOp.cmpi .ne (v5 (ix2 r j)) 0#32) (IntOp.cmpi .ne (v8 (ix2 r j)) 0#32))
    (matmul_at v0 v2 r j)

/-- The masked row maximum of the first mask, kept as a column, at row `r`. -/
theorem pay5_apply (v0 : FVec Ideal S128x1024 .f32) (v2 : FVec Ideal S4096x1024 .f32) (v5 v8 : IVec S128x4096 32) (r : Fin 128) :
    k0_pay5 (F := Ideal) v0 v2 v5 v8 (ix2 r (0 : Fin 1))
      = Cert.Spec.rowMax fun j => Scalar.select (k0_pay2 (F := Ideal) v5 (ix2 r j))
          (k0_pay4 (F := Ideal) v0 v2 v5 v8 (ix2 r j)) Cert.Spec.NEG :=
  rowMaxCol_apply (select (k0_pay2 (F := Ideal) v5) (k0_pay4 (F := Ideal) v0 v2 v5 v8)
    (broadcast S128x4096 (Scalar.ofBits .f32 0xFF7FFFFF#32))) r 0

/-! ### One masked log-sum-exp, as the body's vector operations -/

/-- The shift column: the masked row maximum, or 0 where it is the stand-in. -/
def shiftCol (mx : FVec Ideal S128x1 .f32) : FVec Ideal S128x1 .f32 :=
  select (cmpf .oeq mx (broadcast S128x1 (Scalar.ofBits .f32 0xFF7FFFFF#32)))
    (broadcast S128x1 (Scalar.ofBits .f32 0x00000000#32)) mx

/-- The column of masked sums of shifted exponentials. -/
def sumCol (mk : IVec S128x4096 1) (x : FVec Ideal S128x4096 .f32) (mx : FVec Ideal S128x1 .f32) : FVec Ideal S128x1 .f32 :=
  shapeCast S128x1 (multiReduction .add [1] S128
      (select mk (exp (subf x (broadcastTo S128x4096 (shiftCol mx) broadcasts_S128x1_S128x4096)))
        (broadcast S128x4096 (Scalar.ofBits .f32 0x00000000#32)))
      0x00000000#32 reduces_S128x4096_S128 (.inl rfl) rfl) shapeCasts_S128_S128x1

/-- The masked log-sum-exp column. -/
def lseCol (mk : IVec S128x4096 1) (x : FVec Ideal S128x4096 .f32) (mx : FVec Ideal S128x1 .f32) : FVec Ideal S128x1 .f32 :=
  addf (log (select (cmpf .oeq (sumCol mk x mx) (broadcast S128x1 (Scalar.ofBits .f32 0x00000000#32)))
      (exp (subf (broadcast S128x1 (Scalar.ofBits .f32 0x00000000#32)) (shiftCol mx))) (sumCol mk x mx))) (shiftCol mx)

/-- The masked row maximum column the body recomputes for the second mask. -/
def maxCol (mk : IVec S128x4096 1) (x : FVec Ideal S128x4096 .f32) : FVec Ideal S128x1 .f32 :=
  shapeCast S128x1 (multiReduction .maximumf [1] S128
      (select mk x (broadcast S128x4096 (Scalar.ofBits .f32 0xFF7FFFFF#32)))
      0xFF800000#32 reduces_S128x4096_S128 (.inl rfl) rfl) shapeCasts_S128_S128x1

/-- The sum of the two masked log-sum-exps is these columns' sum. -/
theorem pay6_eq (v7 v10 : IVec S128x4096 1) (v31 : FVec Ideal S128x4096 .f32) (v35 : FVec Ideal S128x1 .f32) :
    k0_pay6 (F := Ideal) v7 v10 v31 v35 (Scalar.ofBits .f32 0xFF7FFFFF#32)
      = addf (lseCol v7 v31 v35) (lseCol v10 v31 (maxCol v10 v31)) := rfl

theorem maxCol_apply (mk : IVec S128x4096 1) (x : FVec Ideal S128x4096 .f32) (r : Fin 128) :
    maxCol mk x (ix2 r (0 : Fin 1)) = Cert.Spec.rowMax fun j => Scalar.select (mk (ix2 r j)) (x (ix2 r j)) Cert.Spec.NEG :=
  rowMaxCol_apply (select mk x (broadcast S128x4096 (Scalar.ofBits .f32 0xFF7FFFFF#32))) r 0

theorem shiftCol_apply (mx : FVec Ideal S128x1 .f32) (r : Fin 128) (x : Fin 4096 → EReal) (m : Fin 4096 → BitVec 1)
    (hmx : mx (ix2 r (0 : Fin 1)) = Cert.Spec.rowMax fun j => Scalar.select (m j) (x j) Cert.Spec.NEG) :
    shiftCol mx (ix2 r (0 : Fin 1)) = Cert.Spec.shift x m := by
  show Scalar.select (Ideal.cmp .oeq (mx (ix2 r (0 : Fin 1))) Cert.Spec.NEG) Cert.Spec.Z (mx (ix2 r (0 : Fin 1))) = _
  rw [hmx]
  rfl

theorem sumCol_apply (mk : IVec S128x4096 1) (x : FVec Ideal S128x4096 .f32) (mx : FVec Ideal S128x1 .f32) (r : Fin 128)
    (hmx : mx (ix2 r (0 : Fin 1)) = Cert.Spec.rowMax fun j => Scalar.select (mk (ix2 r j)) (x (ix2 r j)) Cert.Spec.NEG) :
    sumCol mk x mx (ix2 r (0 : Fin 1))
      = ∑ j : Fin 4096, Scalar.select (mk (ix2 r j))
          (Ideal.exp (x (ix2 r j) - Cert.Spec.shift (fun j => x (ix2 r j)) (fun j => mk (ix2 r j)))) Cert.Spec.Z := by
  refine (rowSumCol_apply _ r 0).trans ?_
  refine Finset.sum_congr rfl fun j _ => ?_
  show Scalar.select (mk (ix2 r j))
    (Ideal.exp (x (ix2 r j) - broadcastTo S128x4096 (shiftCol mx) broadcasts_S128x1_S128x4096 (ix2 r j))) Cert.Spec.Z = _
  rw [broadcastTo_a1_ab_apply, shiftCol_apply mx r _ _ hmx]

theorem lseCol_apply (mk : IVec S128x4096 1) (x : FVec Ideal S128x4096 .f32) (mx : FVec Ideal S128x1 .f32) (r : Fin 128)
    (hmx : mx (ix2 r (0 : Fin 1)) = Cert.Spec.rowMax fun j => Scalar.select (mk (ix2 r j)) (x (ix2 r j)) Cert.Spec.NEG) :
    lseCol mk x mx (ix2 r (0 : Fin 1)) = Cert.Spec.lseK (fun j => x (ix2 r j)) (fun j => mk (ix2 r j)) := by
  show Ideal.log (Scalar.select (Ideal.cmp .oeq (sumCol mk x mx (ix2 r (0 : Fin 1))) Cert.Spec.Z)
      (Ideal.exp (Cert.Spec.Z - shiftCol mx (ix2 r (0 : Fin 1)))) (sumCol mk x mx (ix2 r (0 : Fin 1))))
    + shiftCol mx (ix2 r (0 : Fin 1)) = _
  rw [sumCol_apply mk x mx r hmx, shiftCol_apply mx r _ _ hmx]
  rfl

/-- The two masked log-sum-exps, added, at row `r`. -/
theorem pay6_apply (v7 v10 : IVec S128x4096 1) (v31 : FVec Ideal S128x4096 .f32) (v35 : FVec Ideal S128x1 .f32) (r : Fin 128)
    (h35 : v35 (ix2 r (0 : Fin 1)) = Cert.Spec.rowMax fun j => Scalar.select (v7 (ix2 r j)) (v31 (ix2 r j)) Cert.Spec.NEG) :
    k0_pay6 (F := Ideal) v7 v10 v31 v35 (Scalar.ofBits .f32 0xFF7FFFFF#32) (ix2 r (0 : Fin 1))
      = Cert.Spec.lseK (fun j => v31 (ix2 r j)) (fun j => v7 (ix2 r j))
        + Cert.Spec.lseK (fun j => v31 (ix2 r j)) (fun j => v10 (ix2 r j)) := by
  rw [pay6_eq]
  show lseCol v7 v31 v35 (ix2 r (0 : Fin 1)) + lseCol v10 v31 (maxCol v10 v31) (ix2 r (0 : Fin 1)) = _
  rw [lseCol_apply v7 v31 v35 r h35, lseCol_apply v10 v31 (maxCol v10 v31) r (maxCol_apply v10 v31 r)]

/-! ### The counts, softplus and the final select -/

/-- The column of counts of a mask's kept columns, as a float sum of its bits. -/
def countCol (mk : IVec S128x4096 1) : FVec Ideal S128x1 .f32 :=
  shapeCast S128x1 (multiReduction .add [1] S128 (sitofp .f32 (extui 32 mk natLt_1_32))
      0x00000000#32 reduces_S128x4096_S128 (.inl rfl) rfl) shapeCasts_S128_S128x1

theorem countCol_apply (mk : IVec S128x4096 1) (r : Fin 128) :
    countCol mk (ix2 r (0 : Fin 1)) = ∑ j : Fin 4096, ((((mk (ix2 r j)).setWidth 32).toInt : ℝ) : EReal) :=
  rowSumCol_apply (sitofp .f32 (extui 32 mk natLt_1_32)) r 0

/-- The stored value at row `r`: softplus of the summed log-sum-exps, kept where both masks keep a column. -/
theorem pay1_apply (v7 v10 : IVec S128x4096 1) (v78 v80 v81 : FVec Ideal S128x1 .f32) (r : Fin 128)
    (h80 : v80 (ix2 r (0 : Fin 1)) = max (v78 (ix2 r (0 : Fin 1))) Cert.Spec.Z)
    (h81 : v81 (ix2 r (0 : Fin 1)) = Cert.Spec.Z) :
    k0_pay1 (F := Ideal) v7 v10 v78 (Scalar.ofBits .f32 0x00000000#32) v80 v81 (ix2 r (0 : Fin 1))
      = Scalar.select (IntOp.andi (Cert.Spec.anyK fun j => v7 (ix2 r j)) (Cert.Spec.anyK fun j => v10 (ix2 r j)))
          (Cert.Spec.softplusK (v78 (ix2 r (0 : Fin 1)))) Cert.Spec.Z := by
  show Scalar.select
      (IntOp.andi (Ideal.cmp .ogt (countCol v7 (ix2 r (0 : Fin 1))) Cert.Spec.Z)
        (Ideal.cmp .ogt (countCol v10 (ix2 r (0 : Fin 1))) Cert.Spec.Z))
      (Scalar.select
        (Ideal.cmp .one (v78 (ix2 r (0 : Fin 1)) - v81 (ix2 r (0 : Fin 1))) (v78 (ix2 r (0 : Fin 1)) - v81 (ix2 r (0 : Fin 1))))
        (v78 (ix2 r (0 : Fin 1)) + Cert.Spec.Z)
        (v80 (ix2 r (0 : Fin 1)) + Ideal.log1p (Ideal.exp (Cert.Spec.Z
          - max (v78 (ix2 r (0 : Fin 1)) - v81 (ix2 r (0 : Fin 1))) (-(v78 (ix2 r (0 : Fin 1)) - v81 (ix2 r (0 : Fin 1))))))))
      Cert.Spec.Z = _
  rw [countCol_apply, countCol_apply, h80, h81]
  rfl

/-! ## The block's stored value at a row -/

/-- What a grid point stores at row `r` of its block is the row's loss, the fused way, of the row's inner products
    with every row of the array and of the two mask rows' "word is not zero" bits. -/
theorem blockOut_apply (v0 : Vec Ideal S128x1024 .f32) (v2 : Vec Ideal S4096x1024 .f32) (v5 v8 : Vec Ideal S128x4096 .i32) (r : Fin 128) :
    blockOut (F := Ideal) v0 v2 v5 v8 (ix2 r 0)
      = Cert.Spec.rowK (fun j : Fin 4096 => ∑ k : Fin 1024, v0 (ix2 r k) * v2 (ix2 j k))
          (fun j => IntOp.cmpi .ne (v5 (ix2 r j)) 0#32) (fun j => IntOp.cmpi .ne (v8 (ix2 r j)) 0#32) := by
  unfold blockOut
  refine (pay1_apply _ _ _ _ _ r rfl rfl).trans ?_
  rw [pay6_apply _ _ _ _ r (pay5_apply v0 v2 v5 v8 r)]
  have hx : (fun j : Fin 4096 => k0_pay4 (F := Ideal) v0 v2 v5 v8 (ix2 r j))
      = fun j => Cert.Spec.newMat (∑ k : Fin 1024, v0 (ix2 r k) * v2 (ix2 j k))
          (IntOp.cmpi .ne (v5 (ix2 r j)) 0#32) (IntOp.cmpi .ne (v8 (ix2 r j)) 0#32) :=
    funext fun j => pay4_apply v0 v2 v5 v8 r j
  rw [hx]
  rfl

end Cert.KernelIdeal.KV

end
-- ==== Proof.KernelIdealValue.lean ====
/-
  FROM THE BLOCKS TO THE ARRAY, on the kernel's side, over the extended reals. The grid has 32 points; point `t` is
  handed rows `128 t … 128 t + 127` of the normalised embeddings and of the two mask arrays, and all of the
  embeddings, and writes back rows `128 t … 128 t + 127` of the `[4096, 1]` output. What it writes at row `r` of its
  block is the row loss (the fused spelling) of array row `128 t + r`: the block's row `r` is that array row, the
  whole-array window is the array itself. The 32 row blocks tile the output, so after the last point the output array is
  the 4096 row losses.
-/
import proofs.«146731_j26792005992922_2_alg».proof.Proof.KernelIdealRegion
import proofs.«146731_j26792005992922_2_alg».proof.Proof.KValue
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-- The 4096 row losses as the `[4096, 1]` output array. -/
def lossArr (e : S4096x1024.Idx → EReal) (a1 a2 : S4096x4096.Idx → BitVec 32) : S4096x1.Idx → EReal :=
  fun i => Cert.Spec.lossK e a1 a2 ⟨(i 0).val, idx2_lt0 i⟩

/-! ## One grid point, over its four blocks as vectors -/

/-- If a point's row block and mask blocks are rows `ρ r` of the arrays and its whole-array block is the array, the value
    it stores at row `r` is the loss of array row `ρ r`. -/
theorem point_eq (x0 : Vec Ideal S128x1024 .f32) (x1 : Vec Ideal S4096x1024 .f32) (x2 x3 : Vec Ideal S128x4096 .i32)
    (e : S4096x1024.Idx → EReal) (a1 a2 : S4096x4096.Idx → BitVec 32) (ρ : Fin 128 → Fin 4096)
    (h0 : ∀ (r : Fin 128) (k : Fin 1024), x0 (ix2 r k) = e (ix2 (ρ r) k))
    (h1 : ∀ (j : Fin 4096) (k : Fin 1024), x1 (ix2 j k) = e (ix2 j k))
    (h2 : ∀ (r : Fin 128) (j : Fin 4096), x2 (ix2 r j) = a1 (ix2 (ρ r) j))
    (h3 : ∀ (r : Fin 128) (j : Fin 4096), x3 (ix2 r j) = a2 (ix2 (ρ r) j)) (r : Fin 128) :
    KV.blockOut (F := Ideal) x0 x1 x2 x3 (ix2 r 0) = Cert.Spec.lossK e a1 a2 (ρ r) := by
  refine (KV.blockOut_apply x0 x1 x2 x3 r).trans ?_
  have hs : (fun j : Fin 4096 => ∑ k : Fin 1024, x0 (ix2 r k) * x1 (ix2 j k)) = Cert.Spec.sim e (ρ r) :=
    funext fun j => Finset.sum_congr rfl fun k _ => by rw [h0, h1]
  have hp : (fun j : Fin 4096 => IntOp.cmpi .ne (x2 (ix2 r j)) 0#32) = Cert.Spec.msk a1 (ρ r) :=
    funext fun j => by rw [h2]; rfl
  have hn : (fun j : Fin 4096 => IntOp.cmpi .ne (x3 (ix2 r j)) 0#32) = Cert.Spec.msk a2 (ρ r) :=
    funext fun j => by rw [h3]; rfl
  rw [hs, hp, hn]
  rfl

/-! ## The printed index maps, and each block as rows of its array -/

theorem hz2 : (![0, 0] : Fin 2 → Nat) = fun _ => 0 := funext fun a => by fin_cases a <;> rfl

/-- The printed index maps, decided over the grid: the row windows are at block `(t, 0)`, the whole-array window at
    `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of grid point `t`'s blocks is row `128 t + r` of the arrays. -/
def rowAt (t : Fin cfg0.N) (r : Fin 128) : Fin 4096 :=
  ⟨128 * t.val + r.val, by
    have h : t.val < 32 := lt_of_lt_of_eq t.isLt N_0
    have hr : r.val < 128 := r.isLt
    omega⟩

/-- The embeddings' row block at point `t`. -/
theorem blk0_apply (c : Dev nD) (t : Fin cfg0.N) (r : Fin 128) (k : Fin 1024) :
    (iblk0 V c 0 t : Vec Ideal S128x1024 .f32) (ix2 r k) = (V c main_v7 : S4096x1024.Idx → EReal) (ix2 (rowAt t r) k) := by
  obtain ⟨e0, e1, -⟩ := idx_facts t
  unfold iblk0
  rw [View.read_apply]
  show V c main_v7 (((cfg0.win 0).blk t).view.emb (ix2 r k)) = V c main_v7 (ix2 (rowAt t r) k)
  congr 1
  funext a
  apply Fin.ext
  match a with
  | ⟨0, _⟩ => show win0_0.index t (0 : Fin 2) * 128 + 1 * r.val = 128 * t.val + r.val; omega
  | ⟨1, _⟩ => show win0_0.index t (1 : Fin 2) * 1024 + 1 * k.val = k.val; omega

/-- The embeddings' whole-array block at any point is the array. -/
theorem blk1_apply (c : Dev nD) (t : Fin cfg0.N) (j : Fin 4096) (k : Fin 1024) :
    (iblk0 V c 1 t : Vec Ideal S4096x1024 .f32) (ix2 j k) = (V c main_v7 : S4096x1024.Idx → EReal) (ix2 j k) := by
  obtain ⟨-, -, e2, e3, -⟩ := idx_facts t
  unfold iblk0
  rw [View.read_apply]
  show V c main_v7 (((cfg0.win 1).blk t).view.emb (ix2 j k)) = V c main_v7 (ix2 j k)
  congr 1
  funext a
  apply Fin.ext
  match a with
  | ⟨0, _⟩ => show win0_1.index t (0 : Fin 2) * 4096 + 1 * j.val = j.val; omega
  | ⟨1, _⟩ => show win0_1.index t (1 : Fin 2) * 1024 + 1 * k.val = k.val; omega

/-- The first mask's row block at point `t`. -/
theorem blk2_apply (c : Dev nD) (t : Fin cfg0.N) (r : Fin 128) (j : Fin 4096) :
    (iblk0 V c 2 t : Vec Ideal S128x4096 .i32) (ix2 r j) = (V c main_arg1 : S4096x4096.Idx → BitVec 32) (ix2 (rowAt t r) j) := by
  obtain ⟨-, -, -, -, e4, e5, -⟩ := idx_facts t
  unfold iblk0
  rw [View.read_apply]
  show V c main_arg1 (((cfg0.win 2).blk t).view.emb (ix2 r j)) = V c main_arg1 (ix2 (rowAt t r) j)
  congr 1
  funext a
  apply Fin.ext
  match a with
  | ⟨0, _⟩ => show win0_2.index t (0 : Fin 2) * 128 + 1 * r.val = 128 * t.val + r.val; omega
  | ⟨1, _⟩ => show win0_2.index t (1 : Fin 2) * 4096 + 1 * j.val = j.val; omega

/-- The second mask's row block at point `t`. -/
theorem blk3_apply (c : Dev nD) (t : Fin cfg0.N) (r : Fin 128) (j : Fin 4096) :
    (iblk0 V c 3 t : Vec Ideal S128x4096 .i32) (ix2 r j) = (V c main_arg2 : S4096x4096.Idx → BitVec 32) (ix2 (rowAt t r) j) := by
  obtain ⟨-, -, -, -, -, -, e6, e7, -⟩ := idx_facts t
  unfold iblk0
  rw [View.read_apply]
  show V c main_arg2 (((cfg0.win 3).blk t).view.emb (ix2 r j)) = V c main_arg2 (ix2 (rowAt t r) j)
  congr 1
  funext a
  apply Fin.ext
  match a with
  | ⟨0, _⟩ => show win0_3.index t (0 : Fin 2) * 128 + 1 * r.val = 128 * t.val + r.val; omega
  | ⟨1, _⟩ => show win0_3.index t (1 : Fin 2) * 4096 + 1 * j.val = j.val; omega

/-! ## What a point writes back, the cover, the array -/

/-- WHAT POINT `t` WRITES BACK is block `t` of the row losses of the arrays as the region finds them. -/
theorem flushed4_eq (c : Dev nD) (t : Fin cfg0.N) :
    (dat0 V c).flushed 4 t
      = ((cfg0.win 4).blk t).view.read (Elt Ideal) (lossArr (V c main_v7) (V c main_arg1) (V c main_arg2)) := by
  show (cfg0.win 4).cut (grid0.coords t) ((dat0 V c).after 4 t) = _
  rw [after0_4]
  unfold out0_4
  rw [View.canon_unit_zero hz2]
  simp only [View.ld_unit_zero (S := S128x1024) hz2, View.ld_unit_zero (S := S4096x1024) hz2,
    View.ld_unit_zero (S := S128x4096) hz2]
  obtain ⟨-, -, -, -, -, -, -, -, e8, e9⟩ := idx_facts t
  funext j
  obtain ⟨r, u, rfl⟩ : ∃ (r : Fin 128) (u : Fin 1), j = ix2 r u := ⟨j 0, j 1, eq_ix2 j⟩
  obtain rfl : u = 0 := Subsingleton.elim _ _
  show KV.blockOut (F := Ideal) (iblk0 V c 0 t) (iblk0 V c 1 t) (iblk0 V c 2 t) (iblk0 V c 3 t) (ix2 r 0)
    = lossArr (V c main_v7) (V c main_arg1) (V c main_arg2) (((cfg0.win 4).blk t).view.emb (ix2 r 0))
  refine (point_eq (iblk0 V c 0 t) (iblk0 V c 1 t) (iblk0 V c 2 t) (iblk0 V c 3 t)
    (V c main_v7) (V c main_arg1) (V c main_arg2) (rowAt t)
    (fun r k => blk0_apply V c t r k) (fun j k => blk1_apply V c t j k)
    (fun r j => blk2_apply V c t r j) (fun r j => blk3_apply V c t r j) r).trans ?_
  unfold lossArr
  congr 1
  apply Fin.ext
  show 128 * t.val + r.val = win0_4.index t (0 : Fin 2) * 128 + 1 * r.val
  omega

/-- An index of the output array is in point `t`'s block iff each coordinate is in the block's range on its axis. -/
theorem mem_blk4 (t : Fin cfg0.N) (i : S4096x1.Idx) :
    i ∈ ((cfg0.win 4).blk t).view.set
      ↔ ∀ a : Fin 2, win0_4.index t a * S128x1.size a ≤ (i a).val ∧ (i a).val < win0_4.index t a * S128x1.size a + S128x1.size a := by
  show i ∈ ((View.whole main_v8).slice (win0_4.rect t)).set ↔ _
  rw [View.set_slice_whole, Rect.mem_set_unit]
  exact Iff.rfl

/-- Every row of the output is in the block of the point its row number divided by 128 names, and every point writes back. -/
theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ : ∃ t : Fin cfg0.N, t.val = (i 0).val / 128 :=
    ⟨⟨(i 0).val / 128, lt_of_lt_of_eq (by omega : (i 0).val / 128 < 32) N_0.symm⟩, rfl⟩
  obtain ⟨-, -, -, -, -, -, -, -, e8, e9⟩ := idx_facts t
  refine ⟨t, flush0_4 t, ?_⟩
  rw [mem_blk4]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 1 ≤ (i 1).val ∧ (i 1).val < win0_4.index t (1 : Fin 2) * 1 + 1
    omega

/-- THE OUTPUT ARRAY after the last point: the 4096 row losses. -/
theorem final4 (c : Dev nD) :
    (dat0 V c).arrAt 4 cfg0.N = lossArr (V c main_v7) (V c main_arg1) (V c main_arg2) :=
  (dat0 V c).arrAt_eq_of_cover 4 (lossArr (V c main_v7) (V c main_arg1) (V c main_arg2))
    (fun t _ => flushed4_eq V c t) cover4

end Cert.KernelIdeal.Fr

end
-- ==== Proof.Norm.lean ====
/-
  The first lines both programs share: each row of the embeddings divided by its Euclidean norm, the
  squared norm kept at least 1e-12 — x · rsqrt(max(∑ x², ε)) —, operation by operation as both programs
  print it, over literal shapes and with the shape facts as arguments.
-/
import Idealize.ShloMosaic.PureOps
import Idealize.ShloMosaic.PureOps.Ideal
import Idealize.ShloMosaic.Lib.StableHlo

noncomputable section

namespace Cert.Norm

open Idealize.ShloMosaic

abbrev S0 : Shape := ⟨0, ![]⟩
abbrev SA : Shape := ⟨2, ![4096, 1024]⟩
abbrev SR : Shape := ⟨1, ![4096]⟩
abbrev SC : Shape := ⟨2, ![4096, 1]⟩

/-- The rows of `x` scaled to unit length (a zero row stays zero). -/
def norm (hr : SA.ReducesTo [1] SR) (h0 : 0 < S0.numel) (hb1 : SR.BroadcastsInDim SC (![0] : Fin 1 → Fin SC.rank))
    (hb2 : S0.BroadcastsInDim SC (![] : Fin 0 → Fin SC.rank)) (hb3 : SC.BroadcastsInDim SA (![0, 1] : Fin 2 → Fin SA.rank))
    (x : FVec Ideal SA .f32) : FVec Ideal SA .f32 :=
  mulf x (broadcastInDim SA ![0, 1] hb3 (Host.rsqrt (maximumf
    (broadcastInDim SC ![0] hb1 (Host.reduceAdd (mulf x x) (constant (F := Ideal) S0 .f32 0x00000000#32) hr h0))
    (broadcastInDim SC ![] hb2 (constant (F := Ideal) S0 .f32 0x2B8CBCCC#32)))))

end Cert.Norm

end
-- ==== Proof.Tail.lean ====
/-
  The last lines both programs share: from the 4096 row losses, the mean of the positive ones
  (their sum over their count, the count taken at least 1), or 0 when none is positive.
  Stated once, over literal shapes and with the shape facts as arguments, so that each program's
  closing operations are this one function of its row losses.
-/
import Idealize.ShloMosaic.PureOps
import Idealize.ShloMosaic.PureOps.Ideal
import Idealize.ShloMosaic.Lib.StableHlo

noncomputable section

namespace Cert.Tail

open Idealize.ShloMosaic

abbrev S0 : Shape := ⟨0, ![]⟩
abbrev S1 : Shape := ⟨1, ![4096]⟩

/-- The mean of the positive losses (0 if there is none), operation by operation as both programs print it. -/
def tail (hb : S0.BroadcastsInDim S1 (![] : Fin 0 → Fin S1.rank)) (hr : S1.ReducesTo [0] S0) (h0 : 0 < S0.numel) (hlt : 1 < 32)
    (x : FVec Ideal S1 .f32) : FVec Ideal S0 .f32 :=
  select
    (cmpi .eq (Host.reduce IntOp.addi (extui 32 (cmpf .ogt x (broadcastInDim S1 ![] hb (constant (F := Ideal) S0 .f32 0x00000000#32))) hlt)
        (constantI S0 32 0#32) hr h0) (constantI S0 32 0#32))
    (id (constant (F := Ideal) S0 .f32 0x00000000#32))
    (Host.divf
      (Host.reduceAdd
        (select (cmpf .ogt x (broadcastInDim S1 ![] hb (constant (F := Ideal) S0 .f32 0x00000000#32))) x
          (broadcastInDim S1 ![] hb (id (constant (F := Ideal) S0 .f32 0x00000000#32))))
        (constant (F := Ideal) S0 .f32 0x00000000#32) hr h0)
      (sitofp .f32 (maxsi (Host.reduce IntOp.addi (extui 32 (cmpf .ogt x (broadcastInDim S1 ![] hb (constant (F := Ideal) S0 .f32 0x00000000#32))) hlt)
        (constantI S0 32 0#32) hr h0) (constantI S0 32 1#32))))

end Cert.Tail

end
-- ==== Proof.KHost.lean ====
/-
  The kernel program's host operations, before and after its kernel region, read as functions of the
  buffers they start from: the ten operations before the region compute the row-normalised embeddings,
  the operations after it compute the mean of the positive row losses.
-/
import proofs.«146731_j26792005992922_2_alg».proof.Proof.Gen.KernelIdeal.Launch
import proofs.«146731_j26792005992922_2_alg».proof.Proof.Norm
import proofs.«146731_j26792005992922_2_alg».proof.Proof.Tail
import Idealize.ShloMosaic.Lib.StableHlo.Run
import Idealize.ShloMosaic.Lib.Pipeline.Value
import Idealize.ShloMosaic.Lib.ValueIdx

noncomputable section

namespace Cert.KernelIdeal.KHost

open Idealize.ShloMosaic Idealize.ShloMosaic.TcCoe Idealize.SL.Sem Idealize.ShloMosaic.StableHlo
open Idealize.ShloMosaic.ValueIdx Cert.KernelIdeal Cert.KernelIdeal.Gen

/-- The ten operations before the region leave the row-normalised embeddings in the buffer the region
    reads. -/
theorem prefix_read (W : Valuation τ sig (Elt Ideal)) :
    StableHlo.after (hostOps0 (F := Ideal)) W (Proc.devRef .tc main_v7)
      = Cert.Norm.norm reducesTo_S4096x1024_S4096_d1 h_S_ bcast_S4096_S4096x1_0 bcast_S_S4096x1
          bcast_S4096x1_S4096x1024_0_1 (W (Proc.devRef .tc main_arg0)) := by
  after_results
  rfl

/-- They write none of the program's three arguments. -/
theorem prefix_keeps (W : Valuation τ sig (Elt Ideal)) (b : Ref sig .tc)
    (hb : b = main_arg1 ∨ b = main_arg2 ∨ b = main_arg0) :
    StableHlo.after (hostOps0 (F := Ideal)) W (Proc.devRef .tc b) = W (Proc.devRef .tc b) := by
  rcases hb with rfl | rfl | rfl <;> after_results

/-- The row losses the region leaves, as the vector the closing operations read: the region's
    [4096, 1] result recast to [4096]. -/
def losses (W : Valuation τ sig (Elt Ideal)) : FVec Ideal S4096 .f32 :=
  shapeCast S4096 (W (Proc.devRef .tc main_v8)) shapeCasts_S4096x1_S4096

/-- It is what the first operation after the region writes. -/
theorem losses_read (W : Valuation τ sig (Elt Ideal)) :
    StableHlo.after (hostOps1 (F := Ideal)) W (Proc.devRef .tc main_v9) = losses W := by
  after_results
  rfl

/-- Entry i of the recast vector is entry (i, 0) of the region's result: the two have the same
    row-major position, i * 1 + 0 = i. -/
theorem losses_apply (W : Valuation τ sig (Elt Ideal)) (i : Fin 4096) :
    losses W (ix1 i) = W (Proc.devRef .tc main_v8) (ix2 i 0) :=
  shapeCast_apply _ shapeCasts_S4096x1_S4096 _ _ (by
    rw [Shape.rowMajor_val_two, Shape.rowMajor_val_one]
    show i.val * 1 + 0 = i.val
    omega)

/-- The operations after the region, the two inlined helper bodies included, compute the mean of the
    positive row losses. Each operation's result is read at its own buffer; the helpers' typed references
    carry their values through casts along a reflexive type equation, which are the identity. -/
theorem tail_read (W : Valuation τ sig (Elt Ideal)) :
    StableHlo.after (hostOps1_3 (F := Ideal)) (StableHlo.after (hostOps1_2 (F := Ideal))
      (StableHlo.after (hostOps1_1 (F := Ideal)) (StableHlo.after (hostOps1 (F := Ideal)) W))) (Proc.devRef .tc main_v20)
      = Cert.Tail.tail bcast_S_S4096 reducesTo_S4096_S_d0 h_S_ natLt_1_32 (losses W) := by
  after_results
  dsimp only [TRef.toBuf, TRef.ofBuf, cast_eq, id]
  unfold Cert.Tail.tail losses
  rfl

end Cert.KernelIdeal.KHost

end
-- ==== Proof.KernelIdealResult.lean ====
/-
  THE KERNEL PROGRAM'S RESULT AS ONE TERM OF THE LAUNCH MEMORY. The host operations before the region leave the
  normalised embeddings and keep the argument arrays; the region leaves the 4096 row losses in the output array; the host
  operations after it reduce those to the mean of the positive ones. Chained, the result buffer holds that mean of the row
  losses of the normalised launched embeddings and the two launched mask arrays.
-/
import proofs.«146731_j26792005992922_2_alg».proof.Proof.KernelIdealRun
import proofs.«146731_j26792005992922_2_alg».proof.Proof.KernelIdealValue
import proofs.«146731_j26792005992922_2_alg».proof.Proof.KHost

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The program's result, from the launch memory: the mean of the positive row losses, each row loss taken of the
    normalised embeddings and the two mask arrays as launched. -/
theorem kernel_result (m : (ℓ : Loc nD τ sig) → Buf (Elt Ideal) ℓ) (ρ : Dev nD → PrngReg) (c : Dev nD) :
    W6 (F := Ideal) m ρ c (Proc.devRef .tc main_v20)
      = Cert.Tail.tail bcast_S_S4096 reducesTo_S4096_S_d0 h_S_ natLt_1_32
          (fun i => Cert.Spec.lossK
            (Cert.Norm.norm reducesTo_S4096x1024_S4096_d1 h_S_ bcast_S4096_S4096x1_0 bcast_S_S4096x1 bcast_S4096x1_S4096x1024_0_1
              (m ((c : Thread nD τ).loc main_arg0)))
            (m ((c : Thread nD τ).loc main_arg1)) (m ((c : Thread nD τ).loc main_arg2)) ⟨(i 0).val, (i 0).isLt⟩) := by
  show StableHlo.after (hostOps1_3 (F := Ideal)) (StableHlo.after (hostOps1_2 (F := Ideal))
      (StableHlo.after (hostOps1_1 (F := Ideal)) (StableHlo.after (hostOps1 (F := Ideal)) (W2 m ρ c))))
      (Proc.devRef .tc main_v20) = _
  refine (KHost.tail_read (W2 m ρ c)).trans ?_
  refine congrArg (Cert.Tail.tail _ _ _ _) ?_
  funext i
  obtain ⟨i0, rfl⟩ : ∃ i0 : Fin 4096, i = ix1 i0 := ⟨i 0, eq_ix1 i⟩
  rw [KHost.losses_apply, W2_out, final4]
  have e7 : V1 m ρ c main_v7
      = Cert.Norm.norm reducesTo_S4096x1024_S4096_d1 h_S_ bcast_S4096_S4096x1_0 bcast_S_S4096x1 bcast_S4096x1_S4096x1024_0_1
          (m ((c : Thread nD τ).loc main_arg0)) := KHost.prefix_read (W0 m ρ c)
  have e1 : V1 m ρ c main_arg1 = m ((c : Thread nD τ).loc main_arg1) := KHost.prefix_keeps (W0 m ρ c) main_arg1 (.inl rfl)
  have e2 : V1 m ρ c main_arg2 = m ((c : Thread nD τ).loc main_arg2) := KHost.prefix_keeps (W0 m ρ c) main_arg2 (.inr (.inl rfl))
  rw [e7, e1, e2]
  rfl

end Cert.KernelIdeal.Fr

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefFoldInv.lean ====
/-
  The reference program's run, cut into consecutive lines of operations: what is known between two lines.

  Every buffer of the reference is written once. After the first i lines have run, each buffer that a later line
  still reads holds its operation's value function (the per-operation functions val_…, each literally the operation
  applied to the value functions of its operands) at the three arguments' contents x0 x1 x2. Inv i V x0 x1 x2 states
  this of contents V: one equation per buffer still to be read. Inv 0 is the launch: the arguments hold x0 x1 x2.
-/
import proofs.«146731_j26792005992922_2_alg».proof.Proof.RefReadP

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

/-- The buffers still to be read after line 0 (before any operation), each at its value function of the arguments. -/
structure Inv0 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  arg0 : V (Proc.devRef .tc main_arg0) = x0
  arg1 : V (Proc.devRef .tc main_arg1) = x1
  arg2 : V (Proc.devRef .tc main_arg2) = x2

/-- The buffers still to be read after line 1, each at its value function of the arguments. -/
structure Inv1 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  arg0 : V (Proc.devRef .tc main_arg0) = x0
  v2 : V (Proc.devRef .tc main_v2) = val_main_v2 (F := Ideal) x1
  v5 : V (Proc.devRef .tc main_v5) = val_main_v5 (F := Ideal) x2

/-- The buffers still to be read after line 2, each at its value function of the arguments. -/
structure Inv2 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v15 : V (Proc.devRef .tc main_v15) = val_main_v15 (F := Ideal) x0

/-- The buffers still to be read after line 3, each at its value function of the arguments. -/
structure Inv3 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v15 : V (Proc.devRef .tc main_v15) = val_main_v15 (F := Ideal) x0
  v23 : V (Proc.devRef .tc main_v23) = val_main_v23 (F := Ideal) x0

/-- The buffers still to be read after line 4, each at its value function of the arguments. -/
structure Inv4 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v23 : V (Proc.devRef .tc main_v23) = val_main_v23 (F := Ideal) x0
  v31 : V (Proc.devRef .tc main_v31) = val_main_v31 (F := Ideal) x0

/-- The buffers still to be read after line 5, each at its value function of the arguments. -/
structure Inv5 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v33 : V (Proc.devRef .tc main_v33) = val_main_v33 (F := Ideal) x0 x1 x2
  v36 : V (Proc.devRef .tc main_v36) = val_main_v36 (F := Ideal) x0 x1 x2

/-- The buffers still to be read after line 6, each at its value function of the arguments. -/
structure Inv6 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v33 : V (Proc.devRef .tc main_v33) = val_main_v33 (F := Ideal) x0 x1 x2
  v39 : V (Proc.devRef .tc main_v39) = val_main_v39 (F := Ideal) x0 x1 x2

/-- The buffers still to be read after line 7, each at its value function of the arguments. -/
structure Inv7 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v33 : V (Proc.devRef .tc main_v33) = val_main_v33 (F := Ideal) x0 x1 x2
  v39 : V (Proc.devRef .tc main_v39) = val_main_v39 (F := Ideal) x0 x1 x2
  v47 : V (Proc.devRef .tc main_v47) = val_main_v47 (F := Ideal) x0 x1 x2

/-- The buffers still to be read after line 8, each at its value function of the arguments. -/
structure Inv8 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v33 : V (Proc.devRef .tc main_v33) = val_main_v33 (F := Ideal) x0 x1 x2
  v54 : V (Proc.devRef .tc main_v54) = val_main_v54 (F := Ideal) x0 x1 x2

/-- The buffers still to be read after line 9, each at its value function of the arguments. -/
structure Inv9 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v33 : V (Proc.devRef .tc main_v33) = val_main_v33 (F := Ideal) x0 x1 x2
  v54 : V (Proc.devRef .tc main_v54) = val_main_v54 (F := Ideal) x0 x1 x2
  v60 : V (Proc.devRef .tc main_v60) = val_main_v60 (F := Ideal) x0 x1 x2

/-- The buffers still to be read after line 10, each at its value function of the arguments. -/
structure Inv10 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v54 : V (Proc.devRef .tc main_v54) = val_main_v54 (F := Ideal) x0 x1 x2
  v60 : V (Proc.devRef .tc main_v60) = val_main_v60 (F := Ideal) x0 x1 x2
  v68 : V (Proc.devRef .tc main_v68) = val_main_v68 (F := Ideal) x0 x1 x2

/-- The buffers still to be read after line 11, each at its value function of the arguments. -/
structure Inv11 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v76 : V (Proc.devRef .tc main_v76) = val_main_v76 (F := Ideal) x0 x1 x2

/-- The buffers still to be read after line 12, each at its value function of the arguments. -/
structure Inv12 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v2 : V (Proc.devRef .tc main_v2) = val_main_v2 (F := Ideal) x1
  v5 : V (Proc.devRef .tc main_v5) = val_main_v5 (F := Ideal) x2
  v78 : V (Proc.devRef .tc main_v78) = val_main_v78 (F := Ideal) x0 x1 x2

/-- The buffers still to be read after line 13, each at its value function of the arguments. -/
structure Inv13 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v89 : V (Proc.devRef .tc main_v89) = val_main_v89 (F := Ideal) x0 x1 x2

/-- The buffers still to be read after line 14, each at its value function of the arguments. -/
structure Inv14 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v93 : V (Proc.devRef .tc main_v93) = val_main_v93 (F := Ideal) x0 x1 x2
  v94 : V (Proc.devRef .tc main_v94) = val_main_v94 (F := Ideal) x0 x1 x2

/-- The buffers still to be read after line 15, each at its value function of the arguments. -/
structure Inv15 (V : Valuation τ sig (Elt Ideal)) (x0 : (⟨S4096x1024, .f32⟩ : BufTy).Contents (Elt Ideal)) (x1 : (⟨S4096x4096, .i32⟩ : BufTy).Contents (Elt Ideal)) (x2 : (⟨S4096x4096, .i32⟩ : BufTy).Contents (Elt Ideal)) : Prop where
  v100 : V (Proc.devRef .tc main_v100) = val_main_v100 (F := Ideal) x0 x1 x2

end Cert.RefFold

end
-- ==== Proof.RefFold1.lean ====
/-
  Line 1 of the reference's run: operations 1 to 8 of its 169, and what they leave.

  From contents V in which every buffer the line reads holds its value function of the arguments (Inv0), the fold of
  the line's operations over V holds, at each buffer a later line reads, that buffer's value function (Inv1): a
  buffer the line does not write keeps its contents; a buffer it writes holds the composition of the line's operations
  over what V holds at the buffers read, which is its value function unfolded down to those buffers.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 1 to 8 of the reference, in order. -/
abbrev seg1 : List (HloOp τ sig (Elt F)) :=
  [ nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg1 main_v0 main_v1 (cmpi .ne : (⟨S4096x4096, .i32⟩ : BufTy).Contents (Elt F) → (⟨S4096x4096, .i32⟩ : BufTy).Contents (Elt F) → (⟨S4096x4096, .i1⟩ : BufTy).Contents (Elt F)),
    unary main_v1 main_v2 (id : (⟨S4096x4096, .i1⟩ : BufTy).Contents (Elt F) → (⟨S4096x4096, .i1⟩ : BufTy).Contents (Elt F)),
    nullary main_c_0 (constantI S_ 32 0#32),
    unary main_c_0 main_v3 (broadcastInDim S4096x4096 ![] bcast_S_S4096x4096 : (⟨S_, .i32⟩ : BufTy).Contents (Elt F) → (⟨S4096x4096, .i32⟩ : BufTy).Contents (Elt F)),
    binary main_arg2 main_v3 main_v4 (cmpi .ne : (⟨S4096x4096, .i32⟩ : BufTy).Contents (Elt F) → (⟨S4096x4096, .i32⟩ : BufTy).Contents (Elt F) → (⟨S4096x4096, .i1⟩ : BufTy).Contents (Elt F)),
    unary main_v4 main_v5 (id : (⟨S4096x4096, .i1⟩ : BufTy).Contents (Elt F) → (⟨S4096x4096, .i1⟩ : BufTy).Contents (Elt F)) ]

theorem step1 {V : Valuation τ sig (Elt Ideal)} {x0 : (⟨S4096x1024, .f32⟩ : BufTy).Contents (Elt Ideal)} {x1 x2 : (⟨S4096x4096, .i32⟩ : BufTy).Contents (Elt Ideal)}
    (h : Inv0 V x0 x1 x2) : Inv1 (after (seg1 (F := Ideal)) V) x0 x1 x2 where
  arg0 := by
    after_results_simp
    exact h.arg0
  v2 := by
    after_results_simp
    rw [h.arg1]
    rfl
  v5 := by
    after_results_simp
    rw [h.arg2]
    rfl

end Cert.RefFold

end
-- ==== Proof.RefFold2.lean ====
/-
  Line 2 of the reference's run: operations 9 to 20 of its 169, and what they leave.

  From contents V in which every buffer the line reads holds its value function of the arguments (Inv1), the fold of
  the line's operations over V holds, at each buffer a later line reads, that buffer's value function (Inv2): a
  buffer the line does not write keeps its contents; a buffer it writes holds the composition of the line's operations
  over what V holds at the buffers read, which is its value function unfolded down to those buffers.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 9 to 20 of the reference, in order. -/
abbrev seg2 : List (HloOp τ sig (Elt F)) :=
  [ binary main_arg0 main_arg0 main_v6 (mulf : (⟨S4096x1024, .f32⟩ : BufTy).Contents (Elt F) → (⟨S4096x1024, .f32⟩ : BufTy).Contents (Elt F) → (⟨S4096x1024, .f32⟩ : BufTy).Contents (Elt F)),
    nullary main_cst (constant S_ .f32 0x00000000#32),
    binary main_v6 main_cst main_v7 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v7 main_v8 (broadcastInDim S4096x1 ![0] bcast_S4096_S4096x1_0 : (⟨S4096, .f32⟩ : BufTy).Contents (Elt F) → (⟨S4096x1, .f32⟩ : BufTy).Contents (Elt F)),
    nullary main_cst_1 (constant S_ .f32 0x2B8CBCCC#32),
    unary main_cst_1 main_v9 (broadcastInDim S4096x1 ![] bcast_S_S4096x1 : (⟨S_, .f32⟩ : BufTy).Contents (Elt F) → (⟨S4096x1, .f32⟩ : BufTy).Contents (Elt F)),
    binary main_v8 main_v9 main_v10 (maximumf : (⟨S4096x1, .f32⟩ : BufTy).Contents (Elt F) → (⟨S4096x1, .f32⟩ : BufTy).Contents (Elt F) → (⟨S4096x1, .f32⟩ : BufTy).Contents (Elt F)),
    unary main_v10 main_v11 (Host.rsqrt : (⟨S4096x1, .f32⟩ : BufTy).Contents (Elt F) → (⟨S4096x1, .f32⟩ : BufTy).Contents (Elt F)),
    unary main_v11 main_v12 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v12 main_v13 (mulf : (⟨S4096x1024, .f32⟩ : BufTy).Contents (Elt F) → (⟨S4096x1024, .f32⟩ : BufTy).Contents (Elt F) → (⟨S4096x1024, .f32⟩ : BufTy).Contents (Elt F)),
    unary main_v13 main_v14 ((transpose S1024x4096 [1, 0] · transposes_S4096x1024_S1024x4096_1_0) : (⟨S4096x1024, .f32⟩ : BufTy).Contents (Elt F) → (⟨S1024x4096, .f32⟩ : BufTy).Contents (Elt F)),
    binary main_v13 main_v14 main_v15 ((fun l r => Host.dotGeneral dot_S4096x1024_S1024x4096_S4096x4096_1_0_0_1_n_n none l r) : (⟨S4096x1024, .f32⟩ : BufTy).Contents (Elt F) → (⟨S1024x4096, .f32⟩ : BufTy).Contents (Elt F) → (⟨S4096x4096, .f32⟩ : BufTy).Contents (Elt F)) ]

theorem step2 {V : Valuation τ sig (Elt Ideal)} {x0 : (⟨S4096x1024, .f32⟩ : BufTy).Contents (Elt Ideal)} {x1 x2 : (⟨S4096x4096, .i32⟩ : BufTy).Contents (Elt Ideal)}
    (h : Inv1 V x0 x1 x2) : Inv2 (after (seg2 (F := Ideal)) V) x0 x1 x2 where
  v2 := by
    after_results_simp
    exact h.v2
  v5 := by
    after_results_simp
    exact h.v5
  v15 := by
    after_results_simp
    rw [h.arg0]
    rfl

end Cert.RefFold

end
-- ==== Proof.RefFold3.lean ====
/-
  Line 3 of the reference's run: operations 21 to 33 of its 169, and what they leave.

  From contents V in which every buffer the line reads holds its value function of the arguments (Inv2), the fold of
  the line's operations over V holds, at each buffer a later line reads, that buffer's value function (Inv3): a
  buffer the line does not write keeps its contents; a buffer it writes holds the composition of the line's operations
  over what V holds at the buffers read, which is its value function unfolded down to those buffers.
  An operation of a called function is written over typed references, its function moved to the buffers' own types along
  equations that hold by computation; the same operation written over the bare buffers (plain3) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 21 to 33 of the reference, in order. -/
abbrev seg3 : List (HloOp τ sig (Elt F)) :=
  [ nullary main_cst_2 (constant S_ .f32 0x3FA00000#32),
    unary main_cst_2 main_v16 (broadcastInDim S4096x4096 ![] bcast_S_S4096x4096 : (⟨S_, .f32⟩ : BufTy).Contents (Elt F) → (⟨S4096x4096, .f32⟩ : BufTy).Contents (Elt F)),
    binary main_v16 main_v15 main_v17 (subf : (⟨S4096x4096, .f32⟩ : BufTy).Contents (Elt F) → (⟨S4096x4096, .f32⟩ : BufTy).Contents (Elt F) → (⟨S4096x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v0) (broadcastInDim S4096x4096 ![] bcast_S_S4096x4096),
    TRef.binary (TRef.of (T := ⟨S4096x4096, .f32⟩) main_v17) (TRef.of (T := ⟨S4096x4096, .f32⟩) main_call0_v0) (TRef.of (T := ⟨S4096x4096, .f32⟩) main_v18) maximumf,
    nullary main_cst_3 (constant S_ .f32 0xC3800000#32),
    unary main_cst_3 main_v19 (broadcastInDim S4096x4096 ![] bcast_S_S4096x4096 : (⟨S_, .f32⟩ : BufTy).Contents (Elt F) → (⟨S4096x4096, .f32⟩ : BufTy).Contents (Elt F)),
    binary main_v19 main_v18 main_v20 (mulf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x3F400000#32),
    unary main_cst_4 main_v21 (broadcastInDim S4096x4096 ![] bcast_S_S4096x4096 : (⟨S_, .f32⟩ : BufTy).Contents (Elt F) → (⟨S4096x4096, .f32⟩ : BufTy).Contents (Elt F)),
    binary main_v15 main_v21 main_v22 (subf : (⟨S4096x4096, .f32⟩ : BufTy).Contents (Elt F) → (⟨S4096x4096, .f32⟩ : BufTy).Contents (Elt F) → (⟨S4096x4096, .f32⟩ : BufTy).Contents (Elt F)),
    binary main_v20 main_v22 main_v23 (mulf : (⟨S4096x4096, .f32⟩ : BufTy).Contents (Elt F) → (⟨S4096x4096, .f32⟩ : BufTy).Contents (Elt F) → (⟨S4096x4096, .f32⟩ : BufTy).Contents (Elt F)) ]

/-- The same operations, a called function's over the bare buffers. -/
abbrev plain3 : List (HloOp τ sig (Elt F)) :=
  [ nullary main_cst_2 (constant S_ .f32 0x3FA00000#32),
    unary main_cst_2 main_v16 (broadcastInDim S4096x4096 ![] bcast_S_S4096x4096 : (⟨S_, .f32⟩ : BufTy).Contents (Elt F) → (⟨S4096x4096, .f32⟩ : BufTy).Contents (Elt F)),
    binary main_v16 main_v15 main_v17 (subf : (⟨S4096x4096, .f32⟩ : BufTy).Contents (Elt F) → (⟨S4096x4096, .f32⟩ : BufTy).Contents (Elt F) → (⟨S4096x4096, .f32⟩ : BufTy).Contents (Elt F)),
    nullary main_call0_cst (constant S_ .f32 0x00000000#32),
    unary main_call0_cst main_call0_v0 (broadcastInDim S4096x4096 ![] bcast_S_S4096x4096 : (⟨S_, .f32⟩ : BufTy).Contents (Elt F) → (⟨S4096x4096, .f32⟩ : BufTy).Contents (Elt F)),
    binary main_v17 main_call0_v0 main_v18 (maximumf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0xC3800000#32),
    unary main_cst_3 main_v19 (broadcastInDim S4096x4096 ![] bcast_S_S4096x4096 : (⟨S_, .f32⟩ : BufTy).Contents (Elt F) → (⟨S4096x4096, .f32⟩ : BufTy).Contents (Elt F)),
    binary main_v19 main_v18 main_v20 (mulf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x3F400000#32),
    unary main_cst_4 main_v21 (broadcastInDim S4096x4096 ![] bcast_S_S4096x4096 : (⟨S_, .f32⟩ : BufTy).Contents (Elt F) → (⟨S4096x4096, .f32⟩ : BufTy).Contents (Elt F)),
    binary main_v15 main_v21 main_v22 (subf : (⟨S4096x4096, .f32⟩ : BufTy).Contents (Elt F) → (⟨S4096x4096, .f32⟩ : BufTy).Contents (Elt F) → (⟨S4096x4096, .f32⟩ : BufTy).Contents (Elt F)),
    binary main_v20 main_v22 main_v23 (mulf : (⟨S4096x4096, .f32⟩ : BufTy).Contents (Elt F) → (⟨S4096x4096, .f32⟩ : BufTy).Contents (Elt F) → (⟨S4096x4096, .f32⟩ : BufTy).Contents (Elt F)) ]

theorem seg3_eq : (seg3 (F := F)) = plain3 := rfl

theorem step3_plain {V : Valuation τ sig (Elt Ideal)} {x0 : (⟨S4096x1024, .f32⟩ : BufTy).Contents (Elt Ideal)} {x1 x2 : (⟨S4096x4096, .i32⟩ : BufTy).Contents (Elt Ideal)}
    (h : Inv2 V x0 x1 x2) : Inv3 (after (plain3 (F := Ideal)) V) x0 x1 x2 where
  v2 := by
    after_results_simp
    exact h.v2
  v5 := by
    after_results_simp
    exact h.v5
  v15 := by
    after_results_simp
    exact h.v15
  v23 := by
    after_results_simp
    rw [h.v15]
    rfl

theorem step3 {V : Valuation τ sig (Elt Ideal)} {x0 : (⟨S4096x1024, .f32⟩ : BufTy).Contents (Elt Ideal)} {x1 x2 : (⟨S4096x4096, .i32⟩ : BufTy).Contents (Elt Ideal)}
    (h : Inv2 V x0 x1 x2) : Inv3 (after (seg3 (F := Ideal)) V) x0 x1 x2 := by
  rw [seg3_eq]
  exact step3_plain h

end Cert.RefFold

end
-- ==== Proof.RefFold4.lean ====
/-
  Line 4 of the reference's run: operations 34 to 46 of its 169, and what they leave.

  From contents V in which every buffer the line reads holds its value function of the arguments (Inv3), the fold of
  the line's operations over V holds, at each buffer a later line reads, that buffer's value function (Inv4): a
  buffer the line does not write keeps its contents; a buffer it writes holds the composition of the line's operations
  over what V holds at the buffers read, which is its value function unfolded down to those buffers.
  An operation of a called function is written over typed references, its function moved to the buffers' own types along
  equations that hold by computation; the same operation written over the bare buffers (plain4) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 34 to 46 of the reference, in order. -/
abbrev seg4 : List (HloOp τ sig (Elt F)) :=
  [ nullary main_cst_5 (constant S_ .f32 0xBE800000#32),
    unary main_cst_5 main_v24 (broadcastInDim S4096x4096 ![] bcast_S_S4096x4096 : (⟨S_, .f32⟩ : BufTy).Contents (Elt F) → (⟨S4096x4096, .f32⟩ : BufTy).Contents (Elt F)),
    binary main_v15 main_v24 main_v25 (subf : (⟨S4096x4096, .f32⟩ : BufTy).Contents (Elt F) → (⟨S4096x4096, .f32⟩ : BufTy).Contents (Elt F) → (⟨S4096x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x4096, .f32⟩) main_call1_v0) (broadcastInDim S4096x4096 ![] bcast_S_S4096x4096),
    TRef.binary (TRef.of (T := ⟨S4096x4096, .f32⟩) main_v25) (TRef.of (T := ⟨S4096x4096, .f32⟩) main_call1_v0) (TRef.of (T := ⟨S4096x4096, .f32⟩) main_v26) maximumf,
    nullary main_cst_6 (constant S_ .f32 0x43800000#32),
    unary main_cst_6 main_v27 (broadcastInDim S4096x4096 ![] bcast_S_S4096x4096 : (⟨S_, .f32⟩ : BufTy).Contents (Elt F) → (⟨S4096x4096, .f32⟩ : BufTy).Contents (Elt F)),
    binary main_v27 main_v26 main_v28 (mulf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x3E800000#32),
    unary main_cst_7 main_v29 (broadcastInDim S4096x4096 ![] bcast_S_S4096x4096 : (⟨S_, .f32⟩ : BufTy).Contents (Elt F) → (⟨S4096x4096, .f32⟩ : BufTy).Contents (Elt F)),
    binary main_v15 main_v29 main_v30 (subf : (⟨S4096x4096, .f32⟩ : BufTy).Contents (Elt F) → (⟨S4096x4096, .f32⟩ : BufTy).Contents (Elt F) → (⟨S4096x4096, .f32⟩ : BufTy).Contents (Elt F)),
    binary main_v28 main_v30 main_v31 (mulf : (⟨S4096x4096, .f32⟩ : BufTy).Contents (Elt F) → (⟨S4096x4096, .f32⟩ : BufTy).Contents (Elt F) → (⟨S4096x4096, .f32⟩ : BufTy).Contents (Elt F)) ]

/-- The same operations, a called function's over the bare buffers. -/
abbrev plain4 : List (HloOp τ sig (Elt F)) :=
  [ nullary main_cst_5 (constant S_ .f32 0xBE800000#32),
    unary main_cst_5 main_v24 (broadcastInDim S4096x4096 ![] bcast_S_S4096x4096 : (⟨S_, .f32⟩ : BufTy).Contents (Elt F) → (⟨S4096x4096, .f32⟩ : BufTy).Contents (Elt F)),
    binary main_v15 main_v24 main_v25 (subf : (⟨S4096x4096, .f32⟩ : BufTy).Contents (Elt F) → (⟨S4096x4096, .f32⟩ : BufTy).Contents (Elt F) → (⟨S4096x4096, .f32⟩ : BufTy).Contents (Elt F)),
    nullary main_call1_cst (constant S_ .f32 0x00000000#32),
    unary main_call1_cst main_call1_v0 (broadcastInDim S4096x4096 ![] bcast_S_S4096x4096 : (⟨S_, .f32⟩ : BufTy).Contents (Elt F) → (⟨S4096x4096, .f32⟩ : BufTy).Contents (Elt F)),
    binary main_v25 main_call1_v0 main_v26 (maximumf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x43800000#32),
    unary main_cst_6 main_v27 (broadcastInDim S4096x4096 ![] bcast_S_S4096x4096 : (⟨S_, .f32⟩ : BufTy).Contents (Elt F) → (⟨S4096x4096, .f32⟩ : BufTy).Contents (Elt F)),
    binary main_v27 main_v26 main_v28 (mulf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x3E800000#32),
    unary main_cst_7 main_v29 (broadcastInDim S4096x4096 ![] bcast_S_S4096x4096 : (⟨S_, .f32⟩ : BufTy).Contents (Elt F) → (⟨S4096x4096, .f32⟩ : BufTy).Contents (Elt F)),
    binary main_v15 main_v29 main_v30 (subf : (⟨S4096x4096, .f32⟩ : BufTy).Contents (Elt F) → (⟨S4096x4096, .f32⟩ : BufTy).Contents (Elt F) → (⟨S4096x4096, .f32⟩ : BufTy).Contents (Elt F)),
    binary main_v28 main_v30 main_v31 (mulf : (⟨S4096x4096, .f32⟩ : BufTy).Contents (Elt F) → (⟨S4096x4096, .f32⟩ : BufTy).Contents (Elt F) → (⟨S4096x4096, .f32⟩ : BufTy).Contents (Elt F)) ]

theorem seg4_eq : (seg4 (F := F)) = plain4 := rfl

theorem step4_plain {V : Valuation τ sig (Elt Ideal)} {x0 : (⟨S4096x1024, .f32⟩ : BufTy).Contents (Elt Ideal)} {x1 x2 : (⟨S4096x4096, .i32⟩ : BufTy).Contents (Elt Ideal)}
    (h : Inv3 V x0 x1 x2) : Inv4 (after (plain4 (F := Ideal)) V) x0 x1 x2 where
  v2 := by
    after_results_simp
    exact h.v2
  v5 := by
    after_results_simp
    exact h.v5
  v23 := by
    after_results_simp
    exact h.v23
  v31 := by
    after_results_simp
    rw [h.v15]
    rfl

theorem step4 {V : Valuation τ sig (Elt Ideal)} {x0 : (⟨S4096x1024, .f32⟩ : BufTy).Contents (Elt Ideal)} {x1 x2 : (⟨S4096x4096, .i32⟩ : BufTy).Contents (Elt Ideal)}
    (h : Inv3 V x0 x1 x2) : Inv4 (after (seg4 (F := Ideal)) V) x0 x1 x2 := by
  rw [seg4_eq]
  exact step4_plain h

end Cert.RefFold

end
-- ==== Proof.RefFold5.lean ====
/-
  Line 5 of the reference's run: operations 47 to 57 of its 169, and what they leave.

  From contents V in which every buffer the line reads holds its value function of the arguments (Inv4), the fold of
  the line's operations over V holds, at each buffer a later line reads, that buffer's value function (Inv5): a
  buffer the line does not write keeps its contents; a buffer it writes holds the composition of the line's operations
  over what V holds at the buffers read, which is its value function unfolded down to those buffers.
  An operation of a called function is written over typed references, its function moved to the buffers' own types along
  equations that hold by computation; the same operation written over the bare buffers (plain5) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 47 to 57 of the reference, in order. -/
abbrev seg5 : List (HloOp τ sig (Elt F)) :=
  [ nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S4096x4096, .f32⟩) main_call2_v1) (broadcastInDim S4096x4096 ![] bcast_S_S4096x4096),
    TRef.ternary (TRef.of (T := ⟨S4096x4096, .i1⟩) main_v2) (TRef.of (T := ⟨S4096x4096, .f32⟩) main_v23) (TRef.of (T := ⟨S4096x4096, .f32⟩) main_call2_v1) (TRef.of (T := ⟨S4096x4096, .f32⟩) main_v32) select,
    TRef.ternary (TRef.of (T := ⟨S4096x4096, .i1⟩) main_v5) (TRef.of (T := ⟨S4096x4096, .f32⟩) main_v31) (TRef.of (T := ⟨S4096x4096, .f32⟩) main_v32) (TRef.of (T := ⟨S4096x4096, .f32⟩) main_v33) select,
    nullary main_cst_9 (constant S_ .f32 0xFF7FFFFF#32),
    TRef.unary (TRef.of (T := ⟨S_, .f32⟩) main_cst_9) (TRef.of (T := ⟨S4096x4096, .f32⟩) main_call4_v0) (broadcastInDim S4096x4096 ![] bcast_S_S4096x4096),
    TRef.ternary (TRef.of (T := ⟨S4096x4096, .i1⟩) main_v2) (TRef.of (T := ⟨S4096x4096, .f32⟩) main_v33) (TRef.of (T := ⟨S4096x4096, .f32⟩) main_call4_v0) (TRef.of (T := ⟨S4096x4096, .f32⟩) main_v34) select,
    nullary main_cst_10 (constant S_ .f32 0xFF800000#32),
    binary main_v34 main_cst_10 main_v35 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v35 main_v36 (broadcastInDim S4096x1 ![0] bcast_S4096_S4096x1_0 : (⟨S4096, .f32⟩ : BufTy).Contents (Elt F) → (⟨S4096x1, .f32⟩ : BufTy).Contents (Elt F)) ]

/-- The same operations, a called function's over the bare buffers. -/
abbrev plain5 : List (HloOp τ sig (Elt F)) :=
  [ nullary main_cst_8 (constant S_ .f32 0x00000000#32),
    unary main_cst_8 main_call2_v0 (id : (⟨S_, .f32⟩ : BufTy).Contents (Elt F) → (⟨S_, .f32⟩ : BufTy).Contents (Elt F)),
    unary main_call2_v0 main_call2_v1 (broadcastInDim S4096x4096 ![] bcast_S_S4096x4096 : (⟨S_, .f32⟩ : BufTy).Contents (Elt F) → (⟨S4096x4096, .f32⟩ : BufTy).Contents (Elt F)),
    ternary main_v2 main_v23 main_call2_v1 main_v32 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    ternary main_v5 main_v31 main_v32 main_v33 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0xFF7FFFFF#32),
    unary main_cst_9 main_call4_v0 (broadcastInDim S4096x4096 ![] bcast_S_S4096x4096 : (⟨S_, .f32⟩ : BufTy).Contents (Elt F) → (⟨S4096x4096, .f32⟩ : BufTy).Contents (Elt F)),
    ternary main_v2 main_v33 main_call4_v0 main_v34 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_10 (constant S_ .f32 0xFF800000#32),
    binary main_v34 main_cst_10 main_v35 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v35 main_v36 (broadcastInDim S4096x1 ![0] bcast_S4096_S4096x1_0 : (⟨S4096, .f32⟩ : BufTy).Contents (Elt F) → (⟨S4096x1, .f32⟩ : BufTy).Contents (Elt F)) ]

theorem seg5_eq : (seg5 (F := F)) = plain5 := rfl

theorem step5_plain {V : Valuation τ sig (Elt Ideal)} {x0 : (⟨S4096x1024, .f32⟩ : BufTy).Contents (Elt Ideal)} {x1 x2 : (⟨S4096x4096, .i32⟩ : BufTy).Contents (Elt Ideal)}
    (h : Inv4 V x0 x1 x2) : Inv5 (after (plain5 (F := Ideal)) V) x0 x1 x2 where
  v2 := by
    after_results_simp
    exact h.v2
  v5 := by
    after_results_simp
    exact h.v5
  v33 := by
    after_results_simp
    rw [h.v5, h.v31, h.v2, h.v23]
    rfl
  v36 := by
    after_results_simp
    rw [h.v2, h.v5, h.v31, h.v23]
    rfl

theorem step5 {V : Valuation τ sig (Elt Ideal)} {x0 : (⟨S4096x1024, .f32⟩ : BufTy).Contents (Elt Ideal)} {x1 x2 : (⟨S4096x4096, .i32⟩ : BufTy).Contents (Elt Ideal)}
    (h : Inv4 V x0 x1 x2) : Inv5 (after (seg5 (F := Ideal)) V) x0 x1 x2 := by
  rw [seg5_eq]
  exact step5_plain h

end Cert.RefFold

end
-- ==== Proof.RefFold6.lean ====
/-
  Line 6 of the reference's run: operations 58 to 64 of its 169, and what they leave.

  From contents V in which every buffer the line reads holds its value function of the arguments (Inv5), the fold of
  the line's operations over V holds, at each buffer a later line reads, that buffer's value function (Inv6): a
  buffer the line does not write keeps its contents; a buffer it writes holds the composition of the line's operations
  over what V holds at the buffers read, which is its value function unfolded down to those buffers.
  An operation of a called function is written over typed references, its function moved to the buffers' own types along
  equations that hold by computation; the same operation written over the bare buffers (plain6) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 58 to 64 of the reference, in order. -/
abbrev seg6 : List (HloOp τ sig (Elt F)) :=
  [ nullary main_cst_11 (constant S_ .f32 0xFF7FFFFF#32),
    unary main_cst_11 main_v37 (broadcastInDim S4096x1 ![] bcast_S_S4096x1 : (⟨S_, .f32⟩ : BufTy).Contents (Elt F) → (⟨S4096x1, .f32⟩ : BufTy).Contents (Elt F)),
    binary main_v36 main_v37 main_v38 (cmpf .oeq : (⟨S4096x1, .f32⟩ : BufTy).Contents (Elt F) → (⟨S4096x1, .f32⟩ : BufTy).Contents (Elt F) → (⟨S4096x1, .i1⟩ : BufTy).Contents (Elt F)),
    nullary main_cst_12 (constant S_ .f32 0x00000000#32),
    TRef.unary (TRef.of (T := ⟨S_, .f32⟩) main_cst_12) (TRef.of (T := ⟨S_, .f32⟩) main_call5_v0) id,
    TRef.unary (TRef.of (T := ⟨S_, .f32⟩) main_call5_v0) (TRef.of (T := ⟨S4096x1, .f32⟩) main_call5_v1) (broadcastInDim S4096x1 ![] bcast_S_S4096x1),
    TRef.ternary (TRef.of (T := ⟨S4096x1, .i1⟩) main_v38) (TRef.of (T := ⟨S4096x1, .f32⟩) main_call5_v1) (TRef.of (T := ⟨S4096x1, .f32⟩) main_v36) (TRef.of (T := ⟨S4096x1, .f32⟩) main_v39) select ]

/-- The same operations, a called function's over the bare buffers. -/
abbrev plain6 : List (HloOp τ sig (Elt F)) :=
  [ nullary main_cst_11 (constant S_ .f32 0xFF7FFFFF#32),
    unary main_cst_11 main_v37 (broadcastInDim S4096x1 ![] bcast_S_S4096x1 : (⟨S_, .f32⟩ : BufTy).Contents (Elt F) → (⟨S4096x1, .f32⟩ : BufTy).Contents (Elt F)),
    binary main_v36 main_v37 main_v38 (cmpf .oeq : (⟨S4096x1, .f32⟩ : BufTy).Contents (Elt F) → (⟨S4096x1, .f32⟩ : BufTy).Contents (Elt F) → (⟨S4096x1, .i1⟩ : BufTy).Contents (Elt F)),
    nullary main_cst_12 (constant S_ .f32 0x00000000#32),
    unary main_cst_12 main_call5_v0 (id : (⟨S_, .f32⟩ : BufTy).Contents (Elt F) → (⟨S_, .f32⟩ : BufTy).Contents (Elt F)),
    unary main_call5_v0 main_call5_v1 (broadcastInDim S4096x1 ![] bcast_S_S4096x1 : (⟨S_, .f32⟩ : BufTy).Contents (Elt F) → (⟨S4096x1, .f32⟩ : BufTy).Contents (Elt F)),
    ternary main_v38 main_call5_v1 main_v36 main_v39 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)) ]

theorem seg6_eq : (seg6 (F := F)) = plain6 := rfl

theorem step6_plain {V : Valuation τ sig (Elt Ideal)} {x0 : (⟨S4096x1024, .f32⟩ : BufTy).Contents (Elt Ideal)} {x1 x2 : (⟨S4096x4096, .i32⟩ : BufTy).Contents (Elt Ideal)}
    (h : Inv5 V x0 x1 x2) : Inv6 (after (plain6 (F := Ideal)) V) x0 x1 x2 where
  v2 := by
    after_results_simp
    exact h.v2
  v5 := by
    after_results_simp
    exact h.v5
  v33 := by
    after_results_simp
    exact h.v33
  v39 := by
    after_results_simp
    rw [h.v36]
    rfl

theorem step6 {V : Valuation τ sig (Elt Ideal)} {x0 : (⟨S4096x1024, .f32⟩ : BufTy).Contents (Elt Ideal)} {x1 x2 : (⟨S4096x4096, .i32⟩ : BufTy).Contents (Elt Ideal)}
    (h : Inv5 V x0 x1 x2) : Inv6 (after (seg6 (F := Ideal)) V) x0 x1 x2 := by
  rw [seg6_eq]
  exact step6_plain h

end Cert.RefFold

end
-- ==== Proof.RefFold7.lean ====
/-
  Line 7 of the reference's run: operations 65 to 76 of its 169, and what they leave.

  From contents V in which every buffer the line reads holds its value function of the arguments (Inv6), the fold of
  the line's operations over V holds, at each buffer a later line reads, that buffer's value function (Inv7): a
  buffer the line does not write keeps its contents; a buffer it writes holds the composition of the line's operations
  over what V holds at the buffers read, which is its value function unfolded down to those buffers.
  An operation of a called function is written over typed references, its function moved to the buffers' own types along
  equations that hold by computation; the same operation written over the bare buffers (plain7) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 65 to 76 of the reference, in order. -/
abbrev seg7 : List (HloOp τ sig (Elt F)) :=
  [ unary main_v39 main_v40 (broadcastInDim S4096x4096 ![0, 1] bcast_S4096x1_S4096x4096_0_1 : (⟨S4096x1, .f32⟩ : BufTy).Contents (Elt F) → (⟨S4096x4096, .f32⟩ : BufTy).Contents (Elt F)),
    binary main_v33 main_v40 main_v41 (subf : (⟨S4096x4096, .f32⟩ : BufTy).Contents (Elt F) → (⟨S4096x4096, .f32⟩ : BufTy).Contents (Elt F) → (⟨S4096x4096, .f32⟩ : BufTy).Contents (Elt F)),
    nullary main_cst_13 (constant S_ .f32 0x00000000#32),
    TRef.unary (TRef.of (T := ⟨S_, .f32⟩) main_cst_13) (TRef.of (T := ⟨S_, .f32⟩) main_call6_v0) id,
    TRef.unary (TRef.of (T := ⟨S_, .f32⟩) main_call6_v0) (TRef.of (T := ⟨S4096x4096, .f32⟩) main_call6_v1) (broadcastInDim S4096x4096 ![] bcast_S_S4096x4096),
    TRef.ternary (TRef.of (T := ⟨S4096x4096, .i1⟩) main_v2) (TRef.of (T := ⟨S4096x4096, .f32⟩) main_v41) (TRef.of (T := ⟨S4096x4096, .f32⟩) main_call6_v1) (TRef.of (T := ⟨S4096x4096, .f32⟩) main_v42) select,
    unary main_v42 main_v43 (Host.exp : (⟨S4096x4096, .f32⟩ : BufTy).Contents (Elt F) → (⟨S4096x4096, .f32⟩ : BufTy).Contents (Elt F)),
    unary main_v2 main_v44 (uitofp .f32 : (⟨S4096x4096, .i1⟩ : BufTy).Contents (Elt F) → (⟨S4096x4096, .f32⟩ : BufTy).Contents (Elt F)),
    binary main_v43 main_v44 main_v45 (mulf : (⟨S4096x4096, .f32⟩ : BufTy).Contents (Elt F) → (⟨S4096x4096, .f32⟩ : BufTy).Contents (Elt F) → (⟨S4096x4096, .f32⟩ : BufTy).Contents (Elt F)),
    nullary main_cst_14 (constant S_ .f32 0x00000000#32),
    binary main_v45 main_cst_14 main_v46 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v46 main_v47 (broadcastInDim S4096x1 ![0] bcast_S4096_S4096x1_0 : (⟨S4096, .f32⟩ : BufTy).Contents (Elt F) → (⟨S4096x1, .f32⟩ : BufTy).Contents (Elt F)) ]

/-- The same operations, a called function's over the bare buffers. -/
abbrev plain7 : List (HloOp τ sig (Elt F)) :=
  [ unary main_v39 main_v40 (broadcastInDim S4096x4096 ![0, 1] bcast_S4096x1_S4096x4096_0_1 : (⟨S4096x1, .f32⟩ : BufTy).Contents (Elt F) → (⟨S4096x4096, .f32⟩ : BufTy).Contents (Elt F)),
    binary main_v33 main_v40 main_v41 (subf : (⟨S4096x4096, .f32⟩ : BufTy).Contents (Elt F) → (⟨S4096x4096, .f32⟩ : BufTy).Contents (Elt F) → (⟨S4096x4096, .f32⟩ : BufTy).Contents (Elt F)),
    nullary main_cst_13 (constant S_ .f32 0x00000000#32),
    unary main_cst_13 main_call6_v0 (id : (⟨S_, .f32⟩ : BufTy).Contents (Elt F) → (⟨S_, .f32⟩ : BufTy).Contents (Elt F)),
    unary main_call6_v0 main_call6_v1 (broadcastInDim S4096x4096 ![] bcast_S_S4096x4096 : (⟨S_, .f32⟩ : BufTy).Contents (Elt F) → (⟨S4096x4096, .f32⟩ : BufTy).Contents (Elt F)),
    ternary main_v2 main_v41 main_call6_v1 main_v42 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_v42 main_v43 (Host.exp : (⟨S4096x4096, .f32⟩ : BufTy).Contents (Elt F) → (⟨S4096x4096, .f32⟩ : BufTy).Contents (Elt F)),
    unary main_v2 main_v44 (uitofp .f32 : (⟨S4096x4096, .i1⟩ : BufTy).Contents (Elt F) → (⟨S4096x4096, .f32⟩ : BufTy).Contents (Elt F)),
    binary main_v43 main_v44 main_v45 (mulf : (⟨S4096x4096, .f32⟩ : BufTy).Contents (Elt F) → (⟨S4096x4096, .f32⟩ : BufTy).Contents (Elt F) → (⟨S4096x4096, .f32⟩ : BufTy).Contents (Elt F)),
    nullary main_cst_14 (constant S_ .f32 0x00000000#32),
    binary main_v45 main_cst_14 main_v46 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v46 main_v47 (broadcastInDim S4096x1 ![0] bcast_S4096_S4096x1_0 : (⟨S4096, .f32⟩ : BufTy).Contents (Elt F) → (⟨S4096x1, .f32⟩ : BufTy).Contents (Elt F)) ]

theorem seg7_eq : (seg7 (F := F)) = plain7 := rfl

theorem step7_plain {V : Valuation τ sig (Elt Ideal)} {x0 : (⟨S4096x1024, .f32⟩ : BufTy).Contents (Elt Ideal)} {x1 x2 : (⟨S4096x4096, .i32⟩ : BufTy).Contents (Elt Ideal)}
    (h : Inv6 V x0 x1 x2) : Inv7 (after (plain7 (F := Ideal)) V) x0 x1 x2 where
  v2 := by
    after_results_simp
    exact h.v2
  v5 := by
    after_results_simp
    exact h.v5
  v33 := by
    after_results_simp
    exact h.v33
  v39 := by
    after_results_simp
    exact h.v39
  v47 := by
    after_results_simp
    rw [h.v2, h.v33, h.v39]
    rfl

theorem step7 {V : Valuation τ sig (Elt Ideal)} {x0 : (⟨S4096x1024, .f32⟩ : BufTy).Contents (Elt Ideal)} {x1 x2 : (⟨S4096x4096, .i32⟩ : BufTy).Contents (Elt Ideal)}
    (h : Inv6 V x0 x1 x2) : Inv7 (after (seg7 (F := Ideal)) V) x0 x1 x2 := by
  rw [seg7_eq]
  exact step7_plain h

end Cert.RefFold

end
-- ==== Proof.RefFold8.lean ====
/-
  Line 8 of the reference's run: operations 77 to 84 of its 169, and what they leave.

  From contents V in which every buffer the line reads holds its value function of the arguments (Inv7), the fold of
  the line's operations over V holds, at each buffer a later line reads, that buffer's value function (Inv8): a
  buffer the line does not write keeps its contents; a buffer it writes holds the composition of the line's operations
  over what V holds at the buffers read, which is its value function unfolded down to those buffers.
  An operation of a called function is written over typed references, its function moved to the buffers' own types along
  equations that hold by computation; the same operation written over the bare buffers (plain8) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 77 to 84 of the reference, in order. -/
abbrev seg8 : List (HloOp τ sig (Elt F)) :=
  [ nullary main_cst_15 (constant S_ .f32 0x00000000#32),
    unary main_cst_15 main_v48 (broadcastInDim S4096x1 ![] bcast_S_S4096x1 : (⟨S_, .f32⟩ : BufTy).Contents (Elt F) → (⟨S4096x1, .f32⟩ : BufTy).Contents (Elt F)),
    binary main_v47 main_v48 main_v49 (cmpf .oeq : (⟨S4096x1, .f32⟩ : BufTy).Contents (Elt F) → (⟨S4096x1, .f32⟩ : BufTy).Contents (Elt F) → (⟨S4096x1, .i1⟩ : BufTy).Contents (Elt F)),
    unary main_v39 main_v50 (Host.negf : (⟨S4096x1, .f32⟩ : BufTy).Contents (Elt F) → (⟨S4096x1, .f32⟩ : BufTy).Contents (Elt F)),
    unary main_v50 main_v51 (Host.exp : (⟨S4096x1, .f32⟩ : BufTy).Contents (Elt F) → (⟨S4096x1, .f32⟩ : BufTy).Contents (Elt F)),
    TRef.ternary (TRef.of (T := ⟨S4096x1, .i1⟩) main_v49) (TRef.of (T := ⟨S4096x1, .f32⟩) main_v51) (TRef.of (T := ⟨S4096x1, .f32⟩) main_v47) (TRef.of (T := ⟨S4096x1, .f32⟩) main_v52) select,
    unary main_v52 main_v53 (Host.log : (⟨S4096x1, .f32⟩ : BufTy).Contents (Elt F) → (⟨S4096x1, .f32⟩ : BufTy).Contents (Elt F)),
    binary main_v53 main_v39 main_v54 (addf : (⟨S4096x1, .f32⟩ : BufTy).Contents (Elt F) → (⟨S4096x1, .f32⟩ : BufTy).Contents (Elt F) → (⟨S4096x1, .f32⟩ : BufTy).Contents (Elt F)) ]

/-- The same operations, a called function's over the bare buffers. -/
abbrev plain8 : List (HloOp τ sig (Elt F)) :=
  [ nullary main_cst_15 (constant S_ .f32 0x00000000#32),
    unary main_cst_15 main_v48 (broadcastInDim S4096x1 ![] bcast_S_S4096x1 : (⟨S_, .f32⟩ : BufTy).Contents (Elt F) → (⟨S4096x1, .f32⟩ : BufTy).Contents (Elt F)),
    binary main_v47 main_v48 main_v49 (cmpf .oeq : (⟨S4096x1, .f32⟩ : BufTy).Contents (Elt F) → (⟨S4096x1, .f32⟩ : BufTy).Contents (Elt F) → (⟨S4096x1, .i1⟩ : BufTy).Contents (Elt F)),
    unary main_v39 main_v50 (Host.negf : (⟨S4096x1, .f32⟩ : BufTy).Contents (Elt F) → (⟨S4096x1, .f32⟩ : BufTy).Contents (Elt F)),
    unary main_v50 main_v51 (Host.exp : (⟨S4096x1, .f32⟩ : BufTy).Contents (Elt F) → (⟨S4096x1, .f32⟩ : BufTy).Contents (Elt F)),
    ternary main_v49 main_v51 main_v47 main_v52 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    unary main_v52 main_v53 (Host.log : (⟨S4096x1, .f32⟩ : BufTy).Contents (Elt F) → (⟨S4096x1, .f32⟩ : BufTy).Contents (Elt F)),
    binary main_v53 main_v39 main_v54 (addf : (⟨S4096x1, .f32⟩ : BufTy).Contents (Elt F) → (⟨S4096x1, .f32⟩ : BufTy).Contents (Elt F) → (⟨S4096x1, .f32⟩ : BufTy).Contents (Elt F)) ]

theorem seg8_eq : (seg8 (F := F)) = plain8 := rfl

theorem step8_plain {V : Valuation τ sig (Elt Ideal)} {x0 : (⟨S4096x1024, .f32⟩ : BufTy).Contents (Elt Ideal)} {x1 x2 : (⟨S4096x4096, .i32⟩ : BufTy).Contents (Elt Ideal)}
    (h : Inv7 V x0 x1 x2) : Inv8 (after (plain8 (F := Ideal)) V) x0 x1 x2 where
  v2 := by
    after_results_simp
    exact h.v2
  v5 := by
    after_results_simp
    exact h.v5
  v33 := by
    after_results_simp
    exact h.v33
  v54 := by
    after_results_simp
    rw [h.v47, h.v39]
    rfl

theorem step8 {V : Valuation τ sig (Elt Ideal)} {x0 : (⟨S4096x1024, .f32⟩ : BufTy).Contents (Elt Ideal)} {x1 x2 : (⟨S4096x4096, .i32⟩ : BufTy).Contents (Elt Ideal)}
    (h : Inv7 V x0 x1 x2) : Inv8 (after (seg8 (F := Ideal)) V) x0 x1 x2 := by
  rw [seg8_eq]
  exact step8_plain h

end Cert.RefFold

end
-- ==== Proof.RefFold9.lean ====
/-
  Line 9 of the reference's run: operations 85 to 97 of its 169, and what they leave.

  From contents V in which every buffer the line reads holds its value function of the arguments (Inv8), the fold of
  the line's operations over V holds, at each buffer a later line reads, that buffer's value function (Inv9): a
  buffer the line does not write keeps its contents; a buffer it writes holds the composition of the line's operations
  over what V holds at the buffers read, which is its value function unfolded down to those buffers.
  An operation of a called function is written over typed references, its function moved to the buffers' own types along
  equations that hold by computation; the same operation written over the bare buffers (plain9) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 85 to 97 of the reference, in order. -/
abbrev seg9 : List (HloOp τ sig (Elt F)) :=
  [ nullary main_cst_16 (constant S_ .f32 0xFF7FFFFF#32),
    TRef.unary (TRef.of (T := ⟨S_, .f32⟩) main_cst_16) (TRef.of (T := ⟨S4096x4096, .f32⟩) main_call8_v0) (broadcastInDim S4096x4096 ![] bcast_S_S4096x4096),
    TRef.ternary (TRef.of (T := ⟨S4096x4096, .i1⟩) main_v5) (TRef.of (T := ⟨S4096x4096, .f32⟩) main_v33) (TRef.of (T := ⟨S4096x4096, .f32⟩) main_call8_v0) (TRef.of (T := ⟨S4096x4096, .f32⟩) main_v55) select,
    nullary main_cst_17 (constant S_ .f32 0xFF800000#32),
    binary main_v55 main_cst_17 main_v56 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v56 main_v57 (broadcastInDim S4096x1 ![0] bcast_S4096_S4096x1_0 : (⟨S4096, .f32⟩ : BufTy).Contents (Elt F) → (⟨S4096x1, .f32⟩ : BufTy).Contents (Elt F)),
    nullary main_cst_18 (constant S_ .f32 0xFF7FFFFF#32),
    unary main_cst_18 main_v58 (broadcastInDim S4096x1 ![] bcast_S_S4096x1 : (⟨S_, .f32⟩ : BufTy).Contents (Elt F) → (⟨S4096x1, .f32⟩ : BufTy).Contents (Elt F)),
    binary main_v57 main_v58 main_v59 (cmpf .oeq : (⟨S4096x1, .f32⟩ : BufTy).Contents (Elt F) → (⟨S4096x1, .f32⟩ : BufTy).Contents (Elt F) → (⟨S4096x1, .i1⟩ : BufTy).Contents (Elt F)),
    nullary main_cst_19 (constant S_ .f32 0x00000000#32),
    TRef.unary (TRef.of (T := ⟨S_, .f32⟩) main_cst_19) (TRef.of (T := ⟨S_, .f32⟩) main_call9_v0) id,
    TRef.unary (TRef.of (T := ⟨S_, .f32⟩) main_call9_v0) (TRef.of (T := ⟨S4096x1, .f32⟩) main_call9_v1) (broadcastInDim S4096x1 ![] bcast_S_S4096x1),
    TRef.ternary (TRef.of (T := ⟨S4096x1, .i1⟩) main_v59) (TRef.of (T := ⟨S4096x1, .f32⟩) main_call9_v1) (TRef.of (T := ⟨S4096x1, .f32⟩) main_v57) (TRef.of (T := ⟨S4096x1, .f32⟩) main_v60) select ]

/-- The same operations, a called function's over the bare buffers. -/
abbrev plain9 : List (HloOp τ sig (Elt F)) :=
  [ nullary main_cst_16 (constant S_ .f32 0xFF7FFFFF#32),
    unary main_cst_16 main_call8_v0 (broadcastInDim S4096x4096 ![] bcast_S_S4096x4096 : (⟨S_, .f32⟩ : BufTy).Contents (Elt F) → (⟨S4096x4096, .f32⟩ : BufTy).Contents (Elt F)),
    ternary main_v5 main_v33 main_call8_v0 main_v55 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_17 (constant S_ .f32 0xFF800000#32),
    binary main_v55 main_cst_17 main_v56 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v56 main_v57 (broadcastInDim S4096x1 ![0] bcast_S4096_S4096x1_0 : (⟨S4096, .f32⟩ : BufTy).Contents (Elt F) → (⟨S4096x1, .f32⟩ : BufTy).Contents (Elt F)),
    nullary main_cst_18 (constant S_ .f32 0xFF7FFFFF#32),
    unary main_cst_18 main_v58 (broadcastInDim S4096x1 ![] bcast_S_S4096x1 : (⟨S_, .f32⟩ : BufTy).Contents (Elt F) → (⟨S4096x1, .f32⟩ : BufTy).Contents (Elt F)),
    binary main_v57 main_v58 main_v59 (cmpf .oeq : (⟨S4096x1, .f32⟩ : BufTy).Contents (Elt F) → (⟨S4096x1, .f32⟩ : BufTy).Contents (Elt F) → (⟨S4096x1, .i1⟩ : BufTy).Contents (Elt F)),
    nullary main_cst_19 (constant S_ .f32 0x00000000#32),
    unary main_cst_19 main_call9_v0 (id : (⟨S_, .f32⟩ : BufTy).Contents (Elt F) → (⟨S_, .f32⟩ : BufTy).Contents (Elt F)),
    unary main_call9_v0 main_call9_v1 (broadcastInDim S4096x1 ![] bcast_S_S4096x1 : (⟨S_, .f32⟩ : BufTy).Contents (Elt F) → (⟨S4096x1, .f32⟩ : BufTy).Contents (Elt F)),
    ternary main_v59 main_call9_v1 main_v57 main_v60 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)) ]

theorem seg9_eq : (seg9 (F := F)) = plain9 := rfl

theorem step9_plain {V : Valuation τ sig (Elt Ideal)} {x0 : (⟨S4096x1024, .f32⟩ : BufTy).Contents (Elt Ideal)} {x1 x2 : (⟨S4096x4096, .i32⟩ : BufTy).Contents (Elt Ideal)}
    (h : Inv8 V x0 x1 x2) : Inv9 (after (plain9 (F := Ideal)) V) x0 x1 x2 where
  v2 := by
    after_results_simp
    exact h.v2
  v5 := by
    after_results_simp
    exact h.v5
  v33 := by
    after_results_simp
    exact h.v33
  v54 := by
    after_results_simp
    exact h.v54
  v60 := by
    after_results_simp
    rw [h.v5, h.v33]
    rfl

theorem step9 {V : Valuation τ sig (Elt Ideal)} {x0 : (⟨S4096x1024, .f32⟩ : BufTy).Contents (Elt Ideal)} {x1 x2 : (⟨S4096x4096, .i32⟩ : BufTy).Contents (Elt Ideal)}
    (h : Inv8 V x0 x1 x2) : Inv9 (after (seg9 (F := Ideal)) V) x0 x1 x2 := by
  rw [seg9_eq]
  exact step9_plain h

end Cert.RefFold

end
-- ==== Proof.RefFold10.lean ====
/-
  Line 10 of the reference's run: operations 98 to 109 of its 169, and what they leave.

  From contents V in which every buffer the line reads holds its value function of the arguments (Inv9), the fold of
  the line's operations over V holds, at each buffer a later line reads, that buffer's value function (Inv10): a
  buffer the line does not write keeps its contents; a buffer it writes holds the composition of the line's operations
  over what V holds at the buffers read, which is its value function unfolded down to those buffers.
  An operation of a called function is written over typed references, its function moved to the buffers' own types along
  equations that hold by computation; the same operation written over the bare buffers (plain10) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 98 to 109 of the reference, in order. -/
abbrev seg10 : List (HloOp τ sig (Elt F)) :=
  [ unary main_v60 main_v61 (broadcastInDim S4096x4096 ![0, 1] bcast_S4096x1_S4096x4096_0_1 : (⟨S4096x1, .f32⟩ : BufTy).Contents (Elt F) → (⟨S4096x4096, .f32⟩ : BufTy).Contents (Elt F)),
    binary main_v33 main_v61 main_v62 (subf : (⟨S4096x4096, .f32⟩ : BufTy).Contents (Elt F) → (⟨S4096x4096, .f32⟩ : BufTy).Contents (Elt F) → (⟨S4096x4096, .f32⟩ : BufTy).Contents (Elt F)),
    nullary main_cst_20 (constant S_ .f32 0x00000000#32),
    TRef.unary (TRef.of (T := ⟨S_, .f32⟩) main_cst_20) (TRef.of (T := ⟨S_, .f32⟩) main_call10_v0) id,
    TRef.unary (TRef.of (T := ⟨S_, .f32⟩) main_call10_v0) (TRef.of (T := ⟨S4096x4096, .f32⟩) main_call10_v1) (broadcastInDim S4096x4096 ![] bcast_S_S4096x4096),
    TRef.ternary (TRef.of (T := ⟨S4096x4096, .i1⟩) main_v5) (TRef.of (T := ⟨S4096x4096, .f32⟩) main_v62) (TRef.of (T := ⟨S4096x4096, .f32⟩) main_call10_v1) (TRef.of (T := ⟨S4096x4096, .f32⟩) main_v63) select,
    unary main_v63 main_v64 (Host.exp : (⟨S4096x4096, .f32⟩ : BufTy).Contents (Elt F) → (⟨S4096x4096, .f32⟩ : BufTy).Contents (Elt F)),
    unary main_v5 main_v65 (uitofp .f32 : (⟨S4096x4096, .i1⟩ : BufTy).Contents (Elt F) → (⟨S4096x4096, .f32⟩ : BufTy).Contents (Elt F)),
    binary main_v64 main_v65 main_v66 (mulf : (⟨S4096x4096, .f32⟩ : BufTy).Contents (Elt F) → (⟨S4096x4096, .f32⟩ : BufTy).Contents (Elt F) → (⟨S4096x4096, .f32⟩ : BufTy).Contents (Elt F)),
    nullary main_cst_21 (constant S_ .f32 0x00000000#32),
    binary main_v66 main_cst_21 main_v67 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v67 main_v68 (broadcastInDim S4096x1 ![0] bcast_S4096_S4096x1_0 : (⟨S4096, .f32⟩ : BufTy).Contents (Elt F) → (⟨S4096x1, .f32⟩ : BufTy).Contents (Elt F)) ]

/-- The same operations, a called function's over the bare buffers. -/
abbrev plain10 : List (HloOp τ sig (Elt F)) :=
  [ unary main_v60 main_v61 (broadcastInDim S4096x4096 ![0, 1] bcast_S4096x1_S4096x4096_0_1 : (⟨S4096x1, .f32⟩ : BufTy).Contents (Elt F) → (⟨S4096x4096, .f32⟩ : BufTy).Contents (Elt F)),
    binary main_v33 main_v61 main_v62 (subf : (⟨S4096x4096, .f32⟩ : BufTy).Contents (Elt F) → (⟨S4096x4096, .f32⟩ : BufTy).Contents (Elt F) → (⟨S4096x4096, .f32⟩ : BufTy).Contents (Elt F)),
    nullary main_cst_20 (constant S_ .f32 0x00000000#32),
    unary main_cst_20 main_call10_v0 (id : (⟨S_, .f32⟩ : BufTy).Contents (Elt F) → (⟨S_, .f32⟩ : BufTy).Contents (Elt F)),
    unary main_call10_v0 main_call10_v1 (broadcastInDim S4096x4096 ![] bcast_S_S4096x4096 : (⟨S_, .f32⟩ : BufTy).Contents (Elt F) → (⟨S4096x4096, .f32⟩ : BufTy).Contents (Elt F)),
    ternary main_v5 main_v62 main_call10_v1 main_v63 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_v63 main_v64 (Host.exp : (⟨S4096x4096, .f32⟩ : BufTy).Contents (Elt F) → (⟨S4096x4096, .f32⟩ : BufTy).Contents (Elt F)),
    unary main_v5 main_v65 (uitofp .f32 : (⟨S4096x4096, .i1⟩ : BufTy).Contents (Elt F) → (⟨S4096x4096, .f32⟩ : BufTy).Contents (Elt F)),
    binary main_v64 main_v65 main_v66 (mulf : (⟨S4096x4096, .f32⟩ : BufTy).Contents (Elt F) → (⟨S4096x4096, .f32⟩ : BufTy).Contents (Elt F) → (⟨S4096x4096, .f32⟩ : BufTy).Contents (Elt F)),
    nullary main_cst_21 (constant S_ .f32 0x00000000#32),
    binary main_v66 main_cst_21 main_v67 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v67 main_v68 (broadcastInDim S4096x1 ![0] bcast_S4096_S4096x1_0 : (⟨S4096, .f32⟩ : BufTy).Contents (Elt F) → (⟨S4096x1, .f32⟩ : BufTy).Contents (Elt F)) ]

theorem seg10_eq : (seg10 (F := F)) = plain10 := rfl

theorem step10_plain {V : Valuation τ sig (Elt Ideal)} {x0 : (⟨S4096x1024, .f32⟩ : BufTy).Contents (Elt Ideal)} {x1 x2 : (⟨S4096x4096, .i32⟩ : BufTy).Contents (Elt Ideal)}
    (h : Inv9 V x0 x1 x2) : Inv10 (after (plain10 (F := Ideal)) V) x0 x1 x2 where
  v2 := by
    after_results_simp
    exact h.v2
  v5 := by
    after_results_simp
    exact h.v5
  v54 := by
    after_results_simp
    exact h.v54
  v60 := by
    after_results_simp
    exact h.v60
  v68 := by
    after_results_simp
    rw [h.v5, h.v33, h.v60]
    rfl

theorem step10 {V : Valuation τ sig (Elt Ideal)} {x0 : (⟨S4096x1024, .f32⟩ : BufTy).Contents (Elt Ideal)} {x1 x2 : (⟨S4096x4096, .i32⟩ : BufTy).Contents (Elt Ideal)}
    (h : Inv9 V x0 x1 x2) : Inv10 (after (seg10 (F := Ideal)) V) x0 x1 x2 := by
  rw [seg10_eq]
  exact step10_plain h

end Cert.RefFold

end
-- ==== Proof.RefFold11.lean ====
/-
  Line 11 of the reference's run: operations 110 to 118 of its 169, and what they leave.

  From contents V in which every buffer the line reads holds its value function of the arguments (Inv10), the fold of
  the line's operations over V holds, at each buffer a later line reads, that buffer's value function (Inv11): a
  buffer the line does not write keeps its contents; a buffer it writes holds the composition of the line's operations
  over what V holds at the buffers read, which is its value function unfolded down to those buffers.
  An operation of a called function is written over typed references, its function moved to the buffers' own types along
  equations that hold by computation; the same operation written over the bare buffers (plain11) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 110 to 118 of the reference, in order. -/
abbrev seg11 : List (HloOp τ sig (Elt F)) :=
  [ nullary main_cst_22 (constant S_ .f32 0x00000000#32),
    unary main_cst_22 main_v69 (broadcastInDim S4096x1 ![] bcast_S_S4096x1 : (⟨S_, .f32⟩ : BufTy).Contents (Elt F) → (⟨S4096x1, .f32⟩ : BufTy).Contents (Elt F)),
    binary main_v68 main_v69 main_v70 (cmpf .oeq : (⟨S4096x1, .f32⟩ : BufTy).Contents (Elt F) → (⟨S4096x1, .f32⟩ : BufTy).Contents (Elt F) → (⟨S4096x1, .i1⟩ : BufTy).Contents (Elt F)),
    unary main_v60 main_v71 (Host.negf : (⟨S4096x1, .f32⟩ : BufTy).Contents (Elt F) → (⟨S4096x1, .f32⟩ : BufTy).Contents (Elt F)),
    unary main_v71 main_v72 (Host.exp : (⟨S4096x1, .f32⟩ : BufTy).Contents (Elt F) → (⟨S4096x1, .f32⟩ : BufTy).Contents (Elt F)),
    TRef.ternary (TRef.of (T := ⟨S4096x1, .i1⟩) main_v70) (TRef.of (T := ⟨S4096x1, .f32⟩) main_v72) (TRef.of (T := ⟨S4096x1, .f32⟩) main_v68) (TRef.of (T := ⟨S4096x1, .f32⟩) main_v73) select,
    unary main_v73 main_v74 (Host.log : (⟨S4096x1, .f32⟩ : BufTy).Contents (Elt F) → (⟨S4096x1, .f32⟩ : BufTy).Contents (Elt F)),
    binary main_v74 main_v60 main_v75 (addf : (⟨S4096x1, .f32⟩ : BufTy).Contents (Elt F) → (⟨S4096x1, .f32⟩ : BufTy).Contents (Elt F) → (⟨S4096x1, .f32⟩ : BufTy).Contents (Elt F)),
    binary main_v54 main_v75 main_v76 (addf : (⟨S4096x1, .f32⟩ : BufTy).Contents (Elt F) → (⟨S4096x1, .f32⟩ : BufTy).Contents (Elt F) → (⟨S4096x1, .f32⟩ : BufTy).Contents (Elt F)) ]

/-- The same operations, a called function's over the bare buffers. -/
abbrev plain11 : List (HloOp τ sig (Elt F)) :=
  [ nullary main_cst_22 (constant S_ .f32 0x00000000#32),
    unary main_cst_22 main_v69 (broadcastInDim S4096x1 ![] bcast_S_S4096x1 : (⟨S_, .f32⟩ : BufTy).Contents (Elt F) → (⟨S4096x1, .f32⟩ : BufTy).Contents (Elt F)),
    binary main_v68 main_v69 main_v70 (cmpf .oeq : (⟨S4096x1, .f32⟩ : BufTy).Contents (Elt F) → (⟨S4096x1, .f32⟩ : BufTy).Contents (Elt F) → (⟨S4096x1, .i1⟩ : BufTy).Contents (Elt F)),
    unary main_v60 main_v71 (Host.negf : (⟨S4096x1, .f32⟩ : BufTy).Contents (Elt F) → (⟨S4096x1, .f32⟩ : BufTy).Contents (Elt F)),
    unary main_v71 main_v72 (Host.exp : (⟨S4096x1, .f32⟩ : BufTy).Contents (Elt F) → (⟨S4096x1, .f32⟩ : BufTy).Contents (Elt F)),
    ternary main_v70 main_v72 main_v68 main_v73 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    unary main_v73 main_v74 (Host.log : (⟨S4096x1, .f32⟩ : BufTy).Contents (Elt F) → (⟨S4096x1, .f32⟩ : BufTy).Contents (Elt F)),
    binary main_v74 main_v60 main_v75 (addf : (⟨S4096x1, .f32⟩ : BufTy).Contents (Elt F) → (⟨S4096x1, .f32⟩ : BufTy).Contents (Elt F) → (⟨S4096x1, .f32⟩ : BufTy).Contents (Elt F)),
    binary main_v54 main_v75 main_v76 (addf : (⟨S4096x1, .f32⟩ : BufTy).Contents (Elt F) → (⟨S4096x1, .f32⟩ : BufTy).Contents (Elt F) → (⟨S4096x1, .f32⟩ : BufTy).Contents (Elt F)) ]

theorem seg11_eq : (seg11 (F := F)) = plain11 := rfl

theorem step11_plain {V : Valuation τ sig (Elt Ideal)} {x0 : (⟨S4096x1024, .f32⟩ : BufTy).Contents (Elt Ideal)} {x1 x2 : (⟨S4096x4096, .i32⟩ : BufTy).Contents (Elt Ideal)}
    (h : Inv10 V x0 x1 x2) : Inv11 (after (plain11 (F := Ideal)) V) x0 x1 x2 where
  v2 := by
    after_results_simp
    exact h.v2
  v5 := by
    after_results_simp
    exact h.v5
  v76 := by
    after_results_simp
    rw [h.v54, h.v68, h.v60]
    rfl

theorem step11 {V : Valuation τ sig (Elt Ideal)} {x0 : (⟨S4096x1024, .f32⟩ : BufTy).Contents (Elt Ideal)} {x1 x2 : (⟨S4096x4096, .i32⟩ : BufTy).Contents (Elt Ideal)}
    (h : Inv10 V x0 x1 x2) : Inv11 (after (seg11 (F := Ideal)) V) x0 x1 x2 := by
  rw [seg11_eq]
  exact step11_plain h

end Cert.RefFold

end
-- ==== Proof.RefFold12.lean ====
/-
  Line 12 of the reference's run: operations 119 to 133 of its 169, and what they leave.

  From contents V in which every buffer the line reads holds its value function of the arguments (Inv11), the fold of
  the line's operations over V holds, at each buffer a later line reads, that buffer's value function (Inv12): a
  buffer the line does not write keeps its contents; a buffer it writes holds the composition of the line's operations
  over what V holds at the buffers read, which is its value function unfolded down to those buffers.
  An operation of a called function is written over typed references, its function moved to the buffers' own types along
  equations that hold by computation; the same operation written over the bare buffers (plain12) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 119 to 133 of the reference, in order. -/
abbrev seg12 : List (HloOp τ sig (Elt F)) :=
  [ TRef.nullary (TRef.of (T := ⟨S_, .f32⟩) main_call12_cst) (constant S_ .f32 0x00000000#32),
    TRef.unary (TRef.of (T := ⟨S_, .f32⟩) main_call12_cst) (TRef.of (T := ⟨S4096x1, .f32⟩) main_call12_v0) (broadcastInDim S4096x1 ![] bcast_S_S4096x1),
    TRef.binary (TRef.of (T := ⟨S4096x1, .f32⟩) main_v76) (TRef.of (T := ⟨S4096x1, .f32⟩) main_call12_v0) (TRef.of (T := ⟨S4096x1, .f32⟩) main_call12_v1) maximumf,
    TRef.unary (TRef.of (T := ⟨S_, .f32⟩) main_call12_cst) (TRef.of (T := ⟨S4096x1, .f32⟩) main_call12_v2) (broadcastInDim S4096x1 ![] bcast_S_S4096x1),
    TRef.binary (TRef.of (T := ⟨S4096x1, .f32⟩) main_v76) (TRef.of (T := ⟨S4096x1, .f32⟩) main_call12_v2) (TRef.of (T := ⟨S4096x1, .f32⟩) main_call12_v3) subf,
    TRef.binary (TRef.of (T := ⟨S4096x1, .f32⟩) main_call12_v3) (TRef.of (T := ⟨S4096x1, .f32⟩) main_call12_v3) (TRef.of (T := ⟨S4096x1, .i1⟩) main_call12_v4) (cmpf .une),
    TRef.unary (TRef.of (T := ⟨S_, .f32⟩) main_call12_cst) (TRef.of (T := ⟨S4096x1, .f32⟩) main_call12_v5) (broadcastInDim S4096x1 ![] bcast_S_S4096x1),
    TRef.binary (TRef.of (T := ⟨S4096x1, .f32⟩) main_v76) (TRef.of (T := ⟨S4096x1, .f32⟩) main_call12_v5) (TRef.of (T := ⟨S4096x1, .f32⟩) main_call12_v6) addf,
    TRef.unary (TRef.of (T := ⟨S4096x1, .f32⟩) main_call12_v3) (TRef.of (T := ⟨S4096x1, .f32⟩) main_call12_v7) Host.absf,
    TRef.unary (TRef.of (T := ⟨S4096x1, .f32⟩) main_call12_v7) (TRef.of (T := ⟨S4096x1, .f32⟩) main_call12_v8) Host.negf,
    TRef.unary (TRef.of (T := ⟨S4096x1, .f32⟩) main_call12_v8) (TRef.of (T := ⟨S4096x1, .f32⟩) main_call12_v9) Host.exp,
    TRef.unary (TRef.of (T := ⟨S4096x1, .f32⟩) main_call12_v9) (TRef.of (T := ⟨S4096x1, .f32⟩) main_call12_v10) Host.log1p,
    TRef.binary (TRef.of (T := ⟨S4096x1, .f32⟩) main_call12_v1) (TRef.of (T := ⟨S4096x1, .f32⟩) main_call12_v10) (TRef.of (T := ⟨S4096x1, .f32⟩) main_call12_v11) addf,
    TRef.ternary (TRef.of (T := ⟨S4096x1, .i1⟩) main_call12_v4) (TRef.of (T := ⟨S4096x1, .f32⟩) main_call12_v6) (TRef.of (T := ⟨S4096x1, .f32⟩) main_call12_v11) (TRef.of (T := ⟨S4096x1, .f32⟩) main_v77) select,
    reshape main_v77 main_v78 rfl shapeCasts_S4096x1_S4096 ]

/-- The same operations, a called function's over the bare buffers. -/
abbrev plain12 : List (HloOp τ sig (Elt F)) :=
  [ nullary main_call12_cst (constant S_ .f32 0x00000000#32),
    unary main_call12_cst main_call12_v0 (broadcastInDim S4096x1 ![] bcast_S_S4096x1 : (⟨S_, .f32⟩ : BufTy).Contents (Elt F) → (⟨S4096x1, .f32⟩ : BufTy).Contents (Elt F)),
    binary main_v76 main_call12_v0 main_call12_v1 (maximumf : (⟨S4096x1, .f32⟩ : BufTy).Contents (Elt F) → (⟨S4096x1, .f32⟩ : BufTy).Contents (Elt F) → (⟨S4096x1, .f32⟩ : BufTy).Contents (Elt F)),
    unary main_call12_cst main_call12_v2 (broadcastInDim S4096x1 ![] bcast_S_S4096x1 : (⟨S_, .f32⟩ : BufTy).Contents (Elt F) → (⟨S4096x1, .f32⟩ : BufTy).Contents (Elt F)),
    binary main_v76 main_call12_v2 main_call12_v3 (subf : (⟨S4096x1, .f32⟩ : BufTy).Contents (Elt F) → (⟨S4096x1, .f32⟩ : BufTy).Contents (Elt F) → (⟨S4096x1, .f32⟩ : BufTy).Contents (Elt F)),
    binary main_call12_v3 main_call12_v3 main_call12_v4 (cmpf .une : (⟨S4096x1, .f32⟩ : BufTy).Contents (Elt F) → (⟨S4096x1, .f32⟩ : BufTy).Contents (Elt F) → (⟨S4096x1, .i1⟩ : BufTy).Contents (Elt F)),
    unary main_call12_cst main_call12_v5 (broadcastInDim S4096x1 ![] bcast_S_S4096x1 : (⟨S_, .f32⟩ : BufTy).Contents (Elt F) → (⟨S4096x1, .f32⟩ : BufTy).Contents (Elt F)),
    binary main_v76 main_call12_v5 main_call12_v6 (addf : (⟨S4096x1, .f32⟩ : BufTy).Contents (Elt F) → (⟨S4096x1, .f32⟩ : BufTy).Contents (Elt F) → (⟨S4096x1, .f32⟩ : BufTy).Contents (Elt F)),
    unary main_call12_v3 main_call12_v7 (Host.absf : (⟨S4096x1, .f32⟩ : BufTy).Contents (Elt F) → (⟨S4096x1, .f32⟩ : BufTy).Contents (Elt F)),
    unary main_call12_v7 main_call12_v8 (Host.negf : (⟨S4096x1, .f32⟩ : BufTy).Contents (Elt F) → (⟨S4096x1, .f32⟩ : BufTy).Contents (Elt F)),
    unary main_call12_v8 main_call12_v9 (Host.exp : (⟨S4096x1, .f32⟩ : BufTy).Contents (Elt F) → (⟨S4096x1, .f32⟩ : BufTy).Contents (Elt F)),
    unary main_call12_v9 main_call12_v10 (Host.log1p : (⟨S4096x1, .f32⟩ : BufTy).Contents (Elt F) → (⟨S4096x1, .f32⟩ : BufTy).Contents (Elt F)),
    binary main_call12_v1 main_call12_v10 main_call12_v11 (addf : (⟨S4096x1, .f32⟩ : BufTy).Contents (Elt F) → (⟨S4096x1, .f32⟩ : BufTy).Contents (Elt F) → (⟨S4096x1, .f32⟩ : BufTy).Contents (Elt F)),
    ternary main_call12_v4 main_call12_v6 main_call12_v11 main_v77 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    reshape main_v77 main_v78 rfl shapeCasts_S4096x1_S4096 ]

theorem seg12_eq : (seg12 (F := F)) = plain12 := rfl

theorem step12_plain {V : Valuation τ sig (Elt Ideal)} {x0 : (⟨S4096x1024, .f32⟩ : BufTy).Contents (Elt Ideal)} {x1 x2 : (⟨S4096x4096, .i32⟩ : BufTy).Contents (Elt Ideal)}
    (h : Inv11 V x0 x1 x2) : Inv12 (after (plain12 (F := Ideal)) V) x0 x1 x2 where
  v2 := by
    after_results_simp
    exact h.v2
  v5 := by
    after_results_simp
    exact h.v5
  v78 := by
    after_results_simp
    rw [h.v76]
    rfl

theorem step12 {V : Valuation τ sig (Elt Ideal)} {x0 : (⟨S4096x1024, .f32⟩ : BufTy).Contents (Elt Ideal)} {x1 x2 : (⟨S4096x4096, .i32⟩ : BufTy).Contents (Elt Ideal)}
    (h : Inv11 V x0 x1 x2) : Inv12 (after (seg12 (F := Ideal)) V) x0 x1 x2 := by
  rw [seg12_eq]
  exact step12_plain h

end Cert.RefFold

end
-- ==== Proof.RefFold13.lean ====
/-
  Line 13 of the reference's run: operations 134 to 148 of its 169, and what they leave.

  From contents V in which every buffer the line reads holds its value function of the arguments (Inv12), the fold of
  the line's operations over V holds, at each buffer a later line reads, that buffer's value function (Inv13): a
  buffer the line does not write keeps its contents; a buffer it writes holds the composition of the line's operations
  over what V holds at the buffers read, which is its value function unfolded down to those buffers.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 134 to 148 of the reference, in order. -/
abbrev seg13 : List (HloOp τ sig (Elt F)) :=
  [ unary main_v2 main_v79 ((extui 32 · natLt_1_32) : (⟨S4096x4096, .i1⟩ : BufTy).Contents (Elt F) → (⟨S4096x4096, .i32⟩ : BufTy).Contents (Elt F)),
    nullary main_c_23 (constantI S_ 32 0#32),
    binary main_v79 main_c_23 main_v80 ((fun x v => Host.reduce IntOp.addi x v reducesTo_S4096x4096_S4096_d1 h_S_) : (⟨S4096x4096, .i32⟩ : BufTy).Contents (Elt F) → (⟨S_, .i32⟩ : BufTy).Contents (Elt F) → (⟨S4096, .i32⟩ : BufTy).Contents (Elt F)),
    nullary main_c_24 (constantI S_ 32 0#32),
    unary main_c_24 main_v81 (broadcastInDim S4096 ![] bcast_S_S4096 : (⟨S_, .i32⟩ : BufTy).Contents (Elt F) → (⟨S4096, .i32⟩ : BufTy).Contents (Elt F)),
    binary main_v80 main_v81 main_v82 (cmpi .sgt : (⟨S4096, .i32⟩ : BufTy).Contents (Elt F) → (⟨S4096, .i32⟩ : BufTy).Contents (Elt F) → (⟨S4096, .i1⟩ : BufTy).Contents (Elt F)),
    unary main_v5 main_v83 ((extui 32 · natLt_1_32) : (⟨S4096x4096, .i1⟩ : BufTy).Contents (Elt F) → (⟨S4096x4096, .i32⟩ : BufTy).Contents (Elt F)),
    nullary main_c_25 (constantI S_ 32 0#32),
    binary main_v83 main_c_25 main_v84 ((fun x v => Host.reduce IntOp.addi x v reducesTo_S4096x4096_S4096_d1 h_S_) : (⟨S4096x4096, .i32⟩ : BufTy).Contents (Elt F) → (⟨S_, .i32⟩ : BufTy).Contents (Elt F) → (⟨S4096, .i32⟩ : BufTy).Contents (Elt F)),
    nullary main_c_26 (constantI S_ 32 0#32),
    unary main_c_26 main_v85 (broadcastInDim S4096 ![] bcast_S_S4096 : (⟨S_, .i32⟩ : BufTy).Contents (Elt F) → (⟨S4096, .i32⟩ : BufTy).Contents (Elt F)),
    binary main_v84 main_v85 main_v86 (cmpi .sgt : (⟨S4096, .i32⟩ : BufTy).Contents (Elt F) → (⟨S4096, .i32⟩ : BufTy).Contents (Elt F) → (⟨S4096, .i1⟩ : BufTy).Contents (Elt F)),
    binary main_v82 main_v86 main_v87 (andi : (⟨S4096, .i1⟩ : BufTy).Contents (Elt F) → (⟨S4096, .i1⟩ : BufTy).Contents (Elt F) → (⟨S4096, .i1⟩ : BufTy).Contents (Elt F)),
    unary main_v87 main_v88 (uitofp .f32 : (⟨S4096, .i1⟩ : BufTy).Contents (Elt F) → (⟨S4096, .f32⟩ : BufTy).Contents (Elt F)),
    binary main_v78 main_v88 main_v89 (mulf : (⟨S4096, .f32⟩ : BufTy).Contents (Elt F) → (⟨S4096, .f32⟩ : BufTy).Contents (Elt F) → (⟨S4096, .f32⟩ : BufTy).Contents (Elt F)) ]

theorem step13 {V : Valuation τ sig (Elt Ideal)} {x0 : (⟨S4096x1024, .f32⟩ : BufTy).Contents (Elt Ideal)} {x1 x2 : (⟨S4096x4096, .i32⟩ : BufTy).Contents (Elt Ideal)}
    (h : Inv12 V x0 x1 x2) : Inv13 (after (seg13 (F := Ideal)) V) x0 x1 x2 where
  v89 := by
    after_results_simp
    rw [h.v78, h.v2, h.v5]
    rfl

end Cert.RefFold

end
-- ==== Proof.RefFold14.lean ====
/-
  Line 14 of the reference's run: operations 149 to 158 of its 169, and what they leave.

  From contents V in which every buffer the line reads holds its value function of the arguments (Inv13), the fold of
  the line's operations over V holds, at each buffer a later line reads, that buffer's value function (Inv14): a
  buffer the line does not write keeps its contents; a buffer it writes holds the composition of the line's operations
  over what V holds at the buffers read, which is its value function unfolded down to those buffers.
  An operation of a called function is written over typed references, its function moved to the buffers' own types along
  equations that hold by computation; the same operation written over the bare buffers (plain14) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 149 to 158 of the reference, in order. -/
abbrev seg14 : List (HloOp τ sig (Elt F)) :=
  [ nullary main_cst_27 (constant S_ .f32 0x00000000#32),
    unary main_cst_27 main_v90 (broadcastInDim S4096 ![] bcast_S_S4096 : (⟨S_, .f32⟩ : BufTy).Contents (Elt F) → (⟨S4096, .f32⟩ : BufTy).Contents (Elt F)),
    binary main_v89 main_v90 main_v91 (cmpf .ogt : (⟨S4096, .f32⟩ : BufTy).Contents (Elt F) → (⟨S4096, .f32⟩ : BufTy).Contents (Elt F) → (⟨S4096, .i1⟩ : BufTy).Contents (Elt F)),
    unary main_v91 main_v92 ((extui 32 · natLt_1_32) : (⟨S4096, .i1⟩ : BufTy).Contents (Elt F) → (⟨S4096, .i32⟩ : BufTy).Contents (Elt F)),
    nullary main_c_28 (constantI S_ 32 0#32),
    binary main_v92 main_c_28 main_v93 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_cst_29 (constant S_ .f32 0x00000000#32),
    TRef.unary (TRef.of (T := ⟨S_, .f32⟩) main_cst_29) (TRef.of (T := ⟨S_, .f32⟩) main_call13_v0) id,
    TRef.unary (TRef.of (T := ⟨S_, .f32⟩) main_call13_v0) (TRef.of (T := ⟨S4096, .f32⟩) main_call13_v1) (broadcastInDim S4096 ![] bcast_S_S4096),
    TRef.ternary (TRef.of (T := ⟨S4096, .i1⟩) main_v91) (TRef.of (T := ⟨S4096, .f32⟩) main_v89) (TRef.of (T := ⟨S4096, .f32⟩) main_call13_v1) (TRef.of (T := ⟨S4096, .f32⟩) main_v94) select ]

/-- The same operations, a called function's over the bare buffers. -/
abbrev plain14 : List (HloOp τ sig (Elt F)) :=
  [ nullary main_cst_27 (constant S_ .f32 0x00000000#32),
    unary main_cst_27 main_v90 (broadcastInDim S4096 ![] bcast_S_S4096 : (⟨S_, .f32⟩ : BufTy).Contents (Elt F) → (⟨S4096, .f32⟩ : BufTy).Contents (Elt F)),
    binary main_v89 main_v90 main_v91 (cmpf .ogt : (⟨S4096, .f32⟩ : BufTy).Contents (Elt F) → (⟨S4096, .f32⟩ : BufTy).Contents (Elt F) → (⟨S4096, .i1⟩ : BufTy).Contents (Elt F)),
    unary main_v91 main_v92 ((extui 32 · natLt_1_32) : (⟨S4096, .i1⟩ : BufTy).Contents (Elt F) → (⟨S4096, .i32⟩ : BufTy).Contents (Elt F)),
    nullary main_c_28 (constantI S_ 32 0#32),
    binary main_v92 main_c_28 main_v93 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_cst_29 (constant S_ .f32 0x00000000#32),
    unary main_cst_29 main_call13_v0 (id : (⟨S_, .f32⟩ : BufTy).Contents (Elt F) → (⟨S_, .f32⟩ : BufTy).Contents (Elt F)),
    unary main_call13_v0 main_call13_v1 (broadcastInDim S4096 ![] bcast_S_S4096 : (⟨S_, .f32⟩ : BufTy).Contents (Elt F) → (⟨S4096, .f32⟩ : BufTy).Contents (Elt F)),
    ternary main_v91 main_v89 main_call13_v1 main_v94 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ]

theorem seg14_eq : (seg14 (F := F)) = plain14 := rfl

theorem step14_plain {V : Valuation τ sig (Elt Ideal)} {x0 : (⟨S4096x1024, .f32⟩ : BufTy).Contents (Elt Ideal)} {x1 x2 : (⟨S4096x4096, .i32⟩ : BufTy).Contents (Elt Ideal)}
    (h : Inv13 V x0 x1 x2) : Inv14 (after (plain14 (F := Ideal)) V) x0 x1 x2 where
  v93 := by
    after_results_simp
    rw [h.v89]
    rfl
  v94 := by
    after_results_simp
    rw [h.v89]
    rfl

theorem step14 {V : Valuation τ sig (Elt Ideal)} {x0 : (⟨S4096x1024, .f32⟩ : BufTy).Contents (Elt Ideal)} {x1 x2 : (⟨S4096x4096, .i32⟩ : BufTy).Contents (Elt Ideal)}
    (h : Inv13 V x0 x1 x2) : Inv14 (after (seg14 (F := Ideal)) V) x0 x1 x2 := by
  rw [seg14_eq]
  exact step14_plain h

end Cert.RefFold

end
-- ==== Proof.RefFold15.lean ====
/-
  Line 15 of the reference's run: operations 159 to 169 of its 169, and what they leave.

  From contents V in which every buffer the line reads holds its value function of the arguments (Inv14), the fold of
  the line's operations over V holds, at each buffer a later line reads, that buffer's value function (Inv15): a
  buffer the line does not write keeps its contents; a buffer it writes holds the composition of the line's operations
  over what V holds at the buffers read, which is its value function unfolded down to those buffers.
  An operation of a called function is written over typed references, its function moved to the buffers' own types along
  equations that hold by computation; the same operation written over the bare buffers (plain15) is equal to it by
  definition, and the fold is read on that form, where no transport stands between an operation and its operands.
-/
import proofs.«146731_j26792005992922_2_alg».proof.Proof.RefFoldInv

noncomputable section

namespace Cert.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 159 to 169 of the reference, in order. -/
abbrev seg15 : List (HloOp τ sig (Elt F)) :=
  [ nullary main_cst_30 (constant S_ .f32 0x00000000#32),
    binary main_v94 main_cst_30 main_v95 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_31 (constantI S_ 32 1#32),
    binary main_v93 main_c_31 main_v96 (maxsi : (⟨S_, .i32⟩ : BufTy).Contents (Elt F) → (⟨S_, .i32⟩ : BufTy).Contents (Elt F) → (⟨S_, .i32⟩ : BufTy).Contents (Elt F)),
    unary main_v96 main_v97 (sitofp .f32 : (⟨S_, .i32⟩ : BufTy).Contents (Elt F) → (⟨S_, .f32⟩ : BufTy).Contents (Elt F)),
    binary main_v95 main_v97 main_v98 (Host.divf : (⟨S_, .f32⟩ : BufTy).Contents (Elt F) → (⟨S_, .f32⟩ : BufTy).Contents (Elt F) → (⟨S_, .f32⟩ : BufTy).Contents (Elt F)),
    nullary main_c_32 (constantI S_ 32 0#32),
    binary main_v93 main_c_32 main_v99 (cmpi .eq : (⟨S_, .i32⟩ : BufTy).Contents (Elt F) → (⟨S_, .i32⟩ : BufTy).Contents (Elt F) → (⟨S_, .i1⟩ : BufTy).Contents (Elt F)),
    nullary main_cst_33 (constant S_ .f32 0x00000000#32),
    TRef.unary (TRef.of (T := ⟨S_, .f32⟩) main_cst_33) (TRef.of (T := ⟨S_, .f32⟩) main_call14_v0) id,
    TRef.ternary (TRef.of (T := ⟨S_, .i1⟩) main_v99) (TRef.of (T := ⟨S_, .f32⟩) main_call14_v0) (TRef.of (T := ⟨S_, .f32⟩) main_v98) (TRef.of (T := ⟨S_, .f32⟩) main_v100) select ]

/-- The same operations, a called function's over the bare buffers. -/
abbrev plain15 : List (HloOp τ sig (Elt F)) :=
  [ nullary main_cst_30 (constant S_ .f32 0x00000000#32),
    binary main_v94 main_cst_30 main_v95 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_31 (constantI S_ 32 1#32),
    binary main_v93 main_c_31 main_v96 (maxsi : (⟨S_, .i32⟩ : BufTy).Contents (Elt F) → (⟨S_, .i32⟩ : BufTy).Contents (Elt F) → (⟨S_, .i32⟩ : BufTy).Contents (Elt F)),
    unary main_v96 main_v97 (sitofp .f32 : (⟨S_, .i32⟩ : BufTy).Contents (Elt F) → (⟨S_, .f32⟩ : BufTy).Contents (Elt F)),
    binary main_v95 main_v97 main_v98 (Host.divf : (⟨S_, .f32⟩ : BufTy).Contents (Elt F) → (⟨S_, .f32⟩ : BufTy).Contents (Elt F) → (⟨S_, .f32⟩ : BufTy).Contents (Elt F)),
    nullary main_c_32 (constantI S_ 32 0#32),
    binary main_v93 main_c_32 main_v99 (cmpi .eq : (⟨S_, .i32⟩ : BufTy).Contents (Elt F) → (⟨S_, .i32⟩ : BufTy).Contents (Elt F) → (⟨S_, .i1⟩ : BufTy).Contents (Elt F)),
    nullary main_cst_33 (constant S_ .f32 0x00000000#32),
    unary main_cst_33 main_call14_v0 (id : (⟨S_, .f32⟩ : BufTy).Contents (Elt F) → (⟨S_, .f32⟩ : BufTy).Contents (Elt F)),
    ternary main_v99 main_call14_v0 main_v98 main_v100 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

theorem seg15_eq : (seg15 (F := F)) = plain15 := rfl

theorem step15_plain {V : Valuation τ sig (Elt Ideal)} {x0 : (⟨S4096x1024, .f32⟩ : BufTy).Contents (Elt Ideal)} {x1 x2 : (⟨S4096x4096, .i32⟩ : BufTy).Contents (Elt Ideal)}
    (h : Inv14 V x0 x1 x2) : Inv15 (after (plain15 (F := Ideal)) V) x0 x1 x2 where
  v100 := by
    after_results_simp
    rw [h.v93, h.v94]
    rfl

theorem step15 {V : Valuation τ sig (Elt Ideal)} {x0 : (⟨S4096x1024, .f32⟩ : BufTy).Contents (Elt Ideal)} {x1 x2 : (⟨S4096x4096, .i32⟩ : BufTy).Contents (Elt Ideal)}
    (h : Inv14 V x0 x1 x2) : Inv15 (after (seg15 (F := Ideal)) V) x0 x1 x2 := by
  rw [seg15_eq]
  exact step15_plain h

end Cert.RefFold

end
-- ==== Proof.RefFold.lean ====
/-
  The reference program's run as one fold: the result buffer after all 169 operations, from any contents W, holds the
  result's value function at what W holds at the three arguments.

  The operation list is the concatenation of 15 consecutive lines; the fold over a concatenation is the fold of the later
  line over the fold of the earlier; each line carries the equations of the buffers still to be read (Inv) one line
  further; after the last line the only such buffer is the result.
-/
import proofs.«146731_j26792005992922_2_alg».proof.Proof.RefRunP
import proofs.«146731_j26792005992922_2_alg».proof.Proof.LibFoldRead
import proofs.«146731_j26792005992922_2_alg».proof.Proof.RefFold1
import proofs.«146731_j26792005992922_2_alg».proof.Proof.RefFold2
import proofs.«146731_j26792005992922_2_alg».proof.Proof.RefFold3
import proofs.«146731_j26792005992922_2_alg».proof.Proof.RefFold4
import proofs.«146731_j26792005992922_2_alg».proof.Proof.RefFold5
import proofs.«146731_j26792005992922_2_alg».proof.Proof.RefFold6
import proofs.«146731_j26792005992922_2_alg».proof.Proof.RefFold7
import proofs.«146731_j26792005992922_2_alg».proof.Proof.RefFold8
import proofs.«146731_j26792005992922_2_alg».proof.Proof.RefFold9
import proofs.«146731_j26792005992922_2_alg».proof.Proof.RefFold10
import proofs.«146731_j26792005992922_2_alg».proof.Proof.RefFold11
import proofs.«146731_j26792005992922_2_alg».proof.Proof.RefFold12
import proofs.«146731_j26792005992922_2_alg».proof.Proof.RefFold13
import proofs.«146731_j26792005992922_2_alg».proof.Proof.RefFold14
import proofs.«146731_j26792005992922_2_alg».proof.Proof.RefFold15

noncomputable section

namespace Cert.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

set_option maxRecDepth 8192 in
/-- The reference's operations are the 15 lines, one after the other. -/
theorem ops_eq : (ops (F := F)) = seg1 ++ (seg2 ++ (seg3 ++ (seg4 ++ (seg5 ++ (seg6 ++ (seg7 ++ (seg8 ++ (seg9 ++ (seg10 ++ (seg11 ++ (seg12 ++ (seg13 ++ (seg14 ++ (seg15)))))))))))))) := rfl

/-- The fold of all operations is the 15 lines' folds, nested. -/
theorem after_ops_eq (W : Valuation τ sig (Elt Ideal)) :
    after (ops (F := Ideal)) W = (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) W))))))))))))))) := by
  rw [ops_eq]
  simp only [after_append]

/-- After the whole run, from any contents, the result buffer holds the result's value function of the arguments' contents. -/
theorem fold_result (W : Valuation τ sig (Elt Ideal)) :
    StableHlo.after (ops (F := Ideal)) W (Proc.devRef .tc main_v100)
      = val_main_v100 (F := Ideal) (W (Proc.devRef .tc main_arg0)) (W (Proc.devRef .tc main_arg1)) (W (Proc.devRef .tc main_arg2)) := by
  have h0 : Inv0 W (W (Proc.devRef .tc main_arg0)) (W (Proc.devRef .tc main_arg1)) (W (Proc.devRef .tc main_arg2)) := ⟨rfl, rfl, rfl⟩
  rw [after_ops_eq]
  exact (step15 (step14 (step13 (step12 (step11 (step10 (step9 (step8 (step7 (step6 (step5 (step4 (step3 (step2 (step1 h0))))))))))))))).v100

end Cert.RefFold

end
-- ==== Proof.RefValue.lean ====
/-
  The value of the plain jnp program, read off its operations one index at a time.

  Every operation of the program has a lemma reading its result at an index from its operands at an
  index.  Chaining them from the row losses down to the normalised embeddings and the two masks shows
  that entry `i` of the row losses is the specification's row loss (the jnp spelling): the similarity
  of two rows is the sum of the products of their coordinates, the transformed logit of a pair is a
  function of that similarity and the two mask bits, a row maximum is a fold of `max` over the
  columns, a masked log-sum-exp is a sum over the columns shifted by the masked maximum, and "the mask
  keeps a column" is a 32-bit sum of the bits compared with zero.  The last operations of the program,
  from the row losses to the scalar result, are the shared closing function applied to them.
-/
import proofs.«146731_j26792005992922_2_alg».proof.Proof.RefReadP
import proofs.«146731_j26792005992922_2_alg».proof.Proof.Spec
import proofs.«146731_j26792005992922_2_alg».proof.Proof.Tail

noncomputable section

namespace Cert.RefValue

open Cert.ReferenceIdeal Cert.ReferenceIdeal.ReadP Idealize.ShloMosaic Idealize.ShloMosaic.ValueIdx

/-- A fold does not depend on how its operation is spelled. -/
theorem fold_congr_op {α β : Type*} {op op' : β → β → β} [hc : Std.Commutative op] [ha : Std.Associative op]
    [hc' : Std.Commutative op'] [ha' : Std.Associative op'] (h : op = op') (b : β) (f : α → β) (s : Finset α) :
    s.fold op b f = s.fold op' b f := by
  subst h; rfl

theorem sim_apply (x0 : (⟨S4096x1024, .f32⟩ : BufTy).Contents (Elt Ideal)) (i j : Fin 4096) :
    val_main_v15 (F := Ideal) x0 (ix2 i j) = Cert.Spec.sim (val_main_v13 (F := Ideal) x0) i j := by
  rw [val_main_v15_apply]
  unfold Cert.Spec.sim
  refine Finset.sum_congr rfl fun k _ => ?_
  rw [val_main_v14_apply]
  generalize val_main_v13 (F := Ideal) x0 = e
  have h1 : lidx_main_v15 (ix2 i j) k = ix2 i k :=
    funext fun a => Fin.ext (by match a with | ⟨0, _⟩ => rfl | ⟨1, _⟩ => rfl)
  have h2 : idx_main_v14 (ridx_main_v15 (ix2 i j) k) = ix2 j k :=
    funext fun a => Fin.ext (by match a with | ⟨0, _⟩ => rfl | ⟨1, _⟩ => rfl)
  rw [h1, h2]

theorem pos_apply (x1 : (⟨S4096x4096, .i32⟩ : BufTy).Contents (Elt Ideal)) (i j : Fin 4096) :
    val_main_v2 (F := Ideal) x1 (ix2 i j) = Cert.Spec.msk x1 i j := by
  rw [val_main_v2_apply, val_main_v1_apply, val_main_v0_apply, val_main_c_apply]
  rfl

theorem neg_apply (x2 : (⟨S4096x4096, .i32⟩ : BufTy).Contents (Elt Ideal)) (i j : Fin 4096) :
    val_main_v5 (F := Ideal) x2 (ix2 i j) = Cert.Spec.msk x2 i j := by
  rw [val_main_v5_apply, val_main_v4_apply, val_main_v3_apply, val_main_c_0_apply]
  rfl

/-- Row `i` of the transformed logits, as a function of the column. -/
abbrev nmRow (x0 : (⟨S4096x1024, .f32⟩ : BufTy).Contents (Elt Ideal)) (x1 x2 : (⟨S4096x4096, .i32⟩ : BufTy).Contents (Elt Ideal))
    (i : Fin 4096) : Fin 4096 → EReal :=
  fun j => Cert.Spec.newMat (Cert.Spec.sim (val_main_v13 (F := Ideal) x0) i j) (Cert.Spec.msk x1 i j) (Cert.Spec.msk x2 i j)

theorem v33_apply (x0 : (⟨S4096x1024, .f32⟩ : BufTy).Contents (Elt Ideal)) (x1 x2 : (⟨S4096x4096, .i32⟩ : BufTy).Contents (Elt Ideal))
    (i j : Fin 4096) :
    val_main_v33 (F := Ideal) x0 x1 x2 (ix2 i j) = nmRow x0 x1 x2 i j := by
  simp only [val_main_v33_apply, val_main_v32_apply, val_main_v31_apply, val_main_v30_apply, val_main_v29_apply, val_main_cst_7_apply,
    val_main_v28_apply, val_main_v27_apply, val_main_cst_6_apply, val_main_v26_apply, val_main_call1_v0_apply, val_main_call1_cst_apply,
    val_main_v25_apply, val_main_v24_apply, val_main_cst_5_apply,
    val_main_v23_apply, val_main_v22_apply, val_main_v21_apply, val_main_cst_4_apply, val_main_v20_apply, val_main_v19_apply, val_main_cst_3_apply,
    val_main_v18_apply, val_main_call0_v0_apply, val_main_call0_cst_apply, val_main_v17_apply, val_main_v16_apply, val_main_cst_2_apply,
    val_main_call2_v1_apply, val_main_call2_v0_apply, val_main_cst_8_apply,
    sim_apply, pos_apply, neg_apply]
  rfl

/-- A row maximum of a square array, read at row `i`: the fold of `max` over the columns. -/
theorem rowMax_read (y : FVec Ideal S4096x4096 .f32) (init : FVec Ideal S_ .f32)
    (i : Fin 4096) :
    Host.reduce (FloatOps.maximumf (F := Ideal) (φ := .f32)) y init Gen.reducesTo_S4096x4096_S4096_d1 Gen.h_S_ (ix1 i)
      = (Finset.univ : Finset (Fin 4096)).fold max (init (Shape.Idx.first Gen.h_S_)) (fun j => y (ix2 i j)) := by
  have hred : S4096x4096.Reduces [1] S4096 := by decide
  rw [Host.reduce_eq_fold_single (FloatOps.maximumf (F := Ideal) (φ := .f32)) y init Gen.reducesTo_S4096x4096_S4096_d1 hred Gen.h_S_ (ix1 i)]
  have hf : (y ∘ hred.lift (ix1 i)) = fun j : Fin 4096 => y (ix2 i j) :=
    funext fun k => congrArg y (funext fun a => Fin.ext (by match a with | ⟨0, _⟩ => rfl | ⟨1, _⟩ => rfl))
  rw [hf]
  have hop : (FloatOps.maximumf (F := Ideal) (φ := .f32)) = (max : EReal → EReal → EReal) := rfl
  exact fold_congr_op hop _ _ _

/-- An integer row sum of a square array, read at row `i`: the fold of the 32-bit addition over the columns. -/
theorem rowSumI_read (y : IVec S4096x4096 32) (init : IVec S_ 32) (i : Fin 4096) :
    Host.reduce (IntOp.addi (w := 32)) y init Gen.reducesTo_S4096x4096_S4096_d1 Gen.h_S_ (ix1 i)
      = (Finset.univ : Finset (Fin 4096)).fold IntOp.addi (init (Shape.Idx.first Gen.h_S_)) (fun j => y (ix2 i j)) := by
  have hred : S4096x4096.Reduces [1] S4096 := by decide
  rw [Host.reduce_eq_fold_single (IntOp.addi (w := 32)) y init Gen.reducesTo_S4096x4096_S4096_d1 hred Gen.h_S_ (ix1 i)]
  have hf : (y ∘ hred.lift (ix1 i)) = fun j : Fin 4096 => y (ix2 i j) :=
    funext fun k => congrArg y (funext fun a => Fin.ext (by match a with | ⟨0, _⟩ => rfl | ⟨1, _⟩ => rfl))
  rw [hf]
  exact fold_congr_op rfl _ _ _

theorem v35_apply (x0 : (⟨S4096x1024, .f32⟩ : BufTy).Contents (Elt Ideal)) (x1 x2 : (⟨S4096x4096, .i32⟩ : BufTy).Contents (Elt Ideal))
    (i : Fin 4096) :
    val_main_v35 (F := Ideal) x0 x1 x2 (ix1 i)
      = Cert.Spec.rowMax (fun j => Scalar.select (Cert.Spec.msk x1 i j) (nmRow x0 x1 x2 i j) Cert.Spec.NEG) := by
  unfold val_main_v35
  refine (rowMax_read _ _ i).trans ?_
  unfold Cert.Spec.rowMax
  have hb : val_main_cst_10 (F := Ideal) (Shape.Idx.first Gen.h_S_) = Cert.Spec.NINF := rfl
  have hf : (fun j : Fin 4096 => val_main_v34 (F := Ideal) x0 x1 x2 (ix2 i j))
      = fun j => Scalar.select (Cert.Spec.msk x1 i j) (nmRow x0 x1 x2 i j) Cert.Spec.NEG :=
    funext fun j => by
      simp only [val_main_v34_apply, v33_apply, pos_apply, val_main_call4_v0_apply, val_main_cst_9_apply]
      rfl
  rw [hb, hf]

theorem v39_apply (x0 : (⟨S4096x1024, .f32⟩ : BufTy).Contents (Elt Ideal)) (x1 x2 : (⟨S4096x4096, .i32⟩ : BufTy).Contents (Elt Ideal))
    (i : Fin 4096) :
    val_main_v39 (F := Ideal) x0 x1 x2 (ix2 i (0 : Fin 1)) = Cert.Spec.shift (nmRow x0 x1 x2 i) (Cert.Spec.msk x1 i) := by
  have h36 : idx_main_v36 (ix2 i (0 : Fin 1)) = ix1 i := funext fun a => Fin.ext (by match a with | ⟨0, _⟩ => rfl)
  rw [val_main_v39_apply, val_main_v38_apply, val_main_v36_apply, h36, v35_apply, val_main_v37_apply, val_main_cst_11_apply,
    val_main_call5_v1_apply, val_main_call5_v0_apply, val_main_cst_12_apply]
  rfl

theorem v45_apply (x0 : (⟨S4096x1024, .f32⟩ : BufTy).Contents (Elt Ideal)) (x1 x2 : (⟨S4096x4096, .i32⟩ : BufTy).Contents (Elt Ideal))
    (i j : Fin 4096) :
    val_main_v45 (F := Ideal) x0 x1 x2 (ix2 i j)
      = Ideal.exp (Scalar.select (Cert.Spec.msk x1 i j)
            (nmRow x0 x1 x2 i j - Cert.Spec.shift (nmRow x0 x1 x2 i) (Cert.Spec.msk x1 i)) Cert.Spec.Z)
          * (((Cert.Spec.msk x1 i j).toNat : ℝ) : EReal) := by
  have h40 : idx_main_v40 (ix2 i j) = ix2 i (0 : Fin 1) :=
    funext fun a => Fin.ext (by match a with | ⟨0, _⟩ => rfl | ⟨1, _⟩ => rfl)
  rw [val_main_v45_apply, val_main_v44_apply, val_main_v43_apply, val_main_v42_apply, val_main_v41_apply, val_main_v40_apply, h40,
    v39_apply, v33_apply, pos_apply, val_main_call6_v1_apply, val_main_call6_v0_apply, val_main_cst_13_apply]
  rfl

theorem v54_apply (x0 : (⟨S4096x1024, .f32⟩ : BufTy).Contents (Elt Ideal)) (x1 x2 : (⟨S4096x4096, .i32⟩ : BufTy).Contents (Elt Ideal))
    (i : Fin 4096) :
    val_main_v54 (F := Ideal) x0 x1 x2 (ix2 i (0 : Fin 1)) = Cert.Spec.lseR (nmRow x0 x1 x2 i) (Cert.Spec.msk x1 i) := by
  have h47 : idx_main_v47 (ix2 i (0 : Fin 1)) = ix1 i := funext fun a => Fin.ext (by match a with | ⟨0, _⟩ => rfl)
  have h46 : ∀ k : Fin 4096, idx_main_v46 (ix1 i) k = ix2 i k := fun k =>
    funext fun a => Fin.ext (by match a with | ⟨0, _⟩ => rfl | ⟨1, _⟩ => rfl)
  have hs : val_main_v47 (F := Ideal) x0 x1 x2 (ix2 i (0 : Fin 1))
      = Cert.Spec.Z + ∑ j : Fin 4096, Ideal.exp (Scalar.select (Cert.Spec.msk x1 i j)
            (nmRow x0 x1 x2 i j - Cert.Spec.shift (nmRow x0 x1 x2 i) (Cert.Spec.msk x1 i)) Cert.Spec.Z)
          * (((Cert.Spec.msk x1 i j).toNat : ℝ) : EReal) := by
    rw [val_main_v47_apply, h47, val_main_v46_apply, val_main_cst_14_apply]
    refine congrArg (_ + ·) (Finset.sum_congr rfl fun k _ => ?_)
    rw [h46, v45_apply]
  rw [val_main_v54_apply, val_main_v53_apply, val_main_v52_apply, val_main_v49_apply, val_main_v51_apply, val_main_v50_apply, hs,
    v39_apply, val_main_v48_apply, val_main_cst_15_apply]
  rfl

theorem v56_apply (x0 : (⟨S4096x1024, .f32⟩ : BufTy).Contents (Elt Ideal)) (x1 x2 : (⟨S4096x4096, .i32⟩ : BufTy).Contents (Elt Ideal))
    (i : Fin 4096) :
    val_main_v56 (F := Ideal) x0 x1 x2 (ix1 i)
      = Cert.Spec.rowMax (fun j => Scalar.select (Cert.Spec.msk x2 i j) (nmRow x0 x1 x2 i j) Cert.Spec.NEG) := by
  unfold val_main_v56
  refine (rowMax_read _ _ i).trans ?_
  unfold Cert.Spec.rowMax
  have hb : val_main_cst_17 (F := Ideal) (Shape.Idx.first Gen.h_S_) = Cert.Spec.NINF := rfl
  have hf : (fun j : Fin 4096 => val_main_v55 (F := Ideal) x0 x1 x2 (ix2 i j))
      = fun j => Scalar.select (Cert.Spec.msk x2 i j) (nmRow x0 x1 x2 i j) Cert.Spec.NEG :=
    funext fun j => by
      rw [val_main_v55_apply, v33_apply, neg_apply, val_main_call8_v0_apply, val_main_cst_16_apply]
      rfl
  rw [hb, hf]

theorem v60_apply (x0 : (⟨S4096x1024, .f32⟩ : BufTy).Contents (Elt Ideal)) (x1 x2 : (⟨S4096x4096, .i32⟩ : BufTy).Contents (Elt Ideal))
    (i : Fin 4096) :
    val_main_v60 (F := Ideal) x0 x1 x2 (ix2 i (0 : Fin 1)) = Cert.Spec.shift (nmRow x0 x1 x2 i) (Cert.Spec.msk x2 i) := by
  have h57 : idx_main_v57 (ix2 i (0 : Fin 1)) = ix1 i := funext fun a => Fin.ext (by match a with | ⟨0, _⟩ => rfl)
  rw [val_main_v60_apply, val_main_v59_apply, val_main_v57_apply, h57, v56_apply, val_main_v58_apply, val_main_cst_18_apply,
    val_main_call9_v1_apply, val_main_call9_v0_apply, val_main_cst_19_apply]
  rfl

theorem v66_apply (x0 : (⟨S4096x1024, .f32⟩ : BufTy).Contents (Elt Ideal)) (x1 x2 : (⟨S4096x4096, .i32⟩ : BufTy).Contents (Elt Ideal))
    (i j : Fin 4096) :
    val_main_v66 (F := Ideal) x0 x1 x2 (ix2 i j)
      = Ideal.exp (Scalar.select (Cert.Spec.msk x2 i j)
            (nmRow x0 x1 x2 i j - Cert.Spec.shift (nmRow x0 x1 x2 i) (Cert.Spec.msk x2 i)) Cert.Spec.Z)
          * (((Cert.Spec.msk x2 i j).toNat : ℝ) : EReal) := by
  have h61 : idx_main_v61 (ix2 i j) = ix2 i (0 : Fin 1) :=
    funext fun a => Fin.ext (by match a with | ⟨0, _⟩ => rfl | ⟨1, _⟩ => rfl)
  rw [val_main_v66_apply, val_main_v65_apply, val_main_v64_apply, val_main_v63_apply, val_main_v62_apply, val_main_v61_apply, h61,
    v60_apply, v33_apply, neg_apply, val_main_call10_v1_apply, val_main_call10_v0_apply, val_main_cst_20_apply]
  rfl

theorem v75_apply (x0 : (⟨S4096x1024, .f32⟩ : BufTy).Contents (Elt Ideal)) (x1 x2 : (⟨S4096x4096, .i32⟩ : BufTy).Contents (Elt Ideal))
    (i : Fin 4096) :
    val_main_v75 (F := Ideal) x0 x1 x2 (ix2 i (0 : Fin 1)) = Cert.Spec.lseR (nmRow x0 x1 x2 i) (Cert.Spec.msk x2 i) := by
  have h68 : idx_main_v68 (ix2 i (0 : Fin 1)) = ix1 i := funext fun a => Fin.ext (by match a with | ⟨0, _⟩ => rfl)
  have h67 : ∀ k : Fin 4096, idx_main_v67 (ix1 i) k = ix2 i k := fun k =>
    funext fun a => Fin.ext (by match a with | ⟨0, _⟩ => rfl | ⟨1, _⟩ => rfl)
  have hs : val_main_v68 (F := Ideal) x0 x1 x2 (ix2 i (0 : Fin 1))
      = Cert.Spec.Z + ∑ j : Fin 4096, Ideal.exp (Scalar.select (Cert.Spec.msk x2 i j)
            (nmRow x0 x1 x2 i j - Cert.Spec.shift (nmRow x0 x1 x2 i) (Cert.Spec.msk x2 i)) Cert.Spec.Z)
          * (((Cert.Spec.msk x2 i j).toNat : ℝ) : EReal) := by
    rw [val_main_v68_apply, h68, val_main_v67_apply, val_main_cst_21_apply]
    refine congrArg (_ + ·) (Finset.sum_congr rfl fun k _ => ?_)
    rw [h67, v66_apply]
  rw [val_main_v75_apply, val_main_v74_apply, val_main_v73_apply, val_main_v70_apply, val_main_v72_apply, val_main_v71_apply, hs,
    v60_apply, val_main_v69_apply, val_main_cst_22_apply]
  rfl

theorem v77_apply (x0 : (⟨S4096x1024, .f32⟩ : BufTy).Contents (Elt Ideal)) (x1 x2 : (⟨S4096x4096, .i32⟩ : BufTy).Contents (Elt Ideal))
    (i : Fin 4096) :
    val_main_v77 (F := Ideal) x0 x1 x2 (ix2 i (0 : Fin 1))
      = Cert.Spec.softplusR (Cert.Spec.lseR (nmRow x0 x1 x2 i) (Cert.Spec.msk x1 i) + Cert.Spec.lseR (nmRow x0 x1 x2 i) (Cert.Spec.msk x2 i)) := by
  rw [val_main_v77_apply, val_main_call12_v4_apply, val_main_call12_v6_apply, val_main_call12_v11_apply, val_main_call12_v1_apply,
    val_main_call12_v10_apply, val_main_call12_v9_apply, val_main_call12_v8_apply, val_main_call12_v7_apply, val_main_call12_v3_apply,
    val_main_call12_v0_apply, val_main_call12_v2_apply, val_main_call12_v5_apply, val_main_call12_cst_apply,
    val_main_v76_apply, v54_apply, v75_apply]
  rfl

theorem v82_apply (x1 : (⟨S4096x4096, .i32⟩ : BufTy).Contents (Elt Ideal)) (i : Fin 4096) :
    val_main_v82 (F := Ideal) x1 (ix1 i) = Cert.Spec.anyR (Cert.Spec.msk x1 i) := by
  rw [val_main_v82_apply, val_main_v81_apply, val_main_c_24_apply]
  unfold val_main_v80 Cert.Spec.anyR
  refine congrArg (IntOp.cmpi .sgt · 0#32) ((rowSumI_read _ _ i).trans ?_)
  have hb : val_main_c_23 (F := Ideal) (Shape.Idx.first Gen.h_S_) = 0#32 := rfl
  have hf : (fun j : Fin 4096 => val_main_v79 (F := Ideal) x1 (ix2 i j)) = fun j => (Cert.Spec.msk x1 i j).setWidth 32 :=
    funext fun j => by rw [val_main_v79_apply, pos_apply]
  rw [hb, hf]

theorem v86_apply (x2 : (⟨S4096x4096, .i32⟩ : BufTy).Contents (Elt Ideal)) (i : Fin 4096) :
    val_main_v86 (F := Ideal) x2 (ix1 i) = Cert.Spec.anyR (Cert.Spec.msk x2 i) := by
  rw [val_main_v86_apply, val_main_v85_apply, val_main_c_26_apply]
  unfold val_main_v84 Cert.Spec.anyR
  refine congrArg (IntOp.cmpi .sgt · 0#32) ((rowSumI_read _ _ i).trans ?_)
  have hb : val_main_c_25 (F := Ideal) (Shape.Idx.first Gen.h_S_) = 0#32 := rfl
  have hf : (fun j : Fin 4096 => val_main_v83 (F := Ideal) x2 (ix2 i j)) = fun j => (Cert.Spec.msk x2 i j).setWidth 32 :=
    funext fun j => by rw [val_main_v83_apply, neg_apply]
  rw [hb, hf]

/-- Entry `i` of the row losses is the specification's row loss, in the jnp program's spelling. -/
theorem losses_apply (x0 : (⟨S4096x1024, .f32⟩ : BufTy).Contents (Elt Ideal)) (x1 x2 : (⟨S4096x4096, .i32⟩ : BufTy).Contents (Elt Ideal))
    (i : Fin 4096) :
    val_main_v89 (F := Ideal) x0 x1 x2 (ix1 i) = Cert.Spec.lossR (val_main_v13 (F := Ideal) x0) x1 x2 i := by
  have h78 : idx_main_v78 (ix1 i) = ix2 i (0 : Fin 1) :=
    funext fun a => Fin.ext (by match a with | ⟨0, _⟩ => exact Nat.div_one _ | ⟨1, _⟩ => rfl)
  rw [val_main_v89_apply, val_main_v88_apply, val_main_v87_apply, val_main_v78_apply, h78, v77_apply, v82_apply, v86_apply]
  rfl

/-- The scalar result is the shared closing function of the row losses. -/
theorem result_eq (x0 : (⟨S4096x1024, .f32⟩ : BufTy).Contents (Elt Ideal)) (x1 x2 : (⟨S4096x4096, .i32⟩ : BufTy).Contents (Elt Ideal)) :
    val_main_v100 (F := Ideal) x0 x1 x2
      = Cert.Tail.tail Gen.bcast_S_S4096 Gen.reducesTo_S4096_S_d0 Gen.h_S_ Gen.natLt_1_32 (val_main_v89 (F := Ideal) x0 x1 x2) := by
  unfold val_main_v100 val_main_v99 val_main_v98 val_main_v97 val_main_v96 val_main_v95 val_main_v94 val_main_v93 val_main_v92 val_main_v91
    val_main_v90 val_main_call14_v0 val_main_call13_v1 val_main_call13_v0 val_main_cst_33 val_main_cst_30 val_main_cst_29 val_main_cst_27
    val_main_c_32 val_main_c_31 val_main_c_28 Cert.Tail.tail
  generalize val_main_v89 (F := Ideal) x0 x1 x2 = L
  rfl

end Cert.RefValue

end
-- ==== Proof.RefNorm.lean ====
/-
  The jnp program's normalised embeddings are the shared normalisation of its argument: its first ten
  operations, unfolded, are `Norm.norm` word for word.
-/
import proofs.«146731_j26792005992922_2_alg».proof.Proof.RefReadP
import proofs.«146731_j26792005992922_2_alg».proof.Proof.Norm

noncomputable section

namespace Cert.RefValue

open Cert.ReferenceIdeal Cert.ReferenceIdeal.ReadP Idealize.ShloMosaic Cert.ReferenceIdeal.Facts₀

theorem v13_eq_norm (x0 : (⟨S4096x1024, .f32⟩ : BufTy).Contents (Elt Ideal)) :
    val_main_v13 (F := Ideal) x0
      = Cert.Norm.norm reducesTo_S4096x1024_S4096_d1 h_S_ bcast_S4096_S4096x1_0 bcast_S_S4096x1 bcast_S4096x1_S4096x1024_0_1 x0 := by
  unfold val_main_v13 val_main_v12 val_main_v11 val_main_v10 val_main_v9 val_main_v8 val_main_v7 val_main_v6 val_main_cst
    val_main_cst_1 Cert.Norm.norm
  rfl

end Cert.RefValue

end
-- ==== Proof.SpecLaw.lean ====
/-
  The two spellings of the circle loss of one row agree, step by step, over the extended reals.

  Nothing here needs finiteness: only a * 1 = a, a * 0 = 0, 0 + a = a, 0 - a = -a on EReal,
  the fact that a one-bit word is 0 or 1, and a count of set bits that cannot wrap at 32 bits.
-/
import proofs.«146731_j26792005992922_2_alg».proof.Proof.Spec

noncomputable section

namespace Cert.Spec

open Idealize.ShloMosaic Idealize.ShloMosaic.ValueIdx

/-- The literal zero word is the extended real 0. -/
theorem Z_eq : Z = 0 := Ideal.ofBits_zero_f32

/-- A one-bit word read as a natural number and coerced: 1 for the bit 1, 0 for the bit 0. -/
theorem coe_toNat_one : (((1#1 : BitVec 1).toNat : ℝ) : EReal) = 1 := by
  simp

theorem coe_toNat_zero : (((0#1 : BitVec 1).toNat : ℝ) : EReal) = 0 := by
  simp

/-- A select against the zero word is a product with the bit as a number. -/
theorem select_Z_eq_mul (v : BitVec 1) (X : EReal) :
    Scalar.select v X Z = X * (((v.toNat : ℕ) : ℝ) : EReal) := by
  rcases BitVec.eq_zero_or_eq_one v with h | h
  · subst h
    rw [select_zero, coe_toNat_zero, mul_zero, Z_eq]
  · subst h
    rw [select_one, coe_toNat_one, mul_one]

/-- The masked exponential, column by column. -/
theorem maskedExp_eq (v : BitVec 1) (a : EReal) :
    Scalar.select v (Ideal.exp a) Z = Ideal.exp (Scalar.select v a Z) * (((v.toNat : ℕ) : ℝ) : EReal) := by
  rcases BitVec.eq_zero_or_eq_one v with h | h
  · subst h
    rw [select_zero, select_zero, coe_toNat_zero, mul_zero, Z_eq]
  · subst h
    rw [select_one, select_one, coe_toNat_one, mul_one]

theorem lseK_eq_lseR (x : Fin 4096 → EReal) (mk : Fin 4096 → BitVec 1) : lseK x mk = lseR x mk := by
  have hsum : (∑ j, Scalar.select (mk j) (Ideal.exp (x j - shift x mk)) Z)
      = Z + ∑ j, Ideal.exp (Scalar.select (mk j) (x j - shift x mk) Z) * ((((mk j).toNat : ℕ) : ℝ) : EReal) := by
    refine (Finset.sum_congr rfl fun j _ => maskedExp_eq (mk j) _).trans ?_
    rw [Z_eq, zero_add]
  have hneg : Z - shift x mk = -(shift x mk) := by rw [Z_eq, zero_sub]
  unfold lseK lseR
  rw [hsum, hneg]

theorem softplusK_eq_softplusR (x : EReal) : softplusK x = softplusR x := by
  have hneg : ∀ a : EReal, Z - a = -a := fun a => by rw [Z_eq, zero_sub]
  have hcmp : ∀ a b : EReal, Ideal.cmp .one a b = Ideal.cmp .une a b := fun a b => rfl
  unfold softplusK softplusR
  rw [hneg, hcmp]

/-! The test "the mask keeps a column": both spellings say that the count of set bits is positive. -/

/-- A one-bit word is at most 1 as a number. -/
theorem toNat_le_one (v : BitVec 1) : v.toNat ≤ 1 := by
  have := v.isLt
  omega

/-- A bit widened to 32 bits keeps its value, read unsigned … -/
theorem toNat_setWidth32 (v : BitVec 1) : (v.setWidth 32).toNat = v.toNat := by
  rcases BitVec.eq_zero_or_eq_one v with h | h <;> subst h <;> decide

/-- … and read signed. -/
theorem toInt_setWidth32 (v : BitVec 1) : (v.setWidth 32).toInt = (v.toNat : ℤ) := by
  rcases BitVec.eq_zero_or_eq_one v with h | h <;> subst h <;> decide

/-- The number of set bits among any set of columns is at most 4096. -/
theorem count_le (mk : Fin 4096 → BitVec 1) (S : Finset (Fin 4096)) :
    ∑ j ∈ S, (mk j).toNat ≤ 4096 := by
  calc ∑ j ∈ S, (mk j).toNat ≤ S.card • 1 :=
        Finset.sum_le_card_nsmul S _ 1 (fun j _ => toNat_le_one _)
    _ = S.card := by simp
    _ ≤ 4096 := by simpa using S.card_le_univ

/-- The float sum of the bits over any set of columns is the count of set bits there. -/
theorem floatSum_eq (mk : Fin 4096 → BitVec 1) (S : Finset (Fin 4096)) :
    ∑ j ∈ S, ((((mk j).setWidth 32).toInt : ℝ) : EReal)
      = (((∑ j ∈ S, (mk j).toNat : ℕ) : ℝ) : EReal) := by
  classical
  induction S using Finset.induction_on with
  | empty => simp
  | insert a s ha ih =>
    rw [Finset.sum_insert ha, Finset.sum_insert ha, ih, toInt_setWidth32, Nat.cast_add,
      EReal.coe_add, Int.cast_natCast]

/-- The 32-bit integer sum of the bits over any set of columns is the count of set bits there: the
    count is at most 4096, so the addition never wraps. -/
theorem intSum_toNat (mk : Fin 4096 → BitVec 1) (S : Finset (Fin 4096)) :
    (S.fold IntOp.addi 0#32 fun j => (mk j).setWidth 32).toNat = ∑ j ∈ S, (mk j).toNat := by
  classical
  induction S using Finset.induction_on with
  | empty => simp
  | insert a s ha ih =>
    rw [Finset.fold_insert ha, Finset.sum_insert ha]
    show ((mk a).setWidth 32 + _).toNat = _
    rw [BitVec.toNat_add, ih, toNat_setWidth32]
    have h1 := toNat_le_one (mk a)
    have h2 := count_le mk s
    omega

theorem anyK_eq_count (mk : Fin 4096 → BitVec 1) :
    anyK mk = BitVec.ofBool (decide (0 < ∑ j, (mk j).toNat)) := by
  unfold anyK Ideal.cmp
  show BitVec.ofBool (decide (Z < _)) = _
  rw [floatSum_eq, Z_eq]
  refine congrArg BitVec.ofBool (decide_eq_decide.mpr ?_)
  rw [← EReal.coe_zero, EReal.coe_lt_coe_iff, Nat.cast_pos]

theorem anyR_eq_count (mk : Fin 4096 → BitVec 1) :
    anyR mk = BitVec.ofBool (decide (0 < ∑ j, (mk j).toNat)) := by
  unfold anyR IntOp.cmpi
  show BitVec.ofBool ((0#32).slt _) = _
  have hn := intSum_toNat mk Finset.univ
  have hc := count_le mk Finset.univ
  rw [BitVec.slt_eq_decide]
  refine congrArg BitVec.ofBool (decide_eq_decide.mpr ?_)
  rw [BitVec.toInt_zero, BitVec.toInt_eq_toNat_of_lt (by rw [hn]; omega), hn]
  exact Nat.cast_pos

theorem anyK_eq_anyR (mk : Fin 4096 → BitVec 1) : anyK mk = anyR mk := by
  rw [anyK_eq_count, anyR_eq_count]

/-! The row loss and the whole problem. -/

theorem rowK_eq_rowR (s : Fin 4096 → EReal) (p n : Fin 4096 → BitVec 1) : rowK s p n = rowR s p n := by
  unfold rowK rowR
  rw [select_Z_eq_mul, anyK_eq_anyR, anyK_eq_anyR, lseK_eq_lseR, lseK_eq_lseR, softplusK_eq_softplusR]

theorem lossK_eq_lossR (e : (⟨2, ![4096, 1024]⟩ : Shape).Idx → EReal)
    (a1 a2 : (⟨2, ![4096, 4096]⟩ : Shape).Idx → BitVec 32) : lossK e a1 a2 = lossR e a1 a2 := by
  funext i
  exact rowK_eq_rowR _ _ _

end Cert.Spec

end
-- ==== Proof.Claims.lean ====
/-
  The five claims.  Both programs normalise the embeddings by the same ten operations, and both end
  with the same mean over the positive row losses; between the two, the kernel computes the 4096 row
  losses block by block (its region's write-backs cover the output array) and the jnp program computes
  them whole, and the two spellings of a row's loss agree on the extended reals (`Spec.lossK_eq_lossR`).
  So the two results are one function of the arguments, and memories that agree on the arguments give
  equal results.  The frames are the runs with the results forgotten.
-/
import proofs.«146731_j26792005992922_2_alg».proof.Defs
import proofs.«146731_j26792005992922_2_alg».proof.Proof.Gen.Pre_finite_inputs
import proofs.«146731_j26792005992922_2_alg».proof.Proof.KernelRun
import proofs.«146731_j26792005992922_2_alg».proof.Proof.KernelIdealResult
import proofs.«146731_j26792005992922_2_alg».proof.Proof.RefRunP
import proofs.«146731_j26792005992922_2_alg».proof.Proof.RefFold
import proofs.«146731_j26792005992922_2_alg».proof.Proof.RefValue
import proofs.«146731_j26792005992922_2_alg».proof.Proof.RefNorm
import proofs.«146731_j26792005992922_2_alg».proof.Proof.SpecLaw

noncomputable section

namespace Cert.Proof.Claims

open Idealize.ShloMosaic Idealize.ShloMosaic.TcCoe Idealize.SL.Sem Idealize.ShloMosaic.ValueIdx Idealize.ShloMosaic.StableHlo

/-- The jnp program's result: the shared tail of its row losses, those the jnp spelling of the normalised rows. -/
theorem ref_result (x0 : (⟨Cert.ReferenceIdeal.S4096x1024, .f32⟩ : BufTy).Contents (Elt Ideal))
    (x1 x2 : (⟨Cert.ReferenceIdeal.S4096x4096, .i32⟩ : BufTy).Contents (Elt Ideal)) :
    Cert.ReferenceIdeal.ReadP.val_main_v100 (F := Ideal) x0 x1 x2
      = Cert.Tail.tail Cert.ReferenceIdeal.Facts₀.bcast_S_S4096 Cert.ReferenceIdeal.Facts₀.reducesTo_S4096_S_d0
          Cert.ReferenceIdeal.Facts₀.h_S_ Cert.ReferenceIdeal.Facts₀.natLt_1_32
          (fun i => Cert.Spec.lossR
            (Cert.Norm.norm Cert.ReferenceIdeal.Facts₀.reducesTo_S4096x1024_S4096_d1 Cert.ReferenceIdeal.Facts₀.h_S_
              Cert.ReferenceIdeal.Facts₀.bcast_S4096_S4096x1_0 Cert.ReferenceIdeal.Facts₀.bcast_S_S4096x1
              Cert.ReferenceIdeal.Facts₀.bcast_S4096x1_S4096x1024_0_1 x0) x1 x2 (i 0)) := by
  rw [Cert.RefValue.result_eq]
  refine congrArg (Cert.Tail.tail _ _ _ _) ?_
  funext i
  obtain ⟨a, rfl⟩ : ∃ a : Fin 4096, i = ix1 a := ⟨i 0, eq_ix1 i⟩
  exact (Cert.RefValue.losses_apply x0 x1 x2 a).trans (by rw [Cert.RefValue.v13_eq_norm])

/-- The two closed results are one function of the arguments: the same normalisation, the two spellings of the
    row loss (equal on the extended reals), the same closing mean; the shape facts are propositions. -/
theorem results_eq (hr hr' : Cert.Norm.SA.ReducesTo [1] Cert.Norm.SR) (h0 h0' : 0 < Cert.Norm.S0.numel)
    (hb1 hb1' : Cert.Norm.SR.BroadcastsInDim Cert.Norm.SC (![0] : Fin 1 → Fin Cert.Norm.SC.rank))
    (hb2 hb2' : Cert.Norm.S0.BroadcastsInDim Cert.Norm.SC (![] : Fin 0 → Fin Cert.Norm.SC.rank))
    (hb3 hb3' : Cert.Norm.SC.BroadcastsInDim Cert.Norm.SA (![0, 1] : Fin 2 → Fin Cert.Norm.SA.rank))
    (tb tb' : Cert.Tail.S0.BroadcastsInDim Cert.Tail.S1 (![] : Fin 0 → Fin Cert.Tail.S1.rank))
    (tr tr' : Cert.Tail.S1.ReducesTo [0] Cert.Tail.S0) (t0 t0' : 0 < Cert.Tail.S0.numel) (tl tl' : 1 < 32)
    (e e' : FVec Ideal Cert.Norm.SA .f32) (a1 a1' a2 a2' : (⟨2, ![4096, 4096]⟩ : Shape).Idx → BitVec 32)
    (he : e' = e) (h1 : a1' = a1) (h2 : a2' = a2) :
    Cert.Tail.tail tb' tr' t0' tl' (fun i => Cert.Spec.lossR (Cert.Norm.norm hr' h0' hb1' hb2' hb3' e') a1' a2' (i 0))
      = Cert.Tail.tail tb tr t0 tl (fun i => Cert.Spec.lossK (Cert.Norm.norm hr h0 hb1 hb2 hb3 e) a1 a2 ⟨(i 0).val, (i 0).isLt⟩) := by
  subst he h1 h2
  rw [Cert.Spec.lossK_eq_lossR]
  rfl

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Fr.W6 (F := Ideal) m ρ c (Proc.devRef .tc Cert.KernelIdeal.main_v20), ?_, ?_⟩
  · exact Cert.KernelIdeal.Fr.run_main m ρ fun s h c =>
      ⟨h c _ (Cert.KernelIdeal.Fr.mem_uc Cert.KernelIdeal.main_v20 (by decide)),
       (h c _ (Cert.KernelIdeal.Fr.mem_uc Cert.KernelIdeal.main_arg0 (by decide))).trans (Cert.KernelIdeal.Fr.W6_main_arg0 m ρ c),
       (h c _ (Cert.KernelIdeal.Fr.mem_uc Cert.KernelIdeal.main_arg1 (by decide))).trans (Cert.KernelIdeal.Fr.W6_main_arg1 m ρ c),
       (h c _ (Cert.KernelIdeal.Fr.mem_uc Cert.KernelIdeal.main_arg2 (by decide))).trans (Cert.KernelIdeal.Fr.W6_main_arg2 m ρ c)⟩
  · refine (θ_run Cert.ReferenceIdeal.defs _ _).mono (fun _ h c => ⟨(h c).1.trans ?_, (h c).2⟩)
      (Cert.ReferenceIdeal.ValueP.run (F := Ideal) m' ρ')
    exact (Cert.RefFold.fold_result _).trans ((ref_result _ _ _).trans
      ((results_eq _ _ _ _ _ _ _ _ _ _ _ _ _ _ _ _ _ _ _ _ _ _ _ _ (hagree c).1 (hagree c).2.1 (hagree c).2.2).trans
        (Cert.KernelIdeal.Fr.kernel_result m ρ c).symm))

end Cert.Proof.Claims

end
-- ==== Proof.lean ====
/-
  The certificate: the programs' stated side conditions are the generated instances; the five claims are
  proved in Proof/Claims.lean (the three frames, the trivial preservation — the ideal pass rewrote
  nothing —, and the algebraic equivalence of the idealized kernel and the idealized jnp program).
-/
import proofs.«146731_j26792005992922_2_alg».proof.Defs
import proofs.«146731_j26792005992922_2_alg».proof.Proof.Gen.Kernel
import proofs.«146731_j26792005992922_2_alg».proof.Proof.Gen.KernelIdeal
import proofs.«146731_j26792005992922_2_alg».proof.Proof.Gen.ReferenceIdeal
import proofs.«146731_j26792005992922_2_alg».proof.Proof.Gen.Pre_finite_inputs
import proofs.«146731_j26792005992922_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
